-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x512 : Shape := ⟨3, ![4096, 2, 512]⟩
abbrev S4096x512 : Shape := ⟨2, ![4096, 512]⟩
abbrev S4096 : Shape := ⟨1, ![4096]⟩
abbrev S_ : Shape := ⟨0, ![]⟩

class Facts : Prop where
  bcast_S_S4096x2x512 : S_.BroadcastsInDim S4096x2x512 (![] : Fin 0 → Fin S4096x2x512.rank)
  reducesTo_S4096x2x512_S_d0_1_2 : S4096x2x512.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x2x512 .f32) (main_arg1 : FVec F S4096x512 .f32) (main_arg2 : FVec F S4096x512 .f32) (main_arg3 : IVec S4096 32) : IVec S_ 1 :=
  let main_v0 : FVec F S4096x2x512 .f32 := Host.absf main_arg0
  let main_cst : FVec F S_ .f32 := constant S_ .f32 0x7F800000#32
  let main_v1 : FVec F S4096x2x512 .f32 := broadcastInDim S4096x2x512 ![] bcast_S_S4096x2x512 main_cst
  let main_v2 : IVec S4096x2x512 1 := cmpf .olt main_v0 main_v1
  let main_c : IVec S_ 1 := constantI S_ 1 1#1
  let main_v3 : IVec S_ 1 := (fun x v => Host.reduce IntOp.andi x v reducesTo_S4096x2x512_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  main_v13
-- ==== Kernel.lean ====
abbrev S4096x2x512 : Shape := ⟨3, ![4096, 2, 512]⟩
abbrev S4096x512 : Shape := ⟨2, ![4096, 512]⟩
abbrev S4096 : Shape := ⟨1, ![4096]⟩
abbrev S_ : Shape := ⟨0, ![]⟩
abbrev S4096x1 : Shape := ⟨2, ![4096, 1]⟩
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S1024x512 : Shape := ⟨2, ![1024, 512]⟩
abbrev S512x512 : Shape := ⟨2, ![512, 512]⟩
abbrev S1024x1 : Shape := ⟨2, ![1024, 1]⟩
abbrev S1x512 : Shape := ⟨2, ![1, 512]⟩
abbrev S1024 : Shape := ⟨1, ![1024]⟩

abbrev nBuf : Space → Nat
  | .hbm => 32
  | .vmem => 28
  | .smem => 0
  | _ => 0

abbrev bufTy : (tb : Table) → Fin (tcTables nBuf tb) → BufTy
  | .hbm, ⟨0, _⟩ => ⟨S4096x2x512, .f32⟩
  | .hbm, ⟨1, _⟩ => ⟨S4096x512, .f32⟩
  | .hbm, ⟨2, _⟩ => ⟨S4096x512, .f32⟩
  | .hbm, ⟨3, _⟩ => ⟨S4096, .i32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S4096x1, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x1, .f32⟩
  | .hbm, ⟨16, _⟩ => ⟨S4096x512, .f32⟩
  | .hbm, ⟨17, _⟩ => ⟨S4096x512, .f32⟩
  | .hbm, ⟨18, _⟩ => ⟨S8192x512, .f32⟩
  | .hbm, ⟨19, _⟩ => ⟨S8192x512, .bf16⟩
  | .hbm, ⟨20, _⟩ => ⟨S8192, .i32⟩
  | .hbm, ⟨21, _⟩ => ⟨S8192x1, .i32⟩
  | .hbm, ⟨22, _⟩ => ⟨S1x8192, .i32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x512, .bf16⟩
  | .local _ .vmem, ⟨13, _⟩ => ⟨S1024x512, .bf16⟩
  | .local _ .vmem, ⟨14, _⟩ => ⟨S512x512, .bf16⟩
  | .local _ .vmem, ⟨15, _⟩ => ⟨S512x512, .bf16⟩
  | .local _ .vmem, ⟨16, _⟩ => ⟨S1024x1, .i32⟩
  | .local _ .vmem, ⟨17, _⟩ => ⟨S1024x1, .i32⟩
  | .local _ .vmem, ⟨18, _⟩ => ⟨S1x512, .i32⟩
  | .local _ .vmem, ⟨19, _⟩ => ⟨S1x512, .i32⟩
  | .local _ .vmem, ⟨20, _⟩ => ⟨S1024x1, .f32⟩
  | .local _ .vmem, ⟨21, _⟩ => ⟨S1024x1, .f32⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | _, _ => ⟨S4096x2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_cst : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc1_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v56 : BitVec 1 := Scalar.cmpi .eq arg1 c15_i32
  let v57 : BitVec 32 := Scalar.extui v56
  let c0_i32_25 : BitVec 32 := 0#32
  let v58 : BitVec 1 := Scalar.cmpi .ne v57 c0_i32_25
  v58

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  bitsLt_bf16_f32 : FTy.bits .bf16 < FTy.bits .f32
  concatenates_S4096_S4096_S8192_d0 : Shape.Concatenates [S4096, S4096] S8192 0
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S512x512_p1_0_S512x512 : S512x512.Transposes [1, 0] S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  iota_S1024x512_d0_w32 : S1024x512.Iotas .tc 32 [0]
  iota_S1024x512_d1_w32 : S1024x512.Iotas .tc 32 [1]
  reducesTo_S8192x1_S_d0_1 : S8192x1.ReducesTo [0, 1] S_
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .bf16 = 32 ∨ (Rect.block (s := S8192x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x512.size a
  hwx1_1 : ∀ i : grid1.Coords, EltTy.bits .bf16 = 32 ∨ (Rect.block (s := S8192x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .i32 = 32 ∨ (Rect.block (s := S8192x1) S1024x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .i32 = 32 ∨ (Rect.block (s := S1x8192) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S8192x1.size a
  hwx1_6 : ∀ i : grid1.Coords, EltTy.bits .f32 = 32 ∨ (Rect.block (s := S8192x1) S1024x1.size (cc1_transform_6 i) (hinb1_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v7) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v7) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v12_0) S1024x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v12_1) S1024x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4096x2x512 : Shape := ⟨3, ![4096, 2, 512]⟩
abbrev S4096x512 : Shape := ⟨2, ![4096, 512]⟩
abbrev S4096 : Shape := ⟨1, ![4096]⟩
abbrev S_ : Shape := ⟨0, ![]⟩
abbrev S4096x2 : Shape := ⟨2, ![4096, 2]⟩
abbrev S4096x2x1 : Shape := ⟨3, ![4096, 2, 1]⟩
abbrev S4096x1 : Shape := ⟨2, ![4096, 1]⟩
abbrev S8192x512 : Shape := ⟨2, ![8192, 512]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 83
  | .vmem => 0
  | .smem => 0
  | _ => 0

abbrev bufTy : (tb : Table) → Fin (tcTables nBuf tb) → BufTy
  | .hbm, ⟨0, _⟩ => ⟨S4096x2x512, .f32⟩
  | .hbm, ⟨1, _⟩ => ⟨S4096x512, .f32⟩
  | .hbm, ⟨2, _⟩ => ⟨S4096x512, .f32⟩
  | .hbm, ⟨3, _⟩ => ⟨S4096, .i32⟩
  | .hbm, ⟨4, _⟩ => ⟨S4096x2x512, .f32⟩
  | .hbm, ⟨5, _⟩ => ⟨S_, .f32⟩
  | .hbm, ⟨6, _⟩ => ⟨S4096x2, .f32⟩
  | .hbm, ⟨7, _⟩ => ⟨S4096x2x1, .f32⟩
  | .hbm, ⟨8, _⟩ => ⟨S4096x2x1, .f32⟩
  | .hbm, ⟨9, _⟩ => ⟨S4096x2x512, .f32⟩
  | .hbm, ⟨10, _⟩ => ⟨S4096x2x512, .f32⟩
  | .hbm, ⟨11, _⟩ => ⟨S4096x512, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x1, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x1, .f32⟩
  | .hbm, ⟨23, _⟩ => ⟨S4096x512, .f32⟩
  | .hbm, ⟨24, _⟩ => ⟨S4096x512, .f32⟩
  | .hbm, ⟨25, _⟩ => ⟨S8192x512, .f32⟩
  | .hbm, ⟨26, _⟩ => ⟨S8192, .i32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x1, .i32⟩
  | .hbm, ⟨33, _⟩ => ⟨S1x8192, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .i32⟩
  | .hbm, ⟨42, _⟩ => ⟨S8192x8192, .i32⟩
  | .hbm, ⟨43, _⟩ => ⟨S_, .i32⟩
  | .hbm, ⟨44, _⟩ => ⟨S8192x8192, .i32⟩
  | .hbm, ⟨45, _⟩ => ⟨S8192x8192, .i32⟩
  | .hbm, ⟨46, _⟩ => ⟨S8192x8192, .i1⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x8192, .f32⟩
  | .hbm, ⟨66, _⟩ => ⟨S8192x8192, .f32⟩
  | .hbm, ⟨67, _⟩ => ⟨S8192x8192, .f32⟩
  | .hbm, ⟨68, _⟩ => ⟨S_, .f32⟩
  | .hbm, ⟨69, _⟩ => ⟨S8192x8192, .f32⟩
  | .hbm, ⟨70, _⟩ => ⟨S8192x8192, .i1⟩
  | .hbm, ⟨71, _⟩ => ⟨S_, .f32⟩
  | .hbm, ⟨72, _⟩ => ⟨S_, .f32⟩
  | .hbm, ⟨73, _⟩ => ⟨S8192x8192, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4096x2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_call1_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call2_v0 : Ref sig .tc := ⟨.hbm, 18, rfl⟩
abbrev main_call2_cst : Ref sig .tc := ⟨.hbm, 19, rfl⟩
abbrev main_call2_v1 : Ref sig .tc := ⟨.hbm, 20, rfl⟩
abbrev main_call2_v2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_2 : Ref sig .tc := ⟨.hbm, 56, rfl⟩
abbrev main_v36 : Ref sig .tc := ⟨.hbm, 57, rfl⟩
abbrev main_cst_3 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_call3_v0 : Ref sig .tc := ⟨.hbm, 72, rfl⟩
abbrev main_call3_v1 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩

abbrev nD : Nat := 1
abbrev τ : Topo := Topo.v7x

variable {F : FTy → Type} [FloatOps F]

class Facts₀ : Prop where
  reducesTo_S4096x2x512_S4096x2_d2 : S4096x2x512.ReducesTo [2] S4096x2
  h_S_ : 0 < S_.numel
  bcast_S4096x2_S4096x2x1_0_1 : S4096x2.BroadcastsInDim S4096x2x1 (![0, 1] : Fin 2 → Fin S4096x2x1.rank)
  bcast_S4096x2x1_S4096x2x512_0_1_2 : S4096x2x1.BroadcastsInDim S4096x2x512 (![0, 1, 2] : Fin 3 → Fin S4096x2x512.rank)
  reducesTo_S4096x512_S4096_d1 : S4096x512.ReducesTo [1] S4096
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  concatenates_S4096_S4096_S8192_d0 : Shape.Concatenates [S4096, S4096] S8192 0
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  bcast_S_S8192x1 : S_.BroadcastsInDim S8192x1 (![] : Fin 0 → Fin S8192x1.rank)
  reducesTo_S8192x8192_S_d0_1 : S8192x8192.ReducesTo [0, 1] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.WR0Runs.lean ====
import proofs.«116760_j49323404427556_1_alg».proof.Proof.Gen.Kernel.Launch
import proofs.«116760_j49323404427556_1_alg».proof.Proof.Gen.Kernel.Skeleton
import proofs.«116760_j49323404427556_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the row-normalising accumulation kernel): what its three control cases share

The kernel runs on an 8 x 16 grid, point `t = i * 16 + j`. Per row block `i` it zeroes two column
accumulators at `j = 0`, adds a lane sum into each at every `j`, and at `j = 15` stores their quotient
into the output block. So the grid splits into three cases by `t % 16`: `= 0` (A), strictly between (B),
`= 15` (C). -/

section Region0
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first conditional (the accumulators are zeroed): the second grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 16) — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second conditional (the quotient is stored): the second grid coordinate is 15. -/
abbrev cond0_1 (i : grid0.Coords) : Prop := k0_cond2 i = 1#1
/-- It holds at the points ≡ 15 (mod 16) — decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the quotient is not stored the output window is idle, -/
theorem idleAt0_4 : ∀ t : Fin cfg0.N, ¬cond0_1 (grid0.coords t) → cfg0.idle 4 (grid0.coords t) = true := by decide +kernel
/-- and its block is not written back there. -/
theorem noFlush0_4 : ∀ t : Fin cfg0.N, ¬cond0_1 (grid0.coords t) → (cfg0.win 4).flush t = false := by decide +kernel
/-- Where it is stored the window is live. -/
theorem liveAt0_4 : ∀ t : Fin cfg0.N, cond0_1 (grid0.coords t) → cfg0.idle 4 (grid0.coords t) = false := by decide +kernel

/-! ## The staging and scratch memrefs -/

/-- One staging buffer of the output window, through which its contents are stated. -/
abbrev VO0_4 : View sig .tc .vmem S1024x1 .f32 := (Memref.whole cc0_stg4_0 : Memref sig .tc .vmem S1024x1 .f32).view
/-- Each window's current staging memref at point `t`, spelled as the pipeline passes it, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The two accumulators: whole scoped buffers of the kernel's own, passed beside the windows. -/
abbrev scM0_0 : Memref sig .tc .vmem S1024x1 .f32 := Memref.whole cc0_scratch0
abbrev scM0_1 : Memref sig .tc .vmem S1024x1 .f32 := Memref.whole cc0_scratch1
/-- The accumulators as views: what each holds is stated through its view. -/
abbrev VS0_0 : View sig .tc .vmem S1024x1 .f32 := scM0_0.view
abbrev VS0_1 : View sig .tc .vmem S1024x1 .f32 := scM0_1.view

/-- The core's scoped buffers that are neither a staging buffer of this call nor one of its two accumulators,
    each at some contents: carried through the region unopened. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The class invariant with the two accumulators as memrefs owned at some contents, the other scoped buffers
    unopened, and the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA
  rw [Pipeline.scopedRest_split_of_list spec0 c [cc0_scratch0, cc0_scratch1] (by decide) (by decide)]
  simp only [scM0_0, scM0_1, owns_whole]; try rfl

end Cert.Kernel.Hand

end
-- ==== Proof.WR0RunA.lean ====
import proofs.«116760_j49323404427556_1_alg».proof.Proof.WR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output's staging memref and in the two accumulators, as pieces (last
    first), in case A (the accumulators are zeroed, the quotient is not stored), with the proof that on whole memrefs — the inputs' at their contents, the output's, which the case leaves alone, at contents handed back untouched,
    the accumulators at anything (the case loads each before it zeroes it, and drops the value) — the body runs to the continuation holding the inputs' as they were and
    each stored buffer with its pieces written. The pieces are the witness the symbolic run finds. -/
noncomputable def kernelRun0_A (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) :
    Σ' (L4 : List (View.Piece (Elt F) S1024x1 .f32)), Σ' (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨[], ?_, ?_, fun xi4 E K => ?run⟩
  case run =>
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.WR0RunB.lean ====
import proofs.«116760_j49323404427556_1_alg».proof.Proof.WR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output's staging memref and in the two accumulators, as pieces (last
    first), in case B (the accumulators are kept, the quotient is not stored), with the proof that on whole memrefs — the inputs' at their contents, the output's, which the case leaves alone, at contents handed back untouched,
    the accumulators at what the point before left — the body runs to the continuation holding the inputs' as they were and
    each stored buffer with its pieces written. The pieces are the witness the symbolic run finds. -/
noncomputable def kernelRun0_B (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) :
    Σ' (L4 : List (View.Piece (Elt F) S1024x1 .f32)), Σ' (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨[], ?_, ?_, fun xi4 E K => ?run⟩
  case run =>
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.WR0RunC.lean ====
import proofs.«116760_j49323404427556_1_alg».proof.Proof.WR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output's staging memref and in the two accumulators, as pieces (last
    first), in case C (the accumulators are kept, the quotient is stored), with the proof that on whole memrefs — the inputs' at their contents, the output's at anything,
    the accumulators at what the point before left — the body runs to the continuation holding the inputs' as they were and
    each stored buffer with its pieces written. The pieces are the witness the symbolic run finds. -/
noncomputable def kernelRun0_C (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) :
    Σ' (L4 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, ?_, fun E K => ?run⟩
  case run =>
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Hand

end
-- ==== Proof.WR0.lean ====
import proofs.«116760_j49323404427556_1_alg».proof.Proof.WR0RunA
import proofs.«116760_j49323404427556_1_alg».proof.Proof.WR0RunB
import proofs.«116760_j49323404427556_1_alg».proof.Proof.WR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each case leaves, point by point, and the body obligation -/

/-- Case A stores nothing into the output (the window is idle at its points and not written back there): no
    pieces — a placeholder (junk read back) that nothing consults. -/
def out0_A_4 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) : Vec F S1024x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)

/-- Case A's pieces for accumulator 0 tile it, so they cover it. -/
theorem scover0_A_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S1024x1.size (by sl_kernel_rfl) y

/-- What case A leaves in accumulator 0: its pieces read back over junk. -/
def sout0_A_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.1)

/-- Case A's pieces for accumulator 1 tile it, so they cover it. -/
theorem scover0_A_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S1024x1.size (by sl_kernel_rfl) y

/-- What case A leaves in accumulator 1: its pieces read back over junk. -/
def sout0_A_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.2.1)

/-- Case B stores nothing into the output (the window is idle at its points and not written back there): no
    pieces — a placeholder (junk read back) that nothing consults. -/
def out0_B_4 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0 xs1).1)

/-- Case B's pieces for accumulator 0 tile it, so they cover it. -/
theorem scover0_B_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S1024x1.size (by sl_kernel_rfl) y

/-- What case B leaves in accumulator 0: its pieces read back over junk. -/
def sout0_B_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).2.1)

/-- Case B's pieces for accumulator 1 tile it, so they cover it. -/
theorem scover0_B_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.2.1 S1024x1.size (by sl_kernel_rfl) y

/-- What case B leaves in accumulator 1: its pieces read back over junk. -/
def sout0_B_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.2.1)

/-- Case C's one store into the output block covers it. -/
theorem cover0_C_4 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S1024x1.size (by sl_kernel_rfl) y

/-- What case C leaves in the output's staging buffer: its pieces read back over junk. -/
def out0_C_4 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)

/-- Case C's pieces for accumulator 0 tile it, so they cover it. -/
theorem scover0_C_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S1024x1.size (by sl_kernel_rfl) y

/-- What case C leaves in accumulator 0: its pieces read back over junk. -/
def sout0_C_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)

/-- Case C's pieces for accumulator 1 tile it, so they cover it. -/
theorem scover0_C_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S1024x1.size (by sl_kernel_rfl) y

/-- What case C leaves in accumulator 1: its pieces read back over junk. -/
def sout0_C_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

section Region0
-- the core's buffer contents when the region is entered, and the shares held of the windows' arrays
variable (V : (c : Dev nD) → (b : Ref sig .tc) → Buf (Elt F) ((c : Thread nD τ).loc b)) (q : Fin cfg0.W → PosShare TreeShare)

/-! ## What the output's buffer and the accumulators hold after each point -/

/-- The accumulation. What the output's staging buffer and the two accumulators hold after the body at position `n`
    (the output first, then accumulator 0, then accumulator 1): the case the closed forms select at `n`, run at the
    point's memrefs and input blocks, the accumulators at what this leaves at `n - 1`. -/
def outsAt0 (c : Dev nD) : (n : ℕ) → n < cfg0.N → Vec F S1024x1 .f32 × Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 16 = 0) (h1 : ¬t.val % 16 = 15) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the two accumulators at what the point before left in them, the other
    scoped buffers unopened, and the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.1) ∗ owns (c : Thread nD τ) scM0_1 fullShare ((outsAt0 V c n hn).2.2)) ∗ rest0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(iprop(owns (c : Thread nD τ) scM0_0 fullShare ((outsAt0 V c n hn).2.1) ∗ owns (c : Thread nD τ) scM0_1 fullShare ((outsAt0 V c n hn).2.2)) ∗ rest0 c) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.1) ∗ owns (c : Thread nD τ) scM0_1 fullShare ((outsAt0 V c (n - 1) (by omega)).2.2)) ∗ rest0 c) ∗ (∃ r, prngReg c r)) := by
  cases n with
  | zero => exact absurd rfl hz
  | succ n => rfl

/-! ## The pipeline's proof data -/

/-- The proof data of this pipeline on core `c`: the arrays as the region finds them (`V`); after the body at point
    `t` each input's buffer at its block and the output's at `outsAt0`'s first component; the invariant `PhiS0`;
    nothing owed; the shares `q`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q := q
  owed _ := 0

/-- The proof data's arrays are the region-entry contents. -/
theorem A_eq0 (c : Dev nD) (w : Fin cfg0.W) : (dat0 V q c).A w = V c (Pipeline.arrRef spec0 w) := by
  dsimp only [dat0]

/-- The invariant at a point's start, restated at `t.val`. -/
theorem PhiS0_castSucc (c : Dev nD) (t : Fin cfg0.N) :
    (dat0 V q c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) : (dat0 V q c).after 4 t = (outsAt0 V c t.val t.isLt).1 := by dsimp only [dat0]

/-- Each input's current staging buffer holds its block at every point, fetched there or not. -/
theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d

/-! ## The body obligation, at a generic point -/

/-- What the body is called with at point `t`, the windows one by one, -/
def bodyPre0 (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d))
    ∗ (∃ d, owns (c : Thread nD τ) (ms0_3 t) fullShare ((dat0 V q c).before 3 t d))
    ∗ (∃ d, owns (c : Thread nD τ) (ms0_4 t) fullShare ((dat0 V q c).before 4 t d)))

/-- and what it returns. -/
def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t
    ∗ (dat0 V q c).leavesExact 3 t
    ∗ (dat0 V q c).leavesExact 4 t)

set_option maxHeartbeats 4800000 in
/-- The body at any point: the inputs' memrefs hold their blocks; the closed forms say which case the point is in; so that
    case's run applies; the invariant hands the body the accumulators at what the point before left (at anything at the
    first point) and takes them back at this point's contents; the other scoped buffers, the generator register and the
    core's debts pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3]
  rw [show (dat0 V q c).owesAt () t.succ = (dat0 V q c).owesAt () t.castSucc from rfl]
  rw [show (dat0 V q c).Φ t.succ = PhiS0 V c (t.val + 1) t.isLt from rfl, PhiS0_succ]
  have hN : t.val < 128 := lt_of_lt_of_eq t.isLt (show cfg0.N = 128 from N_0)
  rw [show (dat0 V q c).leavesExact 0 t = owns (c : Thread nD τ) (ms0_0 t) fullShare ((dat0 V q c).after 0 t) from by
    unfold Dat.leavesExact; rw [liveAt0_0 t], after0_0]
  rw [show (dat0 V q c).leavesExact 1 t = owns (c : Thread nD τ) (ms0_1 t) fullShare ((dat0 V q c).after 1 t) from by
    unfold Dat.leavesExact; rw [liveAt0_1 t], after0_1]
  rw [show (dat0 V q c).leavesExact 2 t = owns (c : Thread nD τ) (ms0_2 t) fullShare ((dat0 V q c).after 2 t) from by
    unfold Dat.leavesExact; rw [liveAt0_2 t], after0_2]
  rw [show (dat0 V q c).leavesExact 3 t = owns (c : Thread nD τ) (ms0_3 t) fullShare ((dat0 V q c).after 3 t) from by
    unfold Dat.leavesExact; rw [liveAt0_3 t], after0_3]
  by_cases h0 : t.val % 16 = 0
  · by_cases h1 : t.val % 16 = 15
    · exfalso; omega
    · have hc0 : cond0_0 (grid0.coords t) := (hcond0_0 t).mpr h0
      have hc1 : ¬cond0_1 (grid0.coords t) := fun h => h1 ((hcond0_1 t).mp h)
      rw [Dat.leavesExact_idle (dat0 V q c) 4 t (idleAt0_4 t hc1) (noFlush0_4 t hc1)]
      rw [outsAt0_A V c t h0 h1]
      unfold sout0_A_0 sout0_A_1; (try dsimp only)
      by_cases hz : t.val = 0
      · rw [PhiS0_castSucc V q c t, PhiS0_zero V c _ _ hz, PhiA0_eq]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ hc0 hc1 (iblk0 V c 0 t) (iblk0 V c 1 t) (iblk0 V c 2 t) (iblk0 V c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _ _ _ _ _)
            · iexact HR
          · iexact Hg
        isplitl [Ho]; · iexact Ho
        isplitl [H0]; · iexact H0
        isplitl [H1]; · iexact H1
        isplitl [H2]; · iexact H2
        isplitl [H3]; · iexact H3
        iexists _; iexact H4
      · rw [PhiS0_castSucc V q c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ hc0 hc1 (iblk0 V c 0 t) (iblk0 V c 1 t) (iblk0 V c 2 t) (iblk0 V c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _ _ _ _ _)
            · iexact HR
          · iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    have hc0 : ¬cond0_0 (grid0.coords t) := fun h => h0 ((hcond0_0 t).mp h)
    by_cases h1 : t.val % 16 = 15
    · have hc1 : cond0_1 (grid0.coords t) := (hcond0_1 t).mpr h1
      rw [show (dat0 V q c).leavesExact 4 t = owns (c : Thread nD τ) (ms0_4 t) fullShare ((dat0 V q c).after 4 t) from by
        unfold Dat.leavesExact; rw [liveAt0_4 t hc1], after0_4]
      rw [outsAt0_C V c t h0 h1]
      unfold out0_C_4 sout0_C_0 sout0_C_1; (try dsimp only)
      · rw [PhiS0_castSucc V q c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ hc0 hc1 (iblk0 V c 0 t) (iblk0 V c 1 t) (iblk0 V c 2 t) (iblk0 V c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _)
              · unfold owns; iexists _; isplitr
                swap; · iexact HS1
                ipureintro; exact View.read_writes_of_cover _ _ _ _ _ (scover0_C_1 c _ _ _ _ _ _ _ _ _ _ _ _ _ _ _ _ _ _ _ _ _ _ _)
            · iexact HR
          · iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _)
    · have hc1 : ¬cond0_1 (grid0.coords t) := fun h => h1 ((hcond0_1 t).mp h)
      rw [Dat.leavesExact_idle (dat0 V q c) 4 t (idleAt0_4 t hc1) (noFlush0_4 t hc1)]
      rw [outsAt0_B V c t h0 h1]
      unfold sout0_B_0 sout0_B_1; (try dsimp only)
      · rw [PhiS0_castSucc V q c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ hc0 hc1 (iblk0 V c 0 t) (iblk0 V c 1 t) (iblk0 V c 2 t) (iblk0 V c 3 t) _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _)
              · unfold owns; iexists _; isplitr
                swap; · iexact HS1
                ipureintro; exact View.read_writes_of_cover _ _ _ _ _ (scover0_B_1 c _ _ _ _ _ _ _ _ _ _ _ _ _ _ _ _ _ _ _ _ _ _ _)
            · iexact HR
          · iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dat0 V q c).Φ 0 := by
  rw [show (dat0 V q c).Φ 0 = PhiS0 V c 0 (Nat.zero_le _) from rfl, PhiS0_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V q c).Φ t ⊢ Pipeline.ΦA spec0 c := by
  rw [show (dat0 V q c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

/-- The same after the last point. -/
theorem hout0 (c : Dev nD) : (dat0 V q c).Φ (Fin.last cfg0.N) ⊢ Pipeline.ΦA spec0 c :=
  Phi_out0 V q c _ (by rw [Fin.val_last]; have : cfg0.N = 128 := N_0; omega)

end Region0

end Cert.Kernel.Hand

end
-- ==== Proof.WR1Runs.lean ====
/- What the three case runs of region 1 (the second kernel call) share: each window's block at a point read off
   the region-entry contents, the input windows' staging contents, the body's two branch conditions in closed
   form over the grid, where the two output windows are idle, the staging and scratch memrefs, and the region
   invariant with the two carried scratch buffers split off. -/
import proofs.«116760_j49323404427556_1_alg».proof.Proof.Gen.Kernel.Launch
import proofs.«116760_j49323404427556_1_alg».proof.Proof.Gen.Kernel.Skeleton
import proofs.«116760_j49323404427556_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The condition of the body's first `scf.if` (the second grid coordinate is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16) — decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (the second grid coordinate is 15). -/
abbrev cond1_1 (i : grid1.Coords) : Prop := k1_cond2 i = 1#1
/-- It holds at the points ≡ 15 (mod 16) — decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second condition fails output 5 is idle and not written back; where it holds the output is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
/-- Where the second condition fails output 6 is idle and not written back; where it holds the output is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The staging and scratch memrefs -/

/-- One staging buffer of each output window, through which its contents are stated (the choice does not matter). -/
abbrev VO1_5 : View sig .tc .vmem S1024x1 .f32 := (Memref.whole cc1_stg5_0 : Memref sig .tc .vmem S1024x1 .f32).view
abbrev VO1_6 : View sig .tc .vmem S1024x1 .f32 := (Memref.whole cc1_stg6_0 : Memref sig .tc .vmem S1024x1 .f32).view
/-- Each window's current staging memref at point `t`, as the pipeline passes it to the body, and its wholeness. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
/-- The two scratch operands: whole scoped buffers of the kernel's own, carried between grid points. -/
abbrev scM1_0 : Memref sig .tc .vmem S1024x1 .f32 := Memref.whole cc1_scratch0
abbrev scM1_1 : Memref sig .tc .vmem S1024x1 .f32 := Memref.whole cc1_scratch1
abbrev VS1_0 : View sig .tc .vmem S1024x1 .f32 := scM1_0.view
abbrev VS1_1 : View sig .tc .vmem S1024x1 .f32 := scM1_1.view

/-! ## The region invariant, the carried scratches split off -/

/-- The core's scoped buffers that this call neither stages nor carries (the other call's staging buffers and
    scratches), each whole at some contents. -/
def restO1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The invariant's shape after a point: the other scoped buffers at anything, the two carried scratches at named
    contents, the generator register at some state. -/
abbrev PhiAt1 (c : Dev nD) (a b : Vec F S1024x1 .f32) : sProp 𝕄 :=
  iprop(restO1 (F := F) c ∗ owns (c : Thread nD τ) scM1_0 fullShare a ∗ owns (c : Thread nD τ) scM1_1 fullShare b ∗ (∃ r, prngReg c r))

/-- What the launch hands the region, with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The launch's invariant gives the split form, the scratches at some contents. -/
theorem PhiA1_split (c : Dev nD) :
    (Pipeline.ΦA spec1 c : sProp 𝕄) ⊢ iprop(∃ a b, PhiAt1 (F := F) c a b) := by
  rw [PhiA1_eq]; unfold PhiAt1 restO1
  iintro ⟨⟨R1, R2, R3, R4, R5, R6, R7, R8, R9, R10, R11, R12, ⟨%a, HS0⟩, ⟨%b, HS1⟩⟩, Hg⟩
  iexists a; iexists b
  isplitl [R1 R2 R3 R4 R5 R6 R7 R8 R9 R10 R11 R12]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact R12
  isplitl [HS0]; · iexact HS0
  isplitl [HS1]; · iexact HS1
  iexact Hg

/-- The split form, the scratches' contents forgotten, is the launch's invariant again. -/
theorem PhiA1_join (c : Dev nD) (a b : Vec F S1024x1 .f32) :
    PhiAt1 (F := F) c a b ⊢ (Pipeline.ΦA spec1 c : sProp 𝕄) := by
  rw [PhiA1_eq]; unfold PhiAt1 restO1
  iintro ⟨⟨R1, R2, R3, R4, R5, R6, R7, R8, R9, R10, R11, R12⟩, HS0, HS1, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [HS0]; · iexists _; iexact HS0
  iexists _; iexact HS1

end Cert.Kernel.Hand

end
-- ==== Proof.WR1RunA.lean ====
/- The kernel body of region 1 run as a whole in the case where the second grid coordinate is 0 (the scratches are zeroed first, then accumulated into; no output is stored): the pieces each buffer ends with
   are the witness the symbolic run finds. -/
import proofs.«116760_j49323404427556_1_alg».proof.Proof.WR1Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the two output staging memrefs (`L5`, `L6`) and in the
    two scratch memrefs (`LS0`, `LS1`) when the second grid coordinate is 0 (the scratches are zeroed first, then accumulated into; no output is stored), with the proof that on whole memrefs — the inputs' at
    their contents, the idle outputs' at contents handed back untouched, the scratches at anything — the body runs to the
    continuation holding the inputs as they were and each stored buffer with its pieces written. -/
noncomputable def kernelRun1_A (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) :
    Σ' (L5 : List (View.Piece (Elt F) S1024x1 .f32)) (L6 : List (View.Piece (Elt F) S1024x1 .f32)) (LS0 : List (View.Piece (Elt F) S1024x1 .f32)), { LS1 : List (View.Piece (Elt F) S1024x1 .f32) //
      ∀ (xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__kernel_b i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc1__kernel_b_eq_skeleton]; unfold cc1__kernel_b_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.WR1RunB.lean ====
/- The kernel body of region 1 run as a whole in the case where the second grid coordinate is neither 0 nor 15 (the scratches are accumulated into; no output is stored): the pieces each buffer ends with
   are the witness the symbolic run finds. -/
import proofs.«116760_j49323404427556_1_alg».proof.Proof.WR1Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the two output staging memrefs (`L5`, `L6`) and in the
    two scratch memrefs (`LS0`, `LS1`) when the second grid coordinate is neither 0 nor 15 (the scratches are accumulated into; no output is stored), with the proof that on whole memrefs — the inputs' at
    their contents, the idle outputs' at contents handed back untouched, the scratches at what the point before left — the body runs to the
    continuation holding the inputs as they were and each stored buffer with its pieces written. -/
noncomputable def kernelRun1_B (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) :
    Σ' (L5 : List (View.Piece (Elt F) S1024x1 .f32)) (L6 : List (View.Piece (Elt F) S1024x1 .f32)) (LS0 : List (View.Piece (Elt F) S1024x1 .f32)), { LS1 : List (View.Piece (Elt F) S1024x1 .f32) //
      ∀ (xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__kernel_b i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc1__kernel_b_eq_skeleton]; unfold cc1__kernel_b_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.WR1RunC.lean ====
/- The kernel body of region 1 run as a whole in the case where the second grid coordinate is 15 (the scratches are accumulated into, then copied to the two outputs): the pieces each buffer ends with
   are the witness the symbolic run finds. -/
import proofs.«116760_j49323404427556_1_alg».proof.Proof.WR1Runs

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the two output staging memrefs (`L5`, `L6`) and in the
    two scratch memrefs (`LS0`, `LS1`) when the second grid coordinate is 15 (the scratches are accumulated into, then copied to the two outputs), with the proof that on whole memrefs — the inputs' at
    their contents, the outputs' at anything, the scratches at what the point before left — the body runs to the
    continuation holding the inputs as they were and each stored buffer with its pieces written. -/
noncomputable def kernelRun1_C (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) :
    Σ' (L5 : List (View.Piece (Elt F) S1024x1 .f32)) (L6 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__kernel_b i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__kernel_b_eq_skeleton]; unfold cc1__kernel_b_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.Kernel.Hand

end
-- ==== Proof.WR1.lean ====
/- Region 1 (the second kernel call) at a parameter `V`, the core's buffer contents when the region is entered:
   what each case leaves in the two output staging buffers and the two carried scratches, those contents point
   by point, the region invariant, the pipeline's proof data, the body obligation, and the invariant's two ends. -/
import proofs.«116760_j49323404427556_1_alg».proof.Proof.WR1RunA
import proofs.«116760_j49323404427556_1_alg».proof.Proof.WR1RunB
import proofs.«116760_j49323404427556_1_alg».proof.Proof.WR1RunC

-- membership in a rectangle of production extents: the elaborator's structural look recurses once per
-- coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-! ### Case A -/

/-- This case stores nothing into output 5 (the window is idle at its points and not written back there): no
    pieces — a placeholder that nothing consults. -/
def out1_A_5 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) : Vec F S1024x1 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 hc1 x0 x1 x2 x3 x4).1)

/-- This case stores nothing into output 6 (the window is idle at its points and not written back there): no
    pieces — a placeholder that nothing consults. -/
def out1_A_6 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) : Vec F S1024x1 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3 x4).2.1)

/-- The pieces for scratch 0, which the kernel carries between points, tile it, so they cover it. -/
theorem scover1_A_0 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.1 S1024x1.size (by sl_kernel_rfl) y

/-- What this case leaves in scratch 0: its pieces read back over junk. -/
def sout1_A_0 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).2.2.1)

/-- The pieces for scratch 1, which the kernel carries between points, tile it, so they cover it. -/
theorem scover1_A_1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.2.1 S1024x1.size (by sl_kernel_rfl) y

/-- What this case leaves in scratch 1: its pieces read back over junk. -/
def sout1_A_1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.2.2.1)

/-- The four buffers after this case: output 5's staging, output 6's staging, scratch 0, scratch 1. -/
def outs1_A (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) : Vec F S1024x1 .f32 × Vec F S1024x1 .f32 × Vec F S1024x1 .f32 × Vec F S1024x1 .f32 :=
  (out1_A_5 c i arg2 harg2 arg3 harg3 arg4 harg4 arg5 harg5 arg6 harg6 arg7 harg7 arg8 harg8 arg9 harg9 arg10 harg10 hc0 hc1 x0 x1 x2 x3 x4, out1_A_6 c i arg2 harg2 arg3 harg3 arg4 harg4 arg5 harg5 arg6 harg6 arg7 harg7 arg8 harg8 arg9 harg9 arg10 harg10 hc0 hc1 x0 x1 x2 x3 x4, sout1_A_0 c i arg2 harg2 arg3 harg3 arg4 harg4 arg5 harg5 arg6 harg6 arg7 harg7 arg8 harg8 arg9 harg9 arg10 harg10 hc0 hc1 x0 x1 x2 x3 x4, sout1_A_1 c i arg2 harg2 arg3 harg3 arg4 harg4 arg5 harg5 arg6 harg6 arg7 harg7 arg8 harg8 arg9 harg9 arg10 harg10 hc0 hc1 x0 x1 x2 x3 x4)

/-! ### Case B -/

/-- This case stores nothing into output 5 (the window is idle at its points and not written back there): no
    pieces — a placeholder that nothing consults. -/
def out1_B_5 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 x0 x1 x2 x3 x4 xs0 xs1).1)

/-- This case stores nothing into output 6 (the window is idle at its points and not written back there): no
    pieces — a placeholder that nothing consults. -/
def out1_B_6 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 x4 xs0 xs1).2.1)

/-- The pieces for scratch 0, which the kernel carries between points, tile it, so they cover it. -/
theorem scover1_B_0 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1).2.2.1 S1024x1.size (by sl_kernel_rfl) y

/-- What this case leaves in scratch 0: its pieces read back over junk. -/
def sout1_B_0 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1).2.2.1)

/-- The pieces for scratch 1, which the kernel carries between points, tile it, so they cover it. -/
theorem scover1_B_1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1).2.2.2.1 S1024x1.size (by sl_kernel_rfl) y

/-- What this case leaves in scratch 1: its pieces read back over junk. -/
def sout1_B_1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1).2.2.2.1)

/-- The four buffers after this case: output 5's staging, output 6's staging, scratch 0, scratch 1. -/
def outs1_B (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 × Vec F S1024x1 .f32 × Vec F S1024x1 .f32 × Vec F S1024x1 .f32 :=
  (out1_B_5 c i arg2 harg2 arg3 harg3 arg4 harg4 arg5 harg5 arg6 harg6 arg7 harg7 arg8 harg8 arg9 harg9 arg10 harg10 hc0 hc1 x0 x1 x2 x3 x4 xs0 xs1, out1_B_6 c i arg2 harg2 arg3 harg3 arg4 harg4 arg5 harg5 arg6 harg6 arg7 harg7 arg8 harg8 arg9 harg9 arg10 harg10 hc0 hc1 x0 x1 x2 x3 x4 xs0 xs1, sout1_B_0 c i arg2 harg2 arg3 harg3 arg4 harg4 arg5 harg5 arg6 harg6 arg7 harg7 arg8 harg8 arg9 harg9 arg10 harg10 hc0 hc1 x0 x1 x2 x3 x4 xs0 xs1, sout1_B_1 c i arg2 harg2 arg3 harg3 arg4 harg4 arg5 harg5 arg6 harg6 arg7 harg7 arg8 harg8 arg9 harg9 arg10 harg10 hc0 hc1 x0 x1 x2 x3 x4 xs0 xs1)

/-! ### Case C -/

/-- The pieces for output 5 tile its block, so they cover it. -/
theorem cover1_C_5 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).1 S1024x1.size (by sl_kernel_rfl) y

/-- What this case leaves in output 5's staging buffer: its pieces read back over junk. -/
def out1_C_5 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1).1)

/-- The pieces for output 6 tile its block, so they cover it. -/
theorem cover1_C_6 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).2.1 S1024x1.size (by sl_kernel_rfl) y

/-- What this case leaves in output 6's staging buffer: its pieces read back over junk. -/
def out1_C_6 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 xs0 xs1).2.1)

/-- The pieces for scratch 0, which the kernel carries between points, tile it, so they cover it. -/
theorem scover1_C_0 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).2.2.1 S1024x1.size (by sl_kernel_rfl) y

/-- What this case leaves in scratch 0: its pieces read back over junk. -/
def sout1_C_0 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1).2.2.1)

/-- The pieces for scratch 1, which the kernel carries between points, tile it, so they cover it. -/
theorem scover1_C_1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).2.2.2.1 S1024x1.size (by sl_kernel_rfl) y

/-- What this case leaves in scratch 1: its pieces read back over junk. -/
def sout1_C_1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1).2.2.2.1)

/-- The four buffers after this case: output 5's staging, output 6's staging, scratch 0, scratch 1. -/
def outs1_C (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 × Vec F S1024x1 .f32 × Vec F S1024x1 .f32 × Vec F S1024x1 .f32 :=
  (out1_C_5 c i arg2 harg2 arg3 harg3 arg4 harg4 arg5 harg5 arg6 harg6 arg7 harg7 arg8 harg8 arg9 harg9 arg10 harg10 hc0 hc1 x0 x1 x2 x3 x4 xs0 xs1, out1_C_6 c i arg2 harg2 arg3 harg3 arg4 harg4 arg5 harg5 arg6 harg6 arg7 harg7 arg8 harg8 arg9 harg9 arg10 harg10 hc0 hc1 x0 x1 x2 x3 x4 xs0 xs1, sout1_C_0 c i arg2 harg2 arg3 harg3 arg4 harg4 arg5 harg5 arg6 harg6 arg7 harg7 arg8 harg8 arg9 harg9 arg10 harg10 hc0 hc1 x0 x1 x2 x3 x4 xs0 xs1, sout1_C_1 c i arg2 harg2 arg3 harg3 arg4 harg4 arg5 harg5 arg6 harg6 arg7 harg7 arg8 harg8 arg9 harg9 arg10 harg10 hc0 hc1 x0 x1 x2 x3 x4 xs0 xs1)

section Regions
variable (V : (c : Dev nD) → (b : Ref sig .tc) → Buf (Elt F) ((c : Thread nD τ).loc b)) (q : Fin cfg1.W → PosShare TreeShare)

/-! ## What the outputs and the scratches hold after each point -/

/-- THE ACCUMULATION. What output 5's staging buffer, output 6's staging buffer, scratch 0 and scratch 1 hold after the
    body at position `n`: the case the closed forms select at `n`, run at the point's memrefs and input blocks, the
    scratches at what this leaves at `n - 1`. An assignment of the conditions no point meets is no case. -/
def outsAt1 (c : Dev nD) : (n : ℕ) → n < cfg1.N → Vec F S1024x1 .f32 × Vec F S1024x1 .f32 × Vec F S1024x1 .f32 × Vec F S1024x1 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 16 = 0 then
      if h1 : (n + 1) % 16 = 15 then
        False.elim (by omega)
      else
        outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 16 = 15 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2

/-- `outsAt1` at a point of case A: that case's contents. -/
theorem outsAt1_A (c : Dev nD) (t : Fin cfg1.N) (h0 : t.val % 16 = 0) (h1 : ¬t.val % 16 = 15) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans ((dif_neg h1).trans rfl)

/-- `outsAt1` at a point of case B: that case's contents, over what the point before left in the scratches. -/
theorem outsAt1_B (c : Dev nD) (t : Fin cfg1.N) (h0 : ¬t.val % 16 = 0) (h1 : ¬t.val % 16 = 15) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the scratches. -/
theorem outsAt1_C (c : Dev nD) (t : Fin cfg1.N) (h0 : ¬t.val % 16 = 0) (h1 : t.val % 16 = 15) :
    outsAt1 V c t.val t.isLt = outs1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer no window stages at anything); afterwards the same with the two carried scratches at what the point before
    left in them. -/
def PhiS1 (c : Dev nD) : (n : ℕ) → n ≤ cfg1.N → sProp 𝕄
  | 0, _ => Pipeline.ΦA spec1 c
  | n + 1, hn => PhiAt1 (F := F) c (outsAt1 V c n hn).2.2.1 (outsAt1 V c n hn).2.2.2

theorem PhiS1_zero (c : Dev nD) (n : ℕ) (h : n ≤ cfg1.N) (hz : n = 0) : PhiS1 V c n h = Pipeline.ΦA spec1 c := by
  subst hz; rfl

/-- After point `n` (before point `n + 1`): the carried scratches at that point's contents. -/
theorem PhiS1_succ (c : Dev nD) (n : ℕ) (hn : n < cfg1.N) :
    PhiS1 V c (n + 1) hn = PhiAt1 (F := F) c (outsAt1 V c n hn).2.2.1 (outsAt1 V c n hn).2.2.2 := rfl

/-- Before a point that is not the first: the carried scratches at what the point before left. -/
theorem PhiS1_pos (c : Dev nD) (n : ℕ) (h : n ≤ cfg1.N) (hz : n ≠ 0) :
    PhiS1 V c n h = PhiAt1 (F := F) c (outsAt1 V c (n - 1) (by omega)).2.2.1 (outsAt1 V c (n - 1) (by omega)).2.2.2 := by
  cases n with
  | zero => exact absurd rfl hz
  | succ n => rfl

/-! ## The pipeline's proof data -/

/-- The proof data of pipeline 1 on core `c`: the arrays as the region finds them (`V`); after the body at point `t`
    each input's buffer at its block and the outputs' at `outsAt1`'s components; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q := q
  owed _ := 0

/-- The proof data's arrays are the region-entry contents (the definition projected, never unfolded through `V`). -/
theorem A_eq1 (c : Dev nD) (w : Fin cfg1.W) : (dat1 V q c).A w = V c (Pipeline.arrRef spec1 w) := by
  dsimp only [dat1]

/-- The invariant at a point's start, restated at `t.val`. -/
theorem PhiS1_castSucc (c : Dev nD) (t : Fin cfg1.N) :
    (dat1 V q c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = (outsAt1 V c t.val t.isLt).1 := by dsimp only [dat1]
theorem after1_6 (c : Dev nD) (t : Fin cfg1.N) : (dat1 V q c).after 6 t = (outsAt1 V c t.val t.isLt).2.1 := by dsimp only [dat1]

/-- Each input's current staging buffer holds its block at every point, fetched there or not. -/
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d

/-! ## The body obligation, at a generic point -/

/-- What the body is called with at point `t` (the windows one by one), -/
def bodyPre1 (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d))
    ∗ (∃ d, owns (c : Thread nD τ) (ms1_5 t) fullShare ((dat1 V q c).before 5 t d))
    ∗ (∃ d, owns (c : Thread nD τ) (ms1_6 t) fullShare ((dat1 V q c).before 6 t d)))

/-- and what it returns. -/
def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t
    ∗ (dat1 V q c).leavesExact 4 t
    ∗ (dat1 V q c).leavesExact 5 t
    ∗ (dat1 V q c).leavesExact 6 t)

set_option maxHeartbeats 8000000 in
/-- The body at any point: the inputs' memrefs hold their blocks; the closed forms say which case the point is in; the
    invariant hands the body the carried scratches at what the point before left (at anything at the first point)
    and takes them back at this point's contents; an idle output's buffer goes back as it came; nothing is owed. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4]
  rw [show (dat1 V q c).owesAt () t.succ = (dat1 V q c).owesAt () t.castSucc from rfl]
  rw [show (dat1 V q c).Φ t.succ = PhiS1 V c (t.val + 1) t.isLt from rfl, PhiS1_succ]
  have hN : t.val < 128 := lt_of_lt_of_eq t.isLt (show cfg1.N = 128 from N_1)
  by_cases h0 : t.val % 16 = 0
  · by_cases h1 : t.val % 16 = 15
    · exfalso; omega
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t], after1_4]
      rw [Dat.leavesExact_idle (dat1 V q c) 5 t (idleAt1_5 t (fun h => h1 ((hcond1_1 t).mp h))) (noFlush1_5 t (fun h => h1 ((hcond1_1 t).mp h)))]
      rw [Dat.leavesExact_idle (dat1 V q c) 6 t (idleAt1_6 t (fun h => h1 ((hcond1_1 t).mp h))) (noFlush1_6 t (fun h => h1 ((hcond1_1 t).mp h)))]
      rw [outsAt1_A V c t h0 h1]
      unfold outs1_A sout1_A_0 sout1_A_1; (try dsimp only)
      by_cases hz : t.val = 0
      ·
        rw [PhiS1_castSucc V q c t, PhiS1_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩⟩
        ihave HΦ' := PhiA1_split (F := F) c $$ HΦ
        icases HΦ' with ⟨%a0, %b0, HR, HS0, HS1, Hg⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      ·
        rw [PhiS1_castSucc V q c t, PhiS1_pos V c _ _ hz]
        iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 16 = 15
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t], after1_4]
      rw [show (dat1 V q c).leavesExact 5 t = owns (c : Thread nD τ) (ms1_5 t) fullShare ((dat1 V q c).after 5 t) from by
        unfold Dat.leavesExact; rw [liveAt1_5 t ((hcond1_1 t).mpr h1)], after1_5]
      rw [show (dat1 V q c).leavesExact 6 t = owns (c : Thread nD τ) (ms1_6 t) fullShare ((dat1 V q c).after 6 t) from by
        unfold Dat.leavesExact; rw [liveAt1_6 t ((hcond1_1 t).mpr h1)], after1_6]
      rw [outsAt1_C V c t h0 h1]
      unfold outs1_C out1_C_5 out1_C_6 sout1_C_0 sout1_C_1; (try dsimp only)
      by_cases hz : t.val = 0
      · exfalso; omega
      ·
        rw [PhiS1_castSucc V q c t, PhiS1_pos V c _ _ hz]
        iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, ⟨%e5, H5⟩, ⟨%e6, H6⟩, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _ _ _ _)
        unfold owns; iexists _; isplitr
        swap; · iexact H6
        ipureintro; exact View.read_writes_of_cover _ _ _ _ _ (cover1_C_6 c _ _ _ _ _ _ _ _ _ _ _ _ _ _ _ _ _ _ _ _ _ _ _ _ _ _ _ _)
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t], after1_4]
      rw [Dat.leavesExact_idle (dat1 V q c) 5 t (idleAt1_5 t (fun h => h1 ((hcond1_1 t).mp h))) (noFlush1_5 t (fun h => h1 ((hcond1_1 t).mp h)))]
      rw [Dat.leavesExact_idle (dat1 V q c) 6 t (idleAt1_6 t (fun h => h1 ((hcond1_1 t).mp h))) (noFlush1_6 t (fun h => h1 ((hcond1_1 t).mp h)))]
      rw [outsAt1_B V c t h0 h1]
      unfold outs1_B sout1_B_0 sout1_B_1; (try dsimp only)
      by_cases hz : t.val = 0
      · exfalso; omega
      ·
        rw [PhiS1_castSucc V q c t, PhiS1_pos V c _ _ hz]
        iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The library's body obligation, at every point. -/
theorem body_obligation1 (c : Dev nD) : BodyObligation (dat1 (F := F) V q c) (defs₀ (F := F)) Variants.none () Set.univ := fun t => by
  rw [bigSep_W1, bigSep_W1]
  exact sound_body1 V q c t

/-- What the launch hands the region is the invariant before the first point. -/
theorem hin1 (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After any point but the first the invariant gives the launch's back: the carried scratches' named contents are forgotten. -/
theorem Phi_out1 (c : Dev nD) (t : Fin (cfg1.N + 1)) (ht : t.val ≠ 0) : (dat1 V q c).Φ t ⊢ Pipeline.ΦA spec1 c := by
  rw [show (dat1 V q c).Φ t = PhiS1 V c t.val (Nat.le_of_lt_succ t.isLt) from rfl, PhiS1_pos V c _ _ ht]
  exact PhiA1_join c _ _

/-- The same after the last point. -/
theorem hout1 (c : Dev nD) : (dat1 V q c).Φ (Fin.last cfg1.N) ⊢ Pipeline.ΦA spec1 c :=
  Phi_out1 V q c _ (by rw [Fin.val_last]; have : cfg1.N = 128 := N_1; omega)

end Regions

end Cert.Kernel.Hand

end
-- ==== Proof.WAsm.lean ====
/-
  The two kernel regions' arrays among the core's unscoped buffers. Each call reads the rows array through TWO windows
  (a 1024-row block and a 512-row block of the same array), so the array's points-to is dealt in two halves at the
  region's entry — one half per window — and the halves are put together again at its exit; every other array of a
  call is behind exactly one window and is held whole. The output arrays end at what the write-backs leave, every
  other unscoped buffer as it was entered.
-/
import proofs.«116760_j49323404427556_1_alg».proof.Proof.Gen.Kernel.Launch
import proofs.«116760_j49323404427556_1_alg».proof.Proof.Gen.Kernel.Skeleton
import proofs.«116760_j49323404427556_1_alg».proof.Proof.Gen.Kernel.Points
import proofs.«116760_j49323404427556_1_alg».proof.Proof.Gen.Kernel.Regions
import proofs.«116760_j49323404427556_1_alg».proof.Proof.WR0
import proofs.«116760_j49323404427556_1_alg».proof.Proof.WR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)

section Shares

variable (V : (c : Dev nD) → (b : Ref sig .tc) → Buf (Elt F) ((c : Thread nD τ).loc b))

/-- The rows array is read by two windows of each call: each holds half of it. -/
abbrev q0 : Fin cfg0.W → PosShare TreeShare := fun
  | ⟨0, _⟩ => fullShare.left
  | ⟨1, _⟩ => fullShare.right
  | _ => fullShare
abbrev q1 : Fin cfg1.W → PosShare TreeShare := fun
  | ⟨0, _⟩ => fullShare.left
  | ⟨1, _⟩ => fullShare.right
  | _ => fullShare

theorem sep_congr' {P P' Q Q' : sProp 𝕄} (h1 : P = P') (h2 : Q = Q') : (iprop(P ∗ Q) : sProp 𝕄) = iprop(P' ∗ Q') := by rw [h1, h2]

/-! ## Region 0: its arrays among the unscoped buffers -/

theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v7) ↦{fullShare} W main_v7) ∗ (((c : Thread nD τ).loc main_v9) ↦{fullShare} W main_v9)
          ∗ (((c : Thread nD τ).loc main_v10) ↦{fullShare} W main_v10) ∗ (((c : Thread nD τ).loc main_v11) ↦{fullShare} W main_v11)) := by
  unfold Pipeline.arrBufs
  exact bigSep_eq_bigSepL_of_eq [main_v7, main_v9, main_v10, main_v11] (by decide) (by decide) _

theorem arrays0_eq (c : Dev nD) (G : (w : Fin cfg0.W) → Buf (Elt F) ((cfg0.win w).arr.view.loc (c : Thread nD τ))) :
    ((dat0 V q0 c).arrays G : sProp 𝕄)
      = iprop((((c : Thread nD τ).loc main_v7) ↦{fullShare.left} G 0) ∗ (((c : Thread nD τ).loc main_v7) ↦{fullShare.right} G 1)
          ∗ (((c : Thread nD τ).loc main_v9) ↦{fullShare} G 2) ∗ (((c : Thread nD τ).loc main_v10) ↦{fullShare} G 3)
          ∗ (((c : Thread nD τ).loc main_v11) ↦{fullShare} G 4)) := by
  unfold Dat.arrays
  rw [bigSep_W0]
  have e0 : ((cfg0.win 0).arr.view.loc (c : Thread nD τ) ↦[(cfg0.win 0).arr.view.set]{(dat0 V q0 c).share 0} G 0 : sProp 𝕄)
      = (((c : Thread nD τ).loc main_v7) ↦{fullShare.left} G 0) := by rw [(arr_whole0 0).set_eq_univ]; rfl
  have e1 : ((cfg0.win 1).arr.view.loc (c : Thread nD τ) ↦[(cfg0.win 1).arr.view.set]{(dat0 V q0 c).share 1} G 1 : sProp 𝕄)
      = (((c : Thread nD τ).loc main_v7) ↦{fullShare.right} G 1) := by rw [(arr_whole0 1).set_eq_univ]; rfl
  have e2 : ((cfg0.win 2).arr.view.loc (c : Thread nD τ) ↦[(cfg0.win 2).arr.view.set]{(dat0 V q0 c).share 2} G 2 : sProp 𝕄)
      = (((c : Thread nD τ).loc main_v9) ↦{fullShare} G 2) := by rw [(arr_whole0 2).set_eq_univ]; rfl
  have e3 : ((cfg0.win 3).arr.view.loc (c : Thread nD τ) ↦[(cfg0.win 3).arr.view.set]{(dat0 V q0 c).share 3} G 3 : sProp 𝕄)
      = (((c : Thread nD τ).loc main_v10) ↦{fullShare} G 3) := by rw [(arr_whole0 3).set_eq_univ]; rfl
  have e4 : ((cfg0.win 4).arr.view.loc (c : Thread nD τ) ↦[(cfg0.win 4).arr.view.set]{(dat0 V q0 c).share 4} G 4 : sProp 𝕄)
      = (((c : Thread nD τ).loc main_v11) ↦{fullShare} G 4) := by rw [(arr_whole0 4).set_eq_univ]; rfl
  rw [e0, e1, e2, e3, e4]

/-- ENTRY: the unscoped buffers at `V` are region 0's arrays at their entry contents — the rows array split in two halves — and the rest. -/
theorem entry0 (c : Dev nD) :
    (unscopedBufs c (V c) : sProp 𝕄) ⊢ iprop((dat0 V q0 c).arrays ((dat0 V q0 c).arrAt · 0) ∗ Pipeline.unscopedRest spec0 c (V c)) := by
  rw [Pipeline.unscopedBufs_split₀ cfgs 0 winFacts₀0.arr_unscoped c (V c)]
  show iprop(Pipeline.arrBufs spec0 c (V c) ∗ Pipeline.unscopedRest spec0 c (V c)) ⊢ _
  rw [arrBufs0_eq, arrays0_eq]
  refine sep_mono ?_ .rfl
  iintro ⟨H7, H9, H10, H11⟩
  ihave H7' := (pointsTo_share (PosShare.mem_left_op_right fullShare)).1 $$ H7
  icases H7' with ⟨H7l, H7r⟩
  isplitl [H7l]; · iexact H7l
  isplitl [H7r]; · iexact H7r
  isplitl [H9]; · iexact H9
  isplitl [H10]; · iexact H10
  iexact H11

/-- EXIT: region 0's arrays at their final contents and the rest are the unscoped buffers at any valuation that has the
    output array at what the write-backs left and agrees with the entry contents elsewhere. -/
theorem exit0 (c : Dev nD) (W' : (b : Ref sig .tc) → Buf (Elt F) ((c : Thread nD τ).loc b))
    (h11 : W' main_v11 = (dat0 V q0 c).arrAt 4 cfg0.N) (hrest : ∀ b : Ref sig .tc, b ≠ main_v11 → W' b = V c b) :
    iprop((dat0 V q0 c).arrays ((dat0 V q0 c).arrAt · cfg0.N) ∗ Pipeline.unscopedRest spec0 c (V c)) ⊢ (unscopedBufs c W' : sProp 𝕄) := by
  rw [Pipeline.unscopedBufs_split₀ cfgs 0 winFacts₀0.arr_unscoped c W']
  show _ ⊢ iprop(Pipeline.arrBufs spec0 c W' ∗ Pipeline.unscopedRest spec0 c W')
  rw [arrBufs0_eq, arrays0_eq]
  refine sep_mono ?_ (Entails.of_eq ?_)
  · rw [(dat0 V q0 c).arrAt_in 0 rfl, (dat0 V q0 c).arrAt_in 1 rfl, (dat0 V q0 c).arrAt_in 2 rfl, (dat0 V q0 c).arrAt_in 3 rfl,
      A_eq0, A_eq0, A_eq0, A_eq0, hrest main_v7 (by decide), hrest main_v9 (by decide), hrest main_v10 (by decide), h11]
    iintro ⟨H7l, H7r, H9, H10, H11⟩
    ihave H7 := (pointsTo_share (PosShare.mem_left_op_right fullShare)).2 $$ [H7l H7r]
    · isplitl [H7l] <;> iassumption
    isplitl [H7]; · iexact H7
    isplitl [H9]; · iexact H9
    isplitl [H10]; · iexact H10
    iexact H11
  · unfold Pipeline.unscopedRest
    exact bigSep_congr fun b hb => by
      rw [hrest b fun e => (Finset.mem_sdiff.mp hb).2 (Finset.mem_image.mpr ⟨4, Finset.mem_univ _, e.symm⟩)]

/-! ## Region 1: its arrays among the unscoped buffers -/

theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v7) ↦{fullShare} W main_v7) ∗ (((c : Thread nD τ).loc main_v9) ↦{fullShare} W main_v9)
          ∗ (((c : Thread nD τ).loc main_v10) ↦{fullShare} W main_v10) ∗ (((c : Thread nD τ).loc main_v11) ↦{fullShare} W main_v11)
          ∗ (((c : Thread nD τ).loc main_v12_0) ↦{fullShare} W main_v12_0) ∗ (((c : Thread nD τ).loc main_v12_1) ↦{fullShare} W main_v12_1)) := by
  unfold Pipeline.arrBufs
  exact bigSep_eq_bigSepL_of_eq [main_v7, main_v9, main_v10, main_v11, main_v12_0, main_v12_1] (by decide) (by decide) _

theorem arrays1_eq (c : Dev nD) (G : (w : Fin cfg1.W) → Buf (Elt F) ((cfg1.win w).arr.view.loc (c : Thread nD τ))) :
    ((dat1 V q1 c).arrays G : sProp 𝕄)
      = iprop((((c : Thread nD τ).loc main_v7) ↦{fullShare.left} G 0) ∗ (((c : Thread nD τ).loc main_v7) ↦{fullShare.right} G 1)
          ∗ (((c : Thread nD τ).loc main_v9) ↦{fullShare} G 2) ∗ (((c : Thread nD τ).loc main_v10) ↦{fullShare} G 3)
          ∗ (((c : Thread nD τ).loc main_v11) ↦{fullShare} G 4) ∗ (((c : Thread nD τ).loc main_v12_0) ↦{fullShare} G 5)
          ∗ (((c : Thread nD τ).loc main_v12_1) ↦{fullShare} G 6)) := by
  unfold Dat.arrays
  rw [bigSep_W1]
  have e0 : ((cfg1.win 0).arr.view.loc (c : Thread nD τ) ↦[(cfg1.win 0).arr.view.set]{(dat1 V q1 c).share 0} G 0 : sProp 𝕄)
      = (((c : Thread nD τ).loc main_v7) ↦{fullShare.left} G 0) := by rw [(arr_whole1 0).set_eq_univ]; rfl
  have e1 : ((cfg1.win 1).arr.view.loc (c : Thread nD τ) ↦[(cfg1.win 1).arr.view.set]{(dat1 V q1 c).share 1} G 1 : sProp 𝕄)
      = (((c : Thread nD τ).loc main_v7) ↦{fullShare.right} G 1) := by rw [(arr_whole1 1).set_eq_univ]; rfl
  have e2 : ((cfg1.win 2).arr.view.loc (c : Thread nD τ) ↦[(cfg1.win 2).arr.view.set]{(dat1 V q1 c).share 2} G 2 : sProp 𝕄)
      = (((c : Thread nD τ).loc main_v9) ↦{fullShare} G 2) := by rw [(arr_whole1 2).set_eq_univ]; rfl
  have e3 : ((cfg1.win 3).arr.view.loc (c : Thread nD τ) ↦[(cfg1.win 3).arr.view.set]{(dat1 V q1 c).share 3} G 3 : sProp 𝕄)
      = (((c : Thread nD τ).loc main_v10) ↦{fullShare} G 3) := by rw [(arr_whole1 3).set_eq_univ]; rfl
  have e4 : ((cfg1.win 4).arr.view.loc (c : Thread nD τ) ↦[(cfg1.win 4).arr.view.set]{(dat1 V q1 c).share 4} G 4 : sProp 𝕄)
      = (((c : Thread nD τ).loc main_v11) ↦{fullShare} G 4) := by rw [(arr_whole1 4).set_eq_univ]; rfl
  have e5 : ((cfg1.win 5).arr.view.loc (c : Thread nD τ) ↦[(cfg1.win 5).arr.view.set]{(dat1 V q1 c).share 5} G 5 : sProp 𝕄)
      = (((c : Thread nD τ).loc main_v12_0) ↦{fullShare} G 5) := by rw [(arr_whole1 5).set_eq_univ]; rfl
  have e6 : ((cfg1.win 6).arr.view.loc (c : Thread nD τ) ↦[(cfg1.win 6).arr.view.set]{(dat1 V q1 c).share 6} G 6 : sProp 𝕄)
      = (((c : Thread nD τ).loc main_v12_1) ↦{fullShare} G 6) := by rw [(arr_whole1 6).set_eq_univ]; rfl
  exact sep_congr' e0 (sep_congr' e1 (sep_congr' e2 (sep_congr' e3 (sep_congr' e4 (sep_congr' e5 e6)))))

/-- ENTRY of region 1, as for region 0. -/
theorem entry1 (c : Dev nD) :
    (unscopedBufs c (V c) : sProp 𝕄) ⊢ iprop((dat1 V q1 c).arrays ((dat1 V q1 c).arrAt · 0) ∗ Pipeline.unscopedRest spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [arrBufs1_eq, arrays1_eq]
  refine sep_mono ?_ .rfl
  iintro ⟨H7, H9, H10, H11, H12, H13⟩
  ihave H7' := (pointsTo_share (PosShare.mem_left_op_right fullShare)).1 $$ H7
  icases H7' with ⟨H7l, H7r⟩
  isplitl [H7l]; · iexact H7l
  isplitl [H7r]; · iexact H7r
  isplitl [H9]; · iexact H9
  isplitl [H10]; · iexact H10
  isplitl [H11]; · iexact H11
  isplitl [H12]; · iexact H12
  iexact H13

/-- EXIT of region 1: the two output arrays at what the write-backs left, everything else as entered. -/
theorem exit1 (c : Dev nD) (W' : (b : Ref sig .tc) → Buf (Elt F) ((c : Thread nD τ).loc b))
    (h12 : W' main_v12_0 = (dat1 V q1 c).arrAt 5 cfg1.N) (h13 : W' main_v12_1 = (dat1 V q1 c).arrAt 6 cfg1.N)
    (hrest : ∀ b : Ref sig .tc, b ≠ main_v12_0 → b ≠ main_v12_1 → W' b = V c b) :
    iprop((dat1 V q1 c).arrays ((dat1 V q1 c).arrAt · cfg1.N) ∗ Pipeline.unscopedRest spec1 c (V c)) ⊢ (unscopedBufs c W' : sProp 𝕄) := by
  rw [Pipeline.unscopedBufs_split₀ cfgs 1 winFacts₀1.arr_unscoped c W']
  show _ ⊢ iprop(Pipeline.arrBufs spec1 c W' ∗ Pipeline.unscopedRest spec1 c W')
  rw [arrBufs1_eq, arrays1_eq]
  refine sep_mono ?_ (Entails.of_eq ?_)
  · rw [(dat1 V q1 c).arrAt_in 0 rfl, (dat1 V q1 c).arrAt_in 1 rfl, (dat1 V q1 c).arrAt_in 2 rfl, (dat1 V q1 c).arrAt_in 3 rfl,
      (dat1 V q1 c).arrAt_in 4 rfl, A_eq1, A_eq1, A_eq1, A_eq1, A_eq1,
      hrest main_v7 (by decide) (by decide), hrest main_v9 (by decide) (by decide), hrest main_v10 (by decide) (by decide),
      hrest main_v11 (by decide) (by decide), h12, h13]
    iintro ⟨H7l, H7r, H9, H10, H11, H12, H13⟩
    ihave H7 := (pointsTo_share (PosShare.mem_left_op_right fullShare)).2 $$ [H7l H7r]
    · isplitl [H7l] <;> iassumption
    isplitl [H7]; · iexact H7
    isplitl [H9]; · iexact H9
    isplitl [H10]; · iexact H10
    isplitl [H11]; · iexact H11
    isplitl [H12]; · iexact H12
    iexact H13
  · unfold Pipeline.unscopedRest
    exact bigSep_congr fun b hb => by
      rw [hrest b (fun e => (Finset.mem_sdiff.mp hb).2 (Finset.mem_image.mpr ⟨5, Finset.mem_univ _, e.symm⟩))
        (fun e => (Finset.mem_sdiff.mp hb).2 (Finset.mem_image.mpr ⟨6, Finset.mem_univ _, e.symm⟩))]

end Shares

end Cert.Kernel.Hand

end
-- ==== Proof.WRun.lean ====
/-
  The kernel program's run through its two regions: the buffers' contents around them, each region as a segment of @main
  over "every unscoped buffer at the boundary's contents, the generator register at some state, nothing owed", the frame
  (every argument array ends as launched) and the run with the result buffer named.
-/
import proofs.«116760_j49323404427556_1_alg».proof.Proof.Gen.Kernel.Launch
import proofs.«116760_j49323404427556_1_alg».proof.Proof.Gen.Kernel.Skeleton
import proofs.«116760_j49323404427556_1_alg».proof.Proof.Gen.Kernel.Points
import proofs.«116760_j49323404427556_1_alg».proof.Proof.Gen.Kernel.Regions
import proofs.«116760_j49323404427556_1_alg».proof.Proof.WAsm
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents around the two regions -/

/-- Region 0 is entered from the host prefix's contents. -/
abbrev EV0 : (c : Dev nD) → (b : Ref sig .tc) → Buf (Elt F) ((c : Thread nD τ).loc b) := fun c b => Gen.V4 m c b

/-- What region 0's write-backs leave in its output array. -/
def out11 (c : Dev nD) : Buf (Elt F) ((c : Thread nD τ).loc main_v11) := (dat0 (EV0 m) q0 c).arrAt 4 cfg0.N

/-- The contents region 0 leaves: only its output array changes. -/
def outsA : Gen.Outs (F := F) := fun _ r c => if h : r = main_v11 then h ▸ out11 m c else Gen.V0 m c r

theorem outsA_v11 (c : Dev nD) : outsA m 5 main_v11 c = out11 m c := by
  unfold outsA; rw [dif_pos rfl]

/-- Region 1 is entered from what region 0 left. -/
abbrev EV1 : (c : Dev nD) → (b : Ref sig .tc) → Buf (Elt F) ((c : Thread nD τ).loc b) := fun c b => Gen.V5 m (outsA m) c b

/-- What region 1's write-backs leave in its two output arrays. -/
def out120 (c : Dev nD) : Buf (Elt F) ((c : Thread nD τ).loc main_v12_0) := (dat1 (EV1 m) q1 c).arrAt 5 cfg1.N
def out121 (c : Dev nD) : Buf (Elt F) ((c : Thread nD τ).loc main_v12_1) := (dat1 (EV1 m) q1 c).arrAt 6 cfg1.N

/-- The contents the regions leave in the buffers they may change. -/
def outs : Gen.Outs (F := F) := fun _ r c =>
  if h : r = main_v11 then h ▸ out11 m c
  else if h : r = main_v12_0 then h ▸ out120 m c
  else if h : r = main_v12_1 then h ▸ out121 m c
  else Gen.V0 m c r

theorem outs_v11 (c : Dev nD) : outs m 5 main_v11 c = out11 m c := by
  unfold outs; rw [dif_pos rfl]
theorem outs_v12_0 (c : Dev nD) : outs m 6 main_v12_0 c = out120 m c := by
  unfold outs; rw [dif_neg (by decide), dif_pos rfl]
theorem outs_v12_1 (c : Dev nD) : outs m 6 main_v12_1 c = out121 m c := by
  unfold outs; rw [dif_neg (by decide), dif_neg (by decide), dif_pos rfl]

/-- After region 0 the two bookkeepings agree. -/
theorem V5_outs (c : Dev nD) : Gen.V5 m (outs m) c = Gen.V5 m (outsA m) c := by
  unfold Gen.V5; rw [outs_v11, outsA_v11]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (EV0 m) q0 c
  | ⟨1, _⟩ => fun c => dat1 (EV1 m) q1 c

/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
def E : Fin 3 → Dev nD → sProp 𝕄 := fun _ c => R (F := F) c

set_option backward.isDefEq.respectTransparency.types false in
/-- REGION 0 over the thread state: entered from the host prefix's contents, left with its output array at what the
    write-backs leave. The rows array is dealt in halves to the two windows that read it and put together again at the exit. -/
def reg0 : RegionSeg (pcfgs (F := F)) Gen.adm (pdats m) () defs₀ Variants.none L lv 0 where
  win := winFacts₀0
  block_pos := block_pos0
  stage_whole := stage_whole0
  K := PEmpty
  osem k := k.elim
  ho := Pipeline.OwnSemFacts.none _
  hbody c := (body_obligation0 (EV0 m) q0 c).loose
  hwaits := Pipeline.hwaits_of_owed_zero _ _ _ _ L lv 0 fun _ _ => rfl
  pre c := iprop(StableHlo.held (c : Thread nD τ) (Pipeline.ucRefs τ sig) (Gen.V4 m c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (EV0 m c)
  hentry c := by
    rw [Pipeline.ownSems0_none]
    have hsplit := entry0 (EV0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (EV0 m) q0 c)
    unfold Pipeline.ΦA
    iintro ⟨Hp, -, Hr⟩
    isplitl [Hr]; · iexact Hr
    iexact Hp
  hout c := by
    rw [Pipeline.ownSems0_none]
    refine (hout0 (EV0 m) q0 c).trans ?_
    unfold Pipeline.ΦA
    iintro ⟨Hr, Hp⟩
    isplitl [Hp]; · iexact Hp
    isplitr; · iempintro
    iexact Hr
  hexit c := by
    have hjoin := exit0 (EV0 m) c (fun b => Gen.V5 m (outs m) c b)
      (by show Gen.V5 m (outs m) c main_v11 = _; unfold Gen.V5; rw [Function.update_self, outs_v11]; rfl)
      (fun b hb => Gen.V5_of m (outs m) c b (by simpa using hb))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 over the thread state: entered from what region 0 left, left with its two output arrays at what the
    write-backs leave; the rows array again dealt in halves. -/
def reg1 : RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (body_obligation1 (EV1 m) q1 c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (EV1 m c)
  hentry c := by
    rw [Pipeline.ownSems0_none, V5_outs]
    have hsplit := entry1 (EV1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (EV1 m) q1 c)
    unfold Pipeline.ΦA
    iintro ⟨Hp, -, Hr⟩
    isplitl [Hr]; · iexact Hr
    iexact Hp
  hout c := by
    rw [Pipeline.ownSems0_none]
    refine (hout1 (EV1 m) q1 c).trans ?_
    unfold Pipeline.ΦA
    iintro ⟨Hr, Hp⟩
    isplitl [Hp]; · iexact Hp
    isplitr; · iempintro
    iexact Hr
  hexit c := by
    have hjoin := exit1 (EV1 m) c (fun b => Gen.V6 m (outs m) c b)
      (by show Gen.V6 m (outs m) c main_v12_0 = _; unfold Gen.V6
          rw [Function.update_of_ne (StableHlo.devRef_ne_of_ne (by decide)), Function.update_self, outs_v12_0]; rfl)
      (by show Gen.V6 m (outs m) c main_v12_1 = _; unfold Gen.V6; rw [Function.update_self, outs_v12_1]; rfl)
      (fun b hb hb' => (Gen.V6_of m (outs m) c b (by simp [hb, hb'])).trans (congrFun (V5_outs m c) _))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The launch -/

/-- The launch's user component: the pipeline library's cells and tokens. -/
abbrev u₀ : UR sig nD τ := initOf (Pipeline.cells cfgs cellOf_inj) (Pipeline.launchToks cfgs cellOf_inj)

theorem hu₀ : (ownU (u₀) : sProp 𝕄) ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0c (c : Dev nD) : iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (E (F := F) 0 c : sProp 𝕄) := by
  unfold E
  iintro ⟨-, HO, -, Hp, -⟩
  isplitl [Hp]; · iexists _; iexact Hp
  iexists ∅; iexact HO

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine (show _ ⊢ (bigSep Finset.univ (E (F := F) 0) : sProp 𝕄) from ?_).trans (by iintro H; imodintro; iexact H)
  refine (show iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄) from by
    iintro ⟨H, -⟩; iexact H).trans (bigSep_mono fun c _ => hE0c ρ c)

theorem hE2 (c : Dev nD) : (E (F := F) 2 c : sProp 𝕄) ⊢ iprop(∃ W, owes (c : Thread nD τ) (0 : CellTallies nD τ sig Unit) W) := by
  unfold E; iintro ⟨-, HO⟩; iexact HO

set_option backward.isDefEq.respectTransparency.types false in
/-- THE FRAME at any instance: every execution of @main terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () Variants.none L lv (fun _ _ => rfl) ρ (outs m) (pdats m) 0 (fun _ => BI.emp) u₀ hu₀ E (hE0 ρ) hE2
    (reg0 m) (fun _ => .rfl) (fun _ => .rfl) (reg1 m) (fun _ => .rfl) (fun _ => .rfl)

set_option backward.isDefEq.respectTransparency.types false in
/-- THE RUN WITH THE RESULT NAMED, at any instance: as the frame, and the result buffer ends at what the host tail computes
    from the regions' output arrays (the last boundary's contents read against the final state). -/
theorem run_val : θ_run defs (onTc (τ := τ) (main (F := F))) ⟨m, fun _ => 0, ρ⟩ (fun r => ∀ c : Dev nD,
      r.2.mem ((c.tc : Thread nD τ).loc main_v16) = Gen.V7 m (outs m) c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (pdats m) () cellOf_inj emb₁ defs₀ Variants.none L lv m ρ main
    (Gen.segs m (outs m) Variants.none L lv E () (pdats m) (reg0 m) (reg1 m))
    (fun c Q => by
      rewrite [main_chain c, Seg.run_eq_chain,
        show (Gen.segs m (outs m) Variants.none L lv E () (pdats m) (reg0 m) (reg1 m) c).map Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl) (fun _ => BI.emp) u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (hE2 c)⟩)
    (hinit := ?_) (QY := fun c s => s.mem ((c.tc : Thread nD τ).loc main_v16) = Gen.V7 m (outs m) c main_v16 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are held at the launch contents; the rest makes the riding state on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep']
    isplitl [Hh]; · iexact Hh
    iexact HE
  · -- the end: the result's and each argument's buffer read off the last boundary's contents
    unfold StableHlo.held
    iintro ⟨Hh, HSI⟩
    ihave Hr := (pointsTo_read_all (Pipeline.ucRefs τ sig) (fun b => ((c : Thread nD τ).1, b)) (Gen.V7 m (outs m) c) s') $$ [Hh HSI]
    · isplitl [Hh] <;> iassumption
    icases Hr with ⟨%h, HSI⟩
    imodintro
    isplitr
    · ipureintro
      exact ⟨h (Proc.devRef .tc main_v16) (Finset.mem_filter.mpr ⟨StableHlo.devRef_mem_tcRefs main_v16, by decide⟩),
        (h (Proc.devRef .tc main_arg0) (Finset.mem_filter.mpr ⟨StableHlo.devRef_mem_tcRefs main_arg0, by decide⟩)).trans (Gen.V7_main_arg0 m (outs m) c),
        (h (Proc.devRef .tc main_arg1) (Finset.mem_filter.mpr ⟨StableHlo.devRef_mem_tcRefs main_arg1, by decide⟩)).trans (Gen.V7_main_arg1 m (outs m) c),
        (h (Proc.devRef .tc main_arg2) (Finset.mem_filter.mpr ⟨StableHlo.devRef_mem_tcRefs main_arg2, by decide⟩)).trans (Gen.V7_main_arg2 m (outs m) c),
        (h (Proc.devRef .tc main_arg3) (Finset.mem_filter.mpr ⟨StableHlo.devRef_mem_tcRefs main_arg3, by decide⟩)).trans (Gen.V7_main_arg3 m (outs m) c)⟩
    · iexact HSI

end Cert.Kernel.Hand

end
-- ==== Proof.R0Runs.lean ====
import proofs.«116760_j49323404427556_1_alg».proof.Proof.Gen.KernelIdeal.Launch
import proofs.«116760_j49323404427556_1_alg».proof.Proof.Gen.KernelIdeal.Skeleton
import proofs.«116760_j49323404427556_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0 (the row-normalising accumulation kernel): what its three control cases share

The kernel runs on an 8 x 16 grid, point `t = i * 16 + j`. Per row block `i` it zeroes two column
accumulators at `j = 0`, adds a lane sum into each at every `j`, and at `j = 15` stores their quotient
into the output block. So the grid splits into three cases by `t % 16`: `= 0` (A), strictly between (B),
`= 15` (C). -/

section Region0
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first conditional (the accumulators are zeroed): the second grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 16) — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition of the body's second conditional (the quotient is stored): the second grid coordinate is 15. -/
abbrev cond0_1 (i : grid0.Coords) : Prop := k0_cond2 i = 1#1
/-- It holds at the points ≡ 15 (mod 16) — decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the quotient is not stored the output window is idle, -/
theorem idleAt0_4 : ∀ t : Fin cfg0.N, ¬cond0_1 (grid0.coords t) → cfg0.idle 4 (grid0.coords t) = true := by decide +kernel
/-- and its block is not written back there. -/
theorem noFlush0_4 : ∀ t : Fin cfg0.N, ¬cond0_1 (grid0.coords t) → (cfg0.win 4).flush t = false := by decide +kernel
/-- Where it is stored the window is live. -/
theorem liveAt0_4 : ∀ t : Fin cfg0.N, cond0_1 (grid0.coords t) → cfg0.idle 4 (grid0.coords t) = false := by decide +kernel

/-! ## The staging and scratch memrefs -/

/-- One staging buffer of the output window, through which its contents are stated. -/
abbrev VO0_4 : View sig .tc .vmem S1024x1 .f32 := (Memref.whole cc0_stg4_0 : Memref sig .tc .vmem S1024x1 .f32).view
/-- Each window's current staging memref at point `t`, spelled as the pipeline passes it, and its wholeness. -/
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The two accumulators: whole scoped buffers of the kernel's own, passed beside the windows. -/
abbrev scM0_0 : Memref sig .tc .vmem S1024x1 .f32 := Memref.whole cc0_scratch0
abbrev scM0_1 : Memref sig .tc .vmem S1024x1 .f32 := Memref.whole cc0_scratch1
/-- The accumulators as views: what each holds is stated through its view. -/
abbrev VS0_0 : View sig .tc .vmem S1024x1 .f32 := scM0_0.view
abbrev VS0_1 : View sig .tc .vmem S1024x1 .f32 := scM0_1.view

/-- The core's scoped buffers that are neither a staging buffer of this call nor one of its two accumulators,
    each at some contents: carried through the region unopened. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- The class invariant with the two accumulators as memrefs owned at some contents, the other scoped buffers
    unopened, and the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA
  rw [Pipeline.scopedRest_split_of_list spec0 c [cc0_scratch0, cc0_scratch1] (by decide) (by decide)]
  simp only [scM0_0, scM0_1, owns_whole]; try rfl

end Cert.KernelIdeal.Hand

end
-- ==== Proof.R0RunA.lean ====
import proofs.«116760_j49323404427556_1_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output's staging memref and in the two accumulators, as pieces (last
    first), in case A (the accumulators are zeroed, the quotient is not stored), with the proof that on whole memrefs — the inputs' at their contents, the output's, which the case leaves alone, at contents handed back untouched,
    the accumulators at anything (the case loads each before it zeroes it, and drops the value) — the body runs to the continuation holding the inputs' as they were and
    each stored buffer with its pieces written. The pieces are the witness the symbolic run finds. -/
noncomputable def kernelRun0_A (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) :
    Σ' (L4 : List (View.Piece (Elt F) S1024x1 .f32)), Σ' (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨[], ?_, ?_, fun xi4 E K => ?run⟩
  case run =>
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.R0RunB.lean ====
import proofs.«116760_j49323404427556_1_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output's staging memref and in the two accumulators, as pieces (last
    first), in case B (the accumulators are kept, the quotient is not stored), with the proof that on whole memrefs — the inputs' at their contents, the output's, which the case leaves alone, at contents handed back untouched,
    the accumulators at what the point before left — the body runs to the continuation holding the inputs' as they were and
    each stored buffer with its pieces written. The pieces are the witness the symbolic run finds. -/
noncomputable def kernelRun0_B (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) :
    Σ' (L4 : List (View.Piece (Elt F) S1024x1 .f32)), Σ' (LS0 : List (View.Piece (Elt F) S1024x1 .f32)), { LS1 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨[], ?_, ?_, fun xi4 E K => ?run⟩
  case run =>
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.R0RunC.lean ====
import proofs.«116760_j49323404427556_1_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave in the output's staging memref and in the two accumulators, as pieces (last
    first), in case C (the accumulators are kept, the quotient is stored), with the proof that on whole memrefs — the inputs' at their contents, the output's at anything,
    the accumulators at what the point before left — the body runs to the continuation holding the inputs' as they were and
    each stored buffer with its pieces written. The pieces are the witness the symbolic run finds. -/
noncomputable def kernelRun0_C (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) :
    Σ' (L4 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, ?_, fun E K => ?run⟩
  case run =>
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Hand

end
-- ==== Proof.R0.lean ====
import proofs.«116760_j49323404427556_1_alg».proof.Proof.R0RunA
import proofs.«116760_j49323404427556_1_alg».proof.Proof.R0RunB
import proofs.«116760_j49323404427556_1_alg».proof.Proof.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each case leaves, point by point, and the body obligation -/

/-- Case A stores nothing into the output (the window is idle at its points and not written back there): no
    pieces — a placeholder (junk read back) that nothing consults. -/
def out0_A_4 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) : Vec F S1024x1 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1 x2 x3).1)

/-- Case A's pieces for accumulator 0 tile it, so they cover it. -/
theorem scover0_A_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 hc0 hc1 x0 x1 x2 x3).2.1, y ∈ pc.1.set :=
  View.cover_of_tiledL (kernelRun0_A c i arg2 harg2 arg3 harg3 arg4 harg4 arg5 harg5 arg6 harg6 arg7 harg7 arg8 harg8 hc0 hc1 x0 x1 x2 x3).2.1 S1024x1.size (by sl_kernel_rfl) y

/-- What case A leaves in accumulator 0: its pieces read back over junk. -/
def sout0_A_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3).2.1)

/-- Case A's pieces for accumulator 1 tile it, so they cover it. -/
theorem scover0_A_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 hc0 hc1 x0 x1 x2 x3).2.2.1, y ∈ pc.1.set :=
  View.cover_of_tiledL (kernelRun0_A c i arg2 harg2 arg3 harg3 arg4 harg4 arg5 harg5 arg6 harg6 arg7 harg7 arg8 harg8 hc0 hc1 x0 x1 x2 x3).2.2.1 S1024x1.size (by sl_kernel_rfl) y

/-- What case A leaves in accumulator 1: its pieces read back over junk. -/
def sout0_A_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2 x3).2.2.1)

/-- Case B stores nothing into the output (the window is idle at its points and not written back there): no
    pieces — a placeholder (junk read back) that nothing consults. -/
def out0_B_4 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 x2 x3 xs0 xs1).1)

/-- Case B's pieces for accumulator 0 tile it, so they cover it. -/
theorem scover0_B_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.1 S1024x1.size (by sl_kernel_rfl) y

/-- What case B leaves in accumulator 0: its pieces read back over junk. -/
def sout0_B_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 xs0 xs1).2.1)

/-- Case B's pieces for accumulator 1 tile it, so they cover it. -/
theorem scover0_B_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) (y : S1024x1.Idx) :
    ∃ pc ∈ (kernelRun0_B c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg2 harg2 arg3 harg3 arg4 harg4 arg5 harg5 arg6 harg6 arg7 harg7 arg8 harg8 hc0 hc1 x0 x1 x2 x3 xs0 xs1).2.2.1 S1024x1.size (by sl_kernel_rfl) y

/-- What case B leaves in accumulator 1: its pieces read back over junk. -/
def sout0_B_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 x3 xs0 xs1).2.2.1)

/-- Case C's one store into the output block covers it. -/
theorem cover0_C_4 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg2 harg2 arg3 harg3 arg4 harg4 arg5 harg5 arg6 harg6 arg7 harg7 arg8 harg8 hc0 hc1 x0 x1 x2 x3 xs0 xs1).1 S1024x1.size (by sl_kernel_rfl) y

/-- What case C leaves in the output's staging buffer: its pieces read back over junk. -/
def out0_C_4 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 x3 xs0 xs1).1)

/-- Case C's pieces for accumulator 0 tile it, so they cover it. -/
theorem scover0_C_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.1 S1024x1.size (by sl_kernel_rfl) y

/-- What case C leaves in accumulator 0: its pieces read back over junk. -/
def sout0_C_0 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 xs0 xs1).2.1)

/-- Case C's pieces for accumulator 1 tile it, so they cover it. -/
theorem scover0_C_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) (y : S1024x1.Idx) :
    ∃ pc ∈ (kernelRun0_C c i arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 x3 xs0 xs1).2.2.1 S1024x1.size (by sl_kernel_rfl) y

/-- What case C leaves in accumulator 1: its pieces read back over junk. -/
def sout0_C_1 (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 x3 xs0 xs1).2.2.1)

section Region0
-- the core's buffer contents when the region is entered, and the shares held of the windows' arrays
variable (V : (c : Dev nD) → (b : Ref sig .tc) → Buf (Elt F) ((c : Thread nD τ).loc b)) (q : Fin cfg0.W → PosShare TreeShare)

/-! ## What the output's buffer and the accumulators hold after each point -/

/-- The accumulation. What the output's staging buffer and the two accumulators hold after the body at position `n`
    (the output first, then accumulator 0, then accumulator 1): the case the closed forms select at `n`, run at the
    point's memrefs and input blocks, the accumulators at what this leaves at `n - 1`. -/
def outsAt0 (c : Dev nD) : (n : ℕ) → n < cfg0.N → Vec F S1024x1 .f32 × Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 16 = 0) (h1 : ¬t.val % 16 = 15) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no
    staging buffer at anything); afterwards the two accumulators at what the point before left in them, the other
    scoped buffers unopened, and the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.1) ∗ owns (c : Thread nD τ) scM0_1 fullShare ((outsAt0 V c n hn).2.2)) ∗ rest0 c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulators at that point's contents. -/
theorem PhiS0_succ (c : Dev nD) (n : ℕ) (hn : n < cfg0.N) :
    PhiS0 V c (n + 1) hn = iprop(iprop(iprop(owns (c : Thread nD τ) scM0_0 fullShare ((outsAt0 V c n hn).2.1) ∗ owns (c : Thread nD τ) scM0_1 fullShare ((outsAt0 V c n hn).2.2)) ∗ rest0 c) ∗ (∃ r, prngReg c r)) := rfl

/-- Before a point that is not the first: the accumulators at what the point before left. -/
theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.1) ∗ owns (c : Thread nD τ) scM0_1 fullShare ((outsAt0 V c (n - 1) (by omega)).2.2)) ∗ rest0 c) ∗ (∃ r, prngReg c r)) := by
  cases n with
  | zero => exact absurd rfl hz
  | succ n => rfl

/-! ## The pipeline's proof data -/

/-- The proof data of this pipeline on core `c`: the arrays as the region finds them (`V`); after the body at point
    `t` each input's buffer at its block and the output's at `outsAt0`'s first component; the invariant `PhiS0`;
    nothing owed; the shares `q`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q := q
  owed _ := 0

/-- The proof data's arrays are the region-entry contents. -/
theorem A_eq0 (c : Dev nD) (w : Fin cfg0.W) : (dat0 V q c).A w = V c (Pipeline.arrRef spec0 w) := by
  dsimp only [dat0]

/-- The invariant at a point's start, restated at `t.val`. -/
theorem PhiS0_castSucc (c : Dev nD) (t : Fin cfg0.N) :
    (dat0 V q c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V q c).after 0 t = iblk0 V c 0 t := by dsimp only [dat0]
theorem after0_1 (c : Dev nD) (t : Fin cfg0.N) : (dat0 V q c).after 1 t = iblk0 V c 1 t := by dsimp only [dat0]
theorem after0_2 (c : Dev nD) (t : Fin cfg0.N) : (dat0 V q c).after 2 t = iblk0 V c 2 t := by dsimp only [dat0]
theorem after0_3 (c : Dev nD) (t : Fin cfg0.N) : (dat0 V q c).after 3 t = iblk0 V c 3 t := by dsimp only [dat0]
theorem after0_4 (c : Dev nD) (t : Fin cfg0.N) : (dat0 V q c).after 4 t = (outsAt0 V c t.val t.isLt).1 := by dsimp only [dat0]

/-- Each input's current staging buffer holds its block at every point, fetched there or not. -/
theorem before0_0 (c : Dev nD) (t : Fin cfg0.N) (d) : (dat0 V q c).before 0 t d = iblk0 V c 0 t :=
  before0_0_of V (dat0 V q c) (A_eq0 V q c 0) (after0_0 V q c) t d
theorem before0_1 (c : Dev nD) (t : Fin cfg0.N) (d) : (dat0 V q c).before 1 t d = iblk0 V c 1 t :=
  before0_1_of V (dat0 V q c) (A_eq0 V q c 1) (after0_1 V q c) t d
theorem before0_2 (c : Dev nD) (t : Fin cfg0.N) (d) : (dat0 V q c).before 2 t d = iblk0 V c 2 t :=
  before0_2_of V (dat0 V q c) (A_eq0 V q c 2) (after0_2 V q c) t d
theorem before0_3 (c : Dev nD) (t : Fin cfg0.N) (d) : (dat0 V q c).before 3 t d = iblk0 V c 3 t :=
  before0_3_of V (dat0 V q c) (A_eq0 V q c 3) (after0_3 V q c) t d

/-! ## The body obligation, at a generic point -/

/-- What the body is called with at point `t`, the windows one by one, -/
def bodyPre0 (c : Dev nD) (t : Fin cfg0.N) : sProp 𝕄 :=
  iprop((dat0 V q c).Φ t.castSucc ∗ (dat0 V q c).owesAt () t.castSucc
    ∗ (∃ d, owns (c : Thread nD τ) (ms0_0 t) fullShare ((dat0 V q c).before 0 t d))
    ∗ (∃ d, owns (c : Thread nD τ) (ms0_1 t) fullShare ((dat0 V q c).before 1 t d))
    ∗ (∃ d, owns (c : Thread nD τ) (ms0_2 t) fullShare ((dat0 V q c).before 2 t d))
    ∗ (∃ d, owns (c : Thread nD τ) (ms0_3 t) fullShare ((dat0 V q c).before 3 t d))
    ∗ (∃ d, owns (c : Thread nD τ) (ms0_4 t) fullShare ((dat0 V q c).before 4 t d)))

/-- and what it returns. -/
def bodyPost0 (c : Dev nD) (t : Fin cfg0.N) : sProp 𝕄 :=
  iprop((dat0 V q c).Φ t.succ ∗ (dat0 V q c).owesAt () t.succ
    ∗ (dat0 V q c).leavesExact 0 t
    ∗ (dat0 V q c).leavesExact 1 t
    ∗ (dat0 V q c).leavesExact 2 t
    ∗ (dat0 V q c).leavesExact 3 t
    ∗ (dat0 V q c).leavesExact 4 t)

set_option maxHeartbeats 4800000 in
/-- The body at any point: the inputs' memrefs hold their blocks; the closed forms say which case the point is in; so that
    case's run applies; the invariant hands the body the accumulators at what the point before left (at anything at the
    first point) and takes them back at this point's contents; the other scoped buffers, the generator register and the
    core's debts pass through unread. -/
theorem sound_body0 (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3]
  rw [show (dat0 V q c).owesAt () t.succ = (dat0 V q c).owesAt () t.castSucc from rfl]
  rw [show (dat0 V q c).Φ t.succ = PhiS0 V c (t.val + 1) t.isLt from rfl, PhiS0_succ]
  have hN : t.val < 128 := lt_of_lt_of_eq t.isLt (show cfg0.N = 128 from N_0)
  rw [show (dat0 V q c).leavesExact 0 t = owns (c : Thread nD τ) (ms0_0 t) fullShare ((dat0 V q c).after 0 t) from by
    unfold Dat.leavesExact; rw [liveAt0_0 t], after0_0]
  rw [show (dat0 V q c).leavesExact 1 t = owns (c : Thread nD τ) (ms0_1 t) fullShare ((dat0 V q c).after 1 t) from by
    unfold Dat.leavesExact; rw [liveAt0_1 t], after0_1]
  rw [show (dat0 V q c).leavesExact 2 t = owns (c : Thread nD τ) (ms0_2 t) fullShare ((dat0 V q c).after 2 t) from by
    unfold Dat.leavesExact; rw [liveAt0_2 t], after0_2]
  rw [show (dat0 V q c).leavesExact 3 t = owns (c : Thread nD τ) (ms0_3 t) fullShare ((dat0 V q c).after 3 t) from by
    unfold Dat.leavesExact; rw [liveAt0_3 t], after0_3]
  by_cases h0 : t.val % 16 = 0
  · by_cases h1 : t.val % 16 = 15
    · exfalso; omega
    · have hc0 : cond0_0 (grid0.coords t) := (hcond0_0 t).mpr h0
      have hc1 : ¬cond0_1 (grid0.coords t) := fun h => h1 ((hcond0_1 t).mp h)
      rw [Dat.leavesExact_idle (dat0 V q c) 4 t (idleAt0_4 t hc1) (noFlush0_4 t hc1)]
      rw [outsAt0_A V c t h0 h1]
      unfold sout0_A_0 sout0_A_1; (try dsimp only)
      by_cases hz : t.val = 0
      · rw [PhiS0_castSucc V q c t, PhiS0_zero V c _ _ hz, PhiA0_eq]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ hc0 hc1 (iblk0 V c 0 t) (iblk0 V c 1 t) (iblk0 V c 2 t) (iblk0 V c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _ _ _ _ _)
            · iexact HR
          · iexact Hg
        isplitl [Ho]; · iexact Ho
        isplitl [H0]; · iexact H0
        isplitl [H1]; · iexact H1
        isplitl [H2]; · iexact H2
        isplitl [H3]; · iexact H3
        iexists _; iexact H4
      · rw [PhiS0_castSucc V q c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ hc0 hc1 (iblk0 V c 0 t) (iblk0 V c 1 t) (iblk0 V c 2 t) (iblk0 V c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _)
              · unfold owns; iexists _; isplitr
                swap; · iexact HS1
                ipureintro; exact View.read_writes_of_cover _ _ _ _ _ (scover0_A_1 c _ _ _ _ _ _ _ _ _ _ _ _ _ _ _ _ _ _ _ _ _)
            · iexact HR
          · iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    have hc0 : ¬cond0_0 (grid0.coords t) := fun h => h0 ((hcond0_0 t).mp h)
    by_cases h1 : t.val % 16 = 15
    · have hc1 : cond0_1 (grid0.coords t) := (hcond0_1 t).mpr h1
      rw [show (dat0 V q c).leavesExact 4 t = owns (c : Thread nD τ) (ms0_4 t) fullShare ((dat0 V q c).after 4 t) from by
        unfold Dat.leavesExact; rw [liveAt0_4 t hc1], after0_4]
      rw [outsAt0_C V c t h0 h1]
      unfold out0_C_4 sout0_C_0 sout0_C_1; (try dsimp only)
      · rw [PhiS0_castSucc V q c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ hc0 hc1 (iblk0 V c 0 t) (iblk0 V c 1 t) (iblk0 V c 2 t) (iblk0 V c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _)
              · unfold owns; iexists _; isplitr
                swap; · iexact HS1
                ipureintro; exact View.read_writes_of_cover _ _ _ _ _ (scover0_C_1 c _ _ _ _ _ _ _ _ _ _ _ _ _ _ _ _ _ _ _ _ _ _ _)
            · iexact HR
          · iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _)
    · have hc1 : ¬cond0_1 (grid0.coords t) := fun h => h1 ((hcond0_1 t).mp h)
      rw [Dat.leavesExact_idle (dat0 V q c) 4 t (idleAt0_4 t hc1) (noFlush0_4 t hc1)]
      rw [outsAt0_B V c t h0 h1]
      unfold sout0_B_0 sout0_B_1; (try dsimp only)
      · rw [PhiS0_castSucc V q c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ hc0 hc1 (iblk0 V c 0 t) (iblk0 V c 1 t) (iblk0 V c 2 t) (iblk0 V c 3 t) _ _).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _ _ _)
              · unfold owns; iexists _; isplitr
                swap; · iexact HS1
                ipureintro; exact View.read_writes_of_cover _ _ _ _ _ (scover0_B_1 c _ _ _ _ _ _ _ _ _ _ _ _ _ _ _ _ _ _ _ _ _ _ _)
            · iexact HR
          · iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V q c) (defs₀ (F := F)) Variants.none () Set.univ := fun t => by
  rw [bigSep_W0, bigSep_W0]
  exact sound_body0 V q c t

/-- What the launch hands the region is the invariant before the first point. -/
theorem hin0 (c : Dev nD) : Pipeline.ΦA spec0 c ⊢ (dat0 V q c).Φ 0 := by
  rw [show (dat0 V q c).Φ 0 = PhiS0 V c 0 (Nat.zero_le _) from rfl, PhiS0_zero V c 0 _ rfl]
  try exact Idealize.SL.BI.Entails.refl _

/-- After any point but the first the invariant gives the class's back: the accumulators' named contents are forgotten. -/
theorem Phi_out0 (c : Dev nD) (t : Fin (cfg0.N + 1)) (ht : t.val ≠ 0) : (dat0 V q c).Φ t ⊢ Pipeline.ΦA spec0 c := by
  rw [show (dat0 V q c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  · iexact Hg

/-- The same after the last point. -/
theorem hout0 (c : Dev nD) : (dat0 V q c).Φ (Fin.last cfg0.N) ⊢ Pipeline.ΦA spec0 c :=
  Phi_out0 V q c _ (by rw [Fin.val_last]; have : cfg0.N = 128 := N_0; omega)

end Region0

end Cert.KernelIdeal.Hand

end
-- ==== Proof.R1Runs.lean ====
/- What the three case runs of region 1 (the second kernel call) share: each window's block at a point read off
   the region-entry contents, the input windows' staging contents, the body's two branch conditions in closed
   form over the grid, where the two output windows are idle, the staging and scratch memrefs, and the region
   invariant with the two carried scratch buffers split off. -/
import proofs.«116760_j49323404427556_1_alg».proof.Proof.Gen.KernelIdeal.Launch
import proofs.«116760_j49323404427556_1_alg».proof.Proof.Gen.KernelIdeal.Skeleton
import proofs.«116760_j49323404427556_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The condition of the body's first `scf.if` (the second grid coordinate is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16) — decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (the second grid coordinate is 15). -/
abbrev cond1_1 (i : grid1.Coords) : Prop := k1_cond2 i = 1#1
/-- It holds at the points ≡ 15 (mod 16) — decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second condition fails output 5 is idle and not written back; where it holds the output is live. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel
/-- Where the second condition fails output 6 is idle and not written back; where it holds the output is live. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

/-! ## The staging and scratch memrefs -/

/-- One staging buffer of each output window, through which its contents are stated (the choice does not matter). -/
abbrev VO1_5 : View sig .tc .vmem S1024x1 .f32 := (Memref.whole cc1_stg5_0 : Memref sig .tc .vmem S1024x1 .f32).view
abbrev VO1_6 : View sig .tc .vmem S1024x1 .f32 := (Memref.whole cc1_stg6_0 : Memref sig .tc .vmem S1024x1 .f32).view
/-- Each window's current staging memref at point `t`, as the pipeline passes it to the body, and its wholeness. -/
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x1 .f32 := win1_6.stage (cfg1.slots t 6)
abbrev hs1_6 (t : Fin cfg1.N) : (ms1_6 t).IsWhole := hstage1_6 ((cfg1.slots t 6).cast nbuf1_6)
/-- The two scratch operands: whole scoped buffers of the kernel's own, carried between grid points. -/
abbrev scM1_0 : Memref sig .tc .vmem S1024x1 .f32 := Memref.whole cc1_scratch0
abbrev scM1_1 : Memref sig .tc .vmem S1024x1 .f32 := Memref.whole cc1_scratch1
abbrev VS1_0 : View sig .tc .vmem S1024x1 .f32 := scM1_0.view
abbrev VS1_1 : View sig .tc .vmem S1024x1 .f32 := scM1_1.view

/-! ## The region invariant, the carried scratches split off -/

/-- The core's scoped buffers that this call neither stages nor carries (the other call's staging buffers and
    scratches), each whole at some contents. -/
def restO1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The invariant's shape after a point: the other scoped buffers at anything, the two carried scratches at named
    contents, the generator register at some state. -/
abbrev PhiAt1 (c : Dev nD) (a b : Vec F S1024x1 .f32) : sProp 𝕄 :=
  iprop(restO1 (F := F) c ∗ owns (c : Thread nD τ) scM1_0 fullShare a ∗ owns (c : Thread nD τ) scM1_1 fullShare b ∗ (∃ r, prngReg c r))

/-- What the launch hands the region, with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The launch's invariant gives the split form, the scratches at some contents. -/
theorem PhiA1_split (c : Dev nD) :
    (Pipeline.ΦA spec1 c : sProp 𝕄) ⊢ iprop(∃ a b, PhiAt1 (F := F) c a b) := by
  rw [PhiA1_eq]; unfold PhiAt1 restO1
  iintro ⟨⟨R1, R2, R3, R4, R5, R6, R7, R8, R9, R10, R11, R12, ⟨%a, HS0⟩, ⟨%b, HS1⟩⟩, Hg⟩
  iexists a; iexists b
  isplitl [R1 R2 R3 R4 R5 R6 R7 R8 R9 R10 R11 R12]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    iexact R12
  isplitl [HS0]; · iexact HS0
  isplitl [HS1]; · iexact HS1
  iexact Hg

/-- The split form, the scratches' contents forgotten, is the launch's invariant again. -/
theorem PhiA1_join (c : Dev nD) (a b : Vec F S1024x1 .f32) :
    PhiAt1 (F := F) c a b ⊢ (Pipeline.ΦA spec1 c : sProp 𝕄) := by
  rw [PhiA1_eq]; unfold PhiAt1 restO1
  iintro ⟨⟨R1, R2, R3, R4, R5, R6, R7, R8, R9, R10, R11, R12⟩, HS0, HS1, Hg⟩
  isplitr [Hg]
  swap; · iexact Hg
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [HS0]; · iexists _; iexact HS0
  iexists _; iexact HS1

end Cert.KernelIdeal.Hand

end
-- ==== Proof.R1RunA.lean ====
/- The kernel body of region 1 run as a whole in the case where the second grid coordinate is 0 (the scratches are zeroed first, then accumulated into; no output is stored): the pieces each buffer ends with
   are the witness the symbolic run finds. -/
import proofs.«116760_j49323404427556_1_alg».proof.Proof.R1Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the two output staging memrefs (`L5`, `L6`) and in the
    two scratch memrefs (`LS0`, `LS1`) when the second grid coordinate is 0 (the scratches are zeroed first, then accumulated into; no output is stored), with the proof that on whole memrefs — the inputs' at
    their contents, the idle outputs' at contents handed back untouched, the scratches at anything — the body runs to the
    continuation holding the inputs as they were and each stored buffer with its pieces written. -/
noncomputable def kernelRun1_A (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) :
    Σ' (L5 : List (View.Piece (Elt F) S1024x1 .f32)) (L6 : List (View.Piece (Elt F) S1024x1 .f32)) (LS0 : List (View.Piece (Elt F) S1024x1 .f32)), { LS1 : List (View.Piece (Elt F) S1024x1 .f32) //
      ∀ (xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__kernel_b i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc1__kernel_b_eq_skeleton]; unfold cc1__kernel_b_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.R1RunB.lean ====
/- The kernel body of region 1 run as a whole in the case where the second grid coordinate is neither 0 nor 15 (the scratches are accumulated into; no output is stored): the pieces each buffer ends with
   are the witness the symbolic run finds. -/
import proofs.«116760_j49323404427556_1_alg».proof.Proof.R1Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the two output staging memrefs (`L5`, `L6`) and in the
    two scratch memrefs (`LS0`, `LS1`) when the second grid coordinate is neither 0 nor 15 (the scratches are accumulated into; no output is stored), with the proof that on whole memrefs — the inputs' at
    their contents, the idle outputs' at contents handed back untouched, the scratches at what the point before left — the body runs to the
    continuation holding the inputs as they were and each stored buffer with its pieces written. -/
noncomputable def kernelRun1_B (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) :
    Σ' (L5 : List (View.Piece (Elt F) S1024x1 .f32)) (L6 : List (View.Piece (Elt F) S1024x1 .f32)) (LS0 : List (View.Piece (Elt F) S1024x1 .f32)), { LS1 : List (View.Piece (Elt F) S1024x1 .f32) //
      ∀ (xi5 xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__kernel_b i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc1__kernel_b_eq_skeleton]; unfold cc1__kernel_b_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.R1RunC.lean ====
/- The kernel body of region 1 run as a whole in the case where the second grid coordinate is 15 (the scratches are accumulated into, then copied to the two outputs): the pieces each buffer ends with
   are the witness the symbolic run finds. -/
import proofs.«116760_j49323404427556_1_alg».proof.Proof.R1Runs

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 4000000 in
/-- What the body's stores leave, as pieces (last first), in the two output staging memrefs (`L5`, `L6`) and in the
    two scratch memrefs (`LS0`, `LS1`) when the second grid coordinate is 15 (the scratches are accumulated into, then copied to the two outputs), with the proof that on whole memrefs — the inputs' at
    their contents, the outputs' at anything, the scratches at what the point before left — the body runs to the
    continuation holding the inputs as they were and each stored buffer with its pieces written. -/
noncomputable def kernelRun1_C (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) :
    Σ' (L5 : List (View.Piece (Elt F) S1024x1 .f32)) (L6 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1__kernel_b i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__kernel_b_eq_skeleton]; unfold cc1__kernel_b_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.KernelIdeal.Hand

end
-- ==== Proof.R1.lean ====
/- Region 1 (the second kernel call) at a parameter `V`, the core's buffer contents when the region is entered:
   what each case leaves in the two output staging buffers and the two carried scratches, those contents point
   by point, the region invariant, the pipeline's proof data, the body obligation, and the invariant's two ends. -/
import proofs.«116760_j49323404427556_1_alg».proof.Proof.R1RunA
import proofs.«116760_j49323404427556_1_alg».proof.Proof.R1RunB
import proofs.«116760_j49323404427556_1_alg».proof.Proof.R1RunC

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-! ### Case A -/

/-- This case stores nothing into output 5 (the window is idle at its points and not written back there): no
    pieces — a placeholder that nothing consults. -/
def out1_A_5 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) : Vec F S1024x1 .f32 :=
  VO1_5.read (Elt F) (VO1_5.writes (Elt F) VO1_5.junk (kernelRun1_A c i arg2 harg2 arg3 harg3 arg4 harg4 arg5 harg5 arg6 harg6 arg7 harg7 arg8 harg8 arg9 harg9 arg10 harg10 hc0 hc1 x0 x1 x2 x3 x4).1)

/-- This case stores nothing into output 6 (the window is idle at its points and not written back there): no
    pieces — a placeholder that nothing consults. -/
def out1_A_6 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) : Vec F S1024x1 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 hc0 hc1 x0 x1 x2 x3 x4).2.1)

/-- The pieces for scratch 0, which the kernel carries between points, tile it, so they cover it. -/
theorem scover1_A_0 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.1 S1024x1.size (by sl_kernel_rfl) y

/-- What this case leaves in scratch 0: its pieces read back over junk. -/
def sout1_A_0 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) : Vec F S1024x1 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).2.2.1)

/-- The pieces for scratch 1, which the kernel carries between points, tile it, so they cover it. -/
theorem scover1_A_1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) (y : S1024x1.Idx) :
    ∃ pc ∈ (kernelRun1_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun1_A c i arg2 harg2 arg3 harg3 arg4 harg4 arg5 harg5 arg6 harg6 arg7 harg7 arg8 harg8 arg9 harg9 arg10 harg10 hc0 hc1 x0 x1 x2 x3 x4).2.2.2.1 S1024x1.size (by sl_kernel_rfl) y

/-- What this case leaves in scratch 1: its pieces read back over junk. -/
def sout1_A_1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) : Vec F S1024x1 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.2.2.1)

/-- The four buffers after this case: output 5's staging, output 6's staging, scratch 0, scratch 1. -/
def outs1_A (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) : Vec F S1024x1 .f32 × Vec F S1024x1 .f32 × Vec F S1024x1 .f32 × Vec F S1024x1 .f32 :=
  (out1_A_5 c i arg2 harg2 arg3 harg3 arg4 harg4 arg5 harg5 arg6 harg6 arg7 harg7 arg8 harg8 arg9 harg9 arg10 harg10 hc0 hc1 x0 x1 x2 x3 x4, out1_A_6 c i arg2 harg2 arg3 harg3 arg4 harg4 arg5 harg5 arg6 harg6 arg7 harg7 arg8 harg8 arg9 harg9 arg10 harg10 hc0 hc1 x0 x1 x2 x3 x4, sout1_A_0 c i arg2 harg2 arg3 harg3 arg4 harg4 arg5 harg5 arg6 harg6 arg7 harg7 arg8 harg8 arg9 harg9 arg10 harg10 hc0 hc1 x0 x1 x2 x3 x4, sout1_A_1 c i arg2 harg2 arg3 harg3 arg4 harg4 arg5 harg5 arg6 harg6 arg7 harg7 arg8 harg8 arg9 harg9 arg10 harg10 hc0 hc1 x0 x1 x2 x3 x4)

/-! ### Case B -/

/-- This case stores nothing into output 5 (the window is idle at its points and not written back there): no
    pieces — a placeholder that nothing consults. -/
def out1_B_5 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VO1_5.read (Elt F) (VO1_5.writes (Elt F) VO1_5.junk (kernelRun1_B c i arg2 harg2 arg3 harg3 arg4 harg4 arg5 harg5 arg6 harg6 arg7 harg7 arg8 harg8 arg9 harg9 arg10 harg10 hc0 hc1 x0 x1 x2 x3 x4 xs0 xs1).1)

/-- This case stores nothing into output 6 (the window is idle at its points and not written back there): no
    pieces — a placeholder that nothing consults. -/
def out1_B_6 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 hc0 hc1 x0 x1 x2 x3 x4 xs0 xs1).2.1)

/-- The pieces for scratch 0, which the kernel carries between points, tile it, so they cover it. -/
theorem scover1_B_0 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1).2.2.1 S1024x1.size (by sl_kernel_rfl) y

/-- What this case leaves in scratch 0: its pieces read back over junk. -/
def sout1_B_0 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1).2.2.1)

/-- The pieces for scratch 1, which the kernel carries between points, tile it, so they cover it. -/
theorem scover1_B_1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) (y : S1024x1.Idx) :
    ∃ pc ∈ (kernelRun1_B c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun1_B c i arg2 harg2 arg3 harg3 arg4 harg4 arg5 harg5 arg6 harg6 arg7 harg7 arg8 harg8 arg9 harg9 arg10 harg10 hc0 hc1 x0 x1 x2 x3 x4 xs0 xs1).2.2.2.1 S1024x1.size (by sl_kernel_rfl) y

/-- What this case leaves in scratch 1: its pieces read back over junk. -/
def sout1_B_1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1).2.2.2.1)

/-- The four buffers after this case: output 5's staging, output 6's staging, scratch 0, scratch 1. -/
def outs1_B (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 × Vec F S1024x1 .f32 × Vec F S1024x1 .f32 × Vec F S1024x1 .f32 :=
  (out1_B_5 c i arg2 harg2 arg3 harg3 arg4 harg4 arg5 harg5 arg6 harg6 arg7 harg7 arg8 harg8 arg9 harg9 arg10 harg10 hc0 hc1 x0 x1 x2 x3 x4 xs0 xs1, out1_B_6 c i arg2 harg2 arg3 harg3 arg4 harg4 arg5 harg5 arg6 harg6 arg7 harg7 arg8 harg8 arg9 harg9 arg10 harg10 hc0 hc1 x0 x1 x2 x3 x4 xs0 xs1, sout1_B_0 c i arg2 harg2 arg3 harg3 arg4 harg4 arg5 harg5 arg6 harg6 arg7 harg7 arg8 harg8 arg9 harg9 arg10 harg10 hc0 hc1 x0 x1 x2 x3 x4 xs0 xs1, sout1_B_1 c i arg2 harg2 arg3 harg3 arg4 harg4 arg5 harg5 arg6 harg6 arg7 harg7 arg8 harg8 arg9 harg9 arg10 harg10 hc0 hc1 x0 x1 x2 x3 x4 xs0 xs1)

/-! ### Case C -/

/-- The pieces for output 5 tile its block, so they cover it. -/
theorem cover1_C_5 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).1 S1024x1.size (by sl_kernel_rfl) y

/-- What this case leaves in output 5's staging buffer: its pieces read back over junk. -/
def out1_C_5 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1).1)

/-- The pieces for output 6 tile its block, so they cover it. -/
theorem cover1_C_6 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).2.1 S1024x1.size (by sl_kernel_rfl) y

/-- What this case leaves in output 6's staging buffer: its pieces read back over junk. -/
def out1_C_6 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 hc0 hc1 x0 x1 x2 x3 x4 xs0 xs1).2.1)

/-- The pieces for scratch 0, which the kernel carries between points, tile it, so they cover it. -/
theorem scover1_C_0 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).2.2.1 S1024x1.size (by sl_kernel_rfl) y

/-- What this case leaves in scratch 0: its pieces read back over junk. -/
def sout1_C_0 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1).2.2.1)

/-- The pieces for scratch 1, which the kernel carries between points, tile it, so they cover it. -/
theorem scover1_C_1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) (y : S1024x1.Idx) :
    ∃ pc ∈ (kernelRun1_C c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 hc0 hc1 x0 x1 x2 x3 x4 xs0 xs1).2.2.2.1 S1024x1.size (by sl_kernel_rfl) y

/-- What this case leaves in scratch 1: its pieces read back over junk. -/
def sout1_C_1 (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1).2.2.2.1)

/-- The four buffers after this case: output 5's staging, output 6's staging, scratch 0, scratch 1. -/
def outs1_C (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) : Vec F S1024x1 .f32 × Vec F S1024x1 .f32 × Vec F S1024x1 .f32 × Vec F S1024x1 .f32 :=
  (out1_C_5 c i arg2 harg2 arg3 harg3 arg4 harg4 arg5 harg5 arg6 harg6 arg7 harg7 arg8 harg8 arg9 harg9 arg10 harg10 hc0 hc1 x0 x1 x2 x3 x4 xs0 xs1, out1_C_6 c i arg2 harg2 arg3 harg3 arg4 harg4 arg5 harg5 arg6 harg6 arg7 harg7 arg8 harg8 arg9 harg9 arg10 harg10 hc0 hc1 x0 x1 x2 x3 x4 xs0 xs1, sout1_C_0 c i arg2 harg2 arg3 harg3 arg4 harg4 arg5 harg5 arg6 harg6 arg7 harg7 arg8 harg8 arg9 harg9 arg10 harg10 hc0 hc1 x0 x1 x2 x3 x4 xs0 xs1, sout1_C_1 c i arg2 harg2 arg3 harg3 arg4 harg4 arg5 harg5 arg6 harg6 arg7 harg7 arg8 harg8 arg9 harg9 arg10 harg10 hc0 hc1 x0 x1 x2 x3 x4 xs0 xs1)

section Regions
variable (V : (c : Dev nD) → (b : Ref sig .tc) → Buf (Elt F) ((c : Thread nD τ).loc b)) (q : Fin cfg1.W → PosShare TreeShare)

/-! ## What the outputs and the scratches hold after each point -/

/-- THE ACCUMULATION. What output 5's staging buffer, output 6's staging buffer, scratch 0 and scratch 1 hold after the
    body at position `n`: the case the closed forms select at `n`, run at the point's memrefs and input blocks, the
    scratches at what this leaves at `n - 1`. An assignment of the conditions no point meets is no case. -/
def outsAt1 (c : Dev nD) : (n : ℕ) → n < cfg1.N → Vec F S1024x1 .f32 × Vec F S1024x1 .f32 × Vec F S1024x1 .f32 × Vec F S1024x1 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 16 = 0 then
      if h1 : (n + 1) % 16 = 15 then
        False.elim (by omega)
      else
        outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 16 = 15 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.1 (outsAt1 c n (Nat.lt_of_succ_lt hn)).2.2.2

/-- `outsAt1` at a point of case A: that case's contents. -/
theorem outsAt1_A (c : Dev nD) (t : Fin cfg1.N) (h0 : t.val % 16 = 0) (h1 : ¬t.val % 16 = 15) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans ((dif_neg h1).trans rfl)

/-- `outsAt1` at a point of case B: that case's contents, over what the point before left in the scratches. -/
theorem outsAt1_B (c : Dev nD) (t : Fin cfg1.N) (h0 : ¬t.val % 16 = 0) (h1 : ¬t.val % 16 = 15) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the scratches. -/
theorem outsAt1_C (c : Dev nD) (t : Fin cfg1.N) (h0 : ¬t.val % 16 = 0) (h1 : t.val % 16 = 15) :
    outsAt1 V c t.val t.isLt = outs1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer no window stages at anything); afterwards the same with the two carried scratches at what the point before
    left in them. -/
def PhiS1 (c : Dev nD) : (n : ℕ) → n ≤ cfg1.N → sProp 𝕄
  | 0, _ => Pipeline.ΦA spec1 c
  | n + 1, hn => PhiAt1 (F := F) c (outsAt1 V c n hn).2.2.1 (outsAt1 V c n hn).2.2.2

theorem PhiS1_zero (c : Dev nD) (n : ℕ) (h : n ≤ cfg1.N) (hz : n = 0) : PhiS1 V c n h = Pipeline.ΦA spec1 c := by
  subst hz; rfl

/-- After point `n` (before point `n + 1`): the carried scratches at that point's contents. -/
theorem PhiS1_succ (c : Dev nD) (n : ℕ) (hn : n < cfg1.N) :
    PhiS1 V c (n + 1) hn = PhiAt1 (F := F) c (outsAt1 V c n hn).2.2.1 (outsAt1 V c n hn).2.2.2 := rfl

/-- Before a point that is not the first: the carried scratches at what the point before left. -/
theorem PhiS1_pos (c : Dev nD) (n : ℕ) (h : n ≤ cfg1.N) (hz : n ≠ 0) :
    PhiS1 V c n h = PhiAt1 (F := F) c (outsAt1 V c (n - 1) (by omega)).2.2.1 (outsAt1 V c (n - 1) (by omega)).2.2.2 := by
  cases n with
  | zero => exact absurd rfl hz
  | succ n => rfl

/-! ## The pipeline's proof data -/

/-- The proof data of pipeline 1 on core `c`: the arrays as the region finds them (`V`); after the body at point `t`
    each input's buffer at its block and the outputs' at `outsAt1`'s components; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2.1
  Φ t := PhiS1 V c t.val (Nat.le_of_lt_succ t.isLt)
  q := q
  owed _ := 0

/-- The proof data's arrays are the region-entry contents (the definition projected, never unfolded through `V`). -/
theorem A_eq1 (c : Dev nD) (w : Fin cfg1.W) : (dat1 V q c).A w = V c (Pipeline.arrRef spec1 w) := by
  dsimp only [dat1]

/-- The invariant at a point's start, restated at `t.val`. -/
theorem PhiS1_castSucc (c : Dev nD) (t : Fin cfg1.N) :
    (dat1 V q c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V q c).after 0 t = iblk1 V c 0 t := by dsimp only [dat1]
theorem after1_1 (c : Dev nD) (t : Fin cfg1.N) : (dat1 V q c).after 1 t = iblk1 V c 1 t := by dsimp only [dat1]
theorem after1_2 (c : Dev nD) (t : Fin cfg1.N) : (dat1 V q c).after 2 t = iblk1 V c 2 t := by dsimp only [dat1]
theorem after1_3 (c : Dev nD) (t : Fin cfg1.N) : (dat1 V q c).after 3 t = iblk1 V c 3 t := by dsimp only [dat1]
theorem after1_4 (c : Dev nD) (t : Fin cfg1.N) : (dat1 V q c).after 4 t = iblk1 V c 4 t := by dsimp only [dat1]
theorem after1_5 (c : Dev nD) (t : Fin cfg1.N) : (dat1 V q c).after 5 t = (outsAt1 V c t.val t.isLt).1 := by dsimp only [dat1]
theorem after1_6 (c : Dev nD) (t : Fin cfg1.N) : (dat1 V q c).after 6 t = (outsAt1 V c t.val t.isLt).2.1 := by dsimp only [dat1]

/-- Each input's current staging buffer holds its block at every point, fetched there or not. -/
theorem before1_0 (c : Dev nD) (t : Fin cfg1.N) (d) : (dat1 V q c).before 0 t d = iblk1 V c 0 t :=
  before1_0_of V (dat1 V q c) (A_eq1 V q c 0) (after1_0 V q c) t d
theorem before1_1 (c : Dev nD) (t : Fin cfg1.N) (d) : (dat1 V q c).before 1 t d = iblk1 V c 1 t :=
  before1_1_of V (dat1 V q c) (A_eq1 V q c 1) (after1_1 V q c) t d
theorem before1_2 (c : Dev nD) (t : Fin cfg1.N) (d) : (dat1 V q c).before 2 t d = iblk1 V c 2 t :=
  before1_2_of V (dat1 V q c) (A_eq1 V q c 2) (after1_2 V q c) t d
theorem before1_3 (c : Dev nD) (t : Fin cfg1.N) (d) : (dat1 V q c).before 3 t d = iblk1 V c 3 t :=
  before1_3_of V (dat1 V q c) (A_eq1 V q c 3) (after1_3 V q c) t d
theorem before1_4 (c : Dev nD) (t : Fin cfg1.N) (d) : (dat1 V q c).before 4 t d = iblk1 V c 4 t :=
  before1_4_of V (dat1 V q c) (A_eq1 V q c 4) (after1_4 V q c) t d

/-! ## The body obligation, at a generic point -/

/-- What the body is called with at point `t` (the windows one by one), -/
def bodyPre1 (c : Dev nD) (t : Fin cfg1.N) : sProp 𝕄 :=
  iprop((dat1 V q c).Φ t.castSucc ∗ (dat1 V q c).owesAt () t.castSucc
    ∗ (∃ d, owns (c : Thread nD τ) (ms1_0 t) fullShare ((dat1 V q c).before 0 t d))
    ∗ (∃ d, owns (c : Thread nD τ) (ms1_1 t) fullShare ((dat1 V q c).before 1 t d))
    ∗ (∃ d, owns (c : Thread nD τ) (ms1_2 t) fullShare ((dat1 V q c).before 2 t d))
    ∗ (∃ d, owns (c : Thread nD τ) (ms1_3 t) fullShare ((dat1 V q c).before 3 t d))
    ∗ (∃ d, owns (c : Thread nD τ) (ms1_4 t) fullShare ((dat1 V q c).before 4 t d))
    ∗ (∃ d, owns (c : Thread nD τ) (ms1_5 t) fullShare ((dat1 V q c).before 5 t d))
    ∗ (∃ d, owns (c : Thread nD τ) (ms1_6 t) fullShare ((dat1 V q c).before 6 t d)))

/-- and what it returns. -/
def bodyPost1 (c : Dev nD) (t : Fin cfg1.N) : sProp 𝕄 :=
  iprop((dat1 V q c).Φ t.succ ∗ (dat1 V q c).owesAt () t.succ
    ∗ (dat1 V q c).leavesExact 0 t
    ∗ (dat1 V q c).leavesExact 1 t
    ∗ (dat1 V q c).leavesExact 2 t
    ∗ (dat1 V q c).leavesExact 3 t
    ∗ (dat1 V q c).leavesExact 4 t
    ∗ (dat1 V q c).leavesExact 5 t
    ∗ (dat1 V q c).leavesExact 6 t)

set_option maxHeartbeats 8000000 in
/-- The body at any point: the inputs' memrefs hold their blocks; the closed forms say which case the point is in; the
    invariant hands the body the carried scratches at what the point before left (at anything at the first point)
    and takes them back at this point's contents; an idle output's buffer goes back as it came; nothing is owed. -/
theorem sound_body1 (c : Dev nD) (t : Fin cfg1.N) :
    bodyPre1 V q c t ⊢ wp frame (wpE (defs₀ (F := F)) Variants.none c none) Set.univ (bodyAt1 t) (fun _ => bodyPost1 V q c t) := by
  unfold bodyPre1 bodyPost1 bodyAt1
  simp only [before1_0, before1_1, before1_2, before1_3, before1_4]
  rw [show (dat1 V q c).owesAt () t.succ = (dat1 V q c).owesAt () t.castSucc from rfl]
  rw [show (dat1 V q c).Φ t.succ = PhiS1 V c (t.val + 1) t.isLt from rfl, PhiS1_succ]
  have hN : t.val < 128 := lt_of_lt_of_eq t.isLt (show cfg1.N = 128 from N_1)
  by_cases h0 : t.val % 16 = 0
  · by_cases h1 : t.val % 16 = 15
    · exfalso; omega
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t], after1_4]
      rw [Dat.leavesExact_idle (dat1 V q c) 5 t (idleAt1_5 t (fun h => h1 ((hcond1_1 t).mp h))) (noFlush1_5 t (fun h => h1 ((hcond1_1 t).mp h)))]
      rw [Dat.leavesExact_idle (dat1 V q c) 6 t (idleAt1_6 t (fun h => h1 ((hcond1_1 t).mp h))) (noFlush1_6 t (fun h => h1 ((hcond1_1 t).mp h)))]
      rw [outsAt1_A V c t h0 h1]
      unfold outs1_A sout1_A_0 sout1_A_1; (try dsimp only)
      by_cases hz : t.val = 0
      ·
        rw [PhiS1_castSucc V q c t, PhiS1_zero V c _ _ hz]
        iintro ⟨HΦ, Ho, ⟨%d0, H0⟩, ⟨%d1, H1⟩, ⟨%d2, H2⟩, ⟨%d3, H3⟩, ⟨%d4, H4⟩, ⟨%d5, H5⟩, ⟨%d6, H6⟩⟩
        ihave HΦ' := PhiA1_split (F := F) c $$ HΦ
        icases HΦ' with ⟨%a0, %b0, HR, HS0, HS1, Hg⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      ·
        rw [PhiS1_castSucc V q c t, PhiS1_pos V c _ _ hz]
        iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 16 = 15
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t], after1_4]
      rw [show (dat1 V q c).leavesExact 5 t = owns (c : Thread nD τ) (ms1_5 t) fullShare ((dat1 V q c).after 5 t) from by
        unfold Dat.leavesExact; rw [liveAt1_5 t ((hcond1_1 t).mpr h1)], after1_5]
      rw [show (dat1 V q c).leavesExact 6 t = owns (c : Thread nD τ) (ms1_6 t) fullShare ((dat1 V q c).after 6 t) from by
        unfold Dat.leavesExact; rw [liveAt1_6 t ((hcond1_1 t).mpr h1)], after1_6]
      rw [outsAt1_C V c t h0 h1]
      unfold outs1_C out1_C_5 out1_C_6 sout1_C_0 sout1_C_1; (try dsimp only)
      by_cases hz : t.val = 0
      · exfalso; omega
      ·
        rw [PhiS1_castSucc V q c t, PhiS1_pos V c _ _ hz]
        iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, ⟨%e5, H5⟩, ⟨%e6, H6⟩, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover1_C_5 c _ _ _ _ _ _ _ _ _ _ _ _ _ _ _ _ _ _ _ _ _ _ _ _ _ _ _ _)
        unfold owns; iexists _; isplitr
        swap; · iexact H6
        ipureintro; exact View.read_writes_of_cover _ _ _ _ _ (cover1_C_6 c _ _ _ _ _ _ _ _ _ _ _ _ _ _ _ _ _ _ _ _ _ _ _ _ _ _ _ _)
    · rw [show (dat1 V q c).leavesExact 0 t = owns (c : Thread nD τ) (ms1_0 t) fullShare ((dat1 V q c).after 0 t) from by
        unfold Dat.leavesExact; rw [liveAt1_0 t], after1_0]
      rw [show (dat1 V q c).leavesExact 1 t = owns (c : Thread nD τ) (ms1_1 t) fullShare ((dat1 V q c).after 1 t) from by
        unfold Dat.leavesExact; rw [liveAt1_1 t], after1_1]
      rw [show (dat1 V q c).leavesExact 2 t = owns (c : Thread nD τ) (ms1_2 t) fullShare ((dat1 V q c).after 2 t) from by
        unfold Dat.leavesExact; rw [liveAt1_2 t], after1_2]
      rw [show (dat1 V q c).leavesExact 3 t = owns (c : Thread nD τ) (ms1_3 t) fullShare ((dat1 V q c).after 3 t) from by
        unfold Dat.leavesExact; rw [liveAt1_3 t], after1_3]
      rw [show (dat1 V q c).leavesExact 4 t = owns (c : Thread nD τ) (ms1_4 t) fullShare ((dat1 V q c).after 4 t) from by
        unfold Dat.leavesExact; rw [liveAt1_4 t], after1_4]
      rw [Dat.leavesExact_idle (dat1 V q c) 5 t (idleAt1_5 t (fun h => h1 ((hcond1_1 t).mp h))) (noFlush1_5 t (fun h => h1 ((hcond1_1 t).mp h)))]
      rw [Dat.leavesExact_idle (dat1 V q c) 6 t (idleAt1_6 t (fun h => h1 ((hcond1_1 t).mp h))) (noFlush1_6 t (fun h => h1 ((hcond1_1 t).mp h)))]
      rw [outsAt1_B V c t h0 h1]
      unfold outs1_B sout1_B_0 sout1_B_1; (try dsimp only)
      by_cases hz : t.val = 0
      · exfalso; omega
      ·
        rw [PhiS1_castSucc V q c t, PhiS1_pos V c _ _ hz]
        iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HR HS0 HS1 Hg]
        · isplitl [HR]; · iexact HR
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The library's body obligation, at every point. -/
theorem body_obligation1 (c : Dev nD) : BodyObligation (dat1 (F := F) V q c) (defs₀ (F := F)) Variants.none () Set.univ := fun t => by
  rw [bigSep_W1, bigSep_W1]
  exact sound_body1 V q c t

/-- What the launch hands the region is the invariant before the first point. -/
theorem hin1 (c : Dev nD) : Pipeline.ΦA spec1 c ⊢ (dat1 V q c).Φ 0 := by
  rw [show (dat1 V q c).Φ 0 = PhiS1 V c 0 (Nat.zero_le _) from rfl, PhiS1_zero V c 0 _ rfl]
  try exact Idealize.SL.BI.Entails.refl _

/-- After any point but the first the invariant gives the launch's back: the carried scratches' named contents are forgotten. -/
theorem Phi_out1 (c : Dev nD) (t : Fin (cfg1.N + 1)) (ht : t.val ≠ 0) : (dat1 V q c).Φ t ⊢ Pipeline.ΦA spec1 c := by
  rw [show (dat1 V q c).Φ t = PhiS1 V c t.val (Nat.le_of_lt_succ t.isLt) from rfl, PhiS1_pos V c _ _ ht]
  exact PhiA1_join c _ _

/-- The same after the last point. -/
theorem hout1 (c : Dev nD) : (dat1 V q c).Φ (Fin.last cfg1.N) ⊢ Pipeline.ΦA spec1 c :=
  Phi_out1 V q c _ (by rw [Fin.val_last]; have : cfg1.N = 128 := N_1; omega)

end Regions

end Cert.KernelIdeal.Hand

end
-- ==== Proof.Asm.lean ====
/-
  The two kernel regions' arrays among the core's unscoped buffers. Each call reads the rows array through TWO windows
  (a 1024-row block and a 512-row block of the same array), so the array's points-to is dealt in two halves at the
  region's entry — one half per window — and the halves are put together again at its exit; every other array of a
  call is behind exactly one window and is held whole. The output arrays end at what the write-backs leave, every
  other unscoped buffer as it was entered.
-/
import proofs.«116760_j49323404427556_1_alg».proof.Proof.Gen.KernelIdeal.Launch
import proofs.«116760_j49323404427556_1_alg».proof.Proof.Gen.KernelIdeal.Skeleton
import proofs.«116760_j49323404427556_1_alg».proof.Proof.Gen.KernelIdeal.Points
import proofs.«116760_j49323404427556_1_alg».proof.Proof.Gen.KernelIdeal.Regions
import proofs.«116760_j49323404427556_1_alg».proof.Proof.R0
import proofs.«116760_j49323404427556_1_alg».proof.Proof.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.SL.BI (bigSepL bigSep_eq_bigSepL_of_eq)

section Shares

variable (V : (c : Dev nD) → (b : Ref sig .tc) → Buf (Elt F) ((c : Thread nD τ).loc b))

/-- The rows array is read by two windows of each call: each holds half of it. -/
abbrev q0 : Fin cfg0.W → PosShare TreeShare := fun
  | ⟨0, _⟩ => fullShare.left
  | ⟨1, _⟩ => fullShare.right
  | _ => fullShare
abbrev q1 : Fin cfg1.W → PosShare TreeShare := fun
  | ⟨0, _⟩ => fullShare.left
  | ⟨1, _⟩ => fullShare.right
  | _ => fullShare

theorem sep_congr' {P P' Q Q' : sProp 𝕄} (h1 : P = P') (h2 : Q = Q') : (iprop(P ∗ Q) : sProp 𝕄) = iprop(P' ∗ Q') := by rw [h1, h2]

/-! ## Region 0: its arrays among the unscoped buffers -/

theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v7) ↦{fullShare} W main_v7) ∗ (((c : Thread nD τ).loc main_v9) ↦{fullShare} W main_v9)
          ∗ (((c : Thread nD τ).loc main_v10) ↦{fullShare} W main_v10) ∗ (((c : Thread nD τ).loc main_v11) ↦{fullShare} W main_v11)) := by
  unfold Pipeline.arrBufs
  exact bigSep_eq_bigSepL_of_eq [main_v7, main_v9, main_v10, main_v11] (by decide) (by decide) _

theorem arrays0_eq (c : Dev nD) (G : (w : Fin cfg0.W) → Buf (Elt F) ((cfg0.win w).arr.view.loc (c : Thread nD τ))) :
    ((dat0 V q0 c).arrays G : sProp 𝕄)
      = iprop((((c : Thread nD τ).loc main_v7) ↦{fullShare.left} G 0) ∗ (((c : Thread nD τ).loc main_v7) ↦{fullShare.right} G 1)
          ∗ (((c : Thread nD τ).loc main_v9) ↦{fullShare} G 2) ∗ (((c : Thread nD τ).loc main_v10) ↦{fullShare} G 3)
          ∗ (((c : Thread nD τ).loc main_v11) ↦{fullShare} G 4)) := by
  unfold Dat.arrays
  rw [bigSep_W0]
  have e0 : ((cfg0.win 0).arr.view.loc (c : Thread nD τ) ↦[(cfg0.win 0).arr.view.set]{(dat0 V q0 c).share 0} G 0 : sProp 𝕄)
      = (((c : Thread nD τ).loc main_v7) ↦{fullShare.left} G 0) := by rw [(arr_whole0 0).set_eq_univ]; rfl
  have e1 : ((cfg0.win 1).arr.view.loc (c : Thread nD τ) ↦[(cfg0.win 1).arr.view.set]{(dat0 V q0 c).share 1} G 1 : sProp 𝕄)
      = (((c : Thread nD τ).loc main_v7) ↦{fullShare.right} G 1) := by rw [(arr_whole0 1).set_eq_univ]; rfl
  have e2 : ((cfg0.win 2).arr.view.loc (c : Thread nD τ) ↦[(cfg0.win 2).arr.view.set]{(dat0 V q0 c).share 2} G 2 : sProp 𝕄)
      = (((c : Thread nD τ).loc main_v9) ↦{fullShare} G 2) := by rw [(arr_whole0 2).set_eq_univ]; rfl
  have e3 : ((cfg0.win 3).arr.view.loc (c : Thread nD τ) ↦[(cfg0.win 3).arr.view.set]{(dat0 V q0 c).share 3} G 3 : sProp 𝕄)
      = (((c : Thread nD τ).loc main_v10) ↦{fullShare} G 3) := by rw [(arr_whole0 3).set_eq_univ]; rfl
  have e4 : ((cfg0.win 4).arr.view.loc (c : Thread nD τ) ↦[(cfg0.win 4).arr.view.set]{(dat0 V q0 c).share 4} G 4 : sProp 𝕄)
      = (((c : Thread nD τ).loc main_v11) ↦{fullShare} G 4) := by rw [(arr_whole0 4).set_eq_univ]; rfl
  rw [e0, e1, e2, e3, e4]

/-- ENTRY: the unscoped buffers at `V` are region 0's arrays at their entry contents — the rows array split in two halves — and the rest. -/
theorem entry0 (c : Dev nD) :
    (unscopedBufs c (V c) : sProp 𝕄) ⊢ iprop((dat0 V q0 c).arrays ((dat0 V q0 c).arrAt · 0) ∗ Pipeline.unscopedRest spec0 c (V c)) := by
  rw [Pipeline.unscopedBufs_split₀ cfgs 0 winFacts₀0.arr_unscoped c (V c)]
  show iprop(Pipeline.arrBufs spec0 c (V c) ∗ Pipeline.unscopedRest spec0 c (V c)) ⊢ _
  rw [arrBufs0_eq, arrays0_eq]
  refine sep_mono ?_ .rfl
  iintro ⟨H7, H9, H10, H11⟩
  ihave H7' := (pointsTo_share (PosShare.mem_left_op_right fullShare)).1 $$ H7
  icases H7' with ⟨H7l, H7r⟩
  isplitl [H7l]; · iexact H7l
  isplitl [H7r]; · iexact H7r
  isplitl [H9]; · iexact H9
  isplitl [H10]; · iexact H10
  iexact H11

/-- EXIT: region 0's arrays at their final contents and the rest are the unscoped buffers at any valuation that has the
    output array at what the write-backs left and agrees with the entry contents elsewhere. -/
theorem exit0 (c : Dev nD) (W' : (b : Ref sig .tc) → Buf (Elt F) ((c : Thread nD τ).loc b))
    (h11 : W' main_v11 = (dat0 V q0 c).arrAt 4 cfg0.N) (hrest : ∀ b : Ref sig .tc, b ≠ main_v11 → W' b = V c b) :
    iprop((dat0 V q0 c).arrays ((dat0 V q0 c).arrAt · cfg0.N) ∗ Pipeline.unscopedRest spec0 c (V c)) ⊢ (unscopedBufs c W' : sProp 𝕄) := by
  rw [Pipeline.unscopedBufs_split₀ cfgs 0 winFacts₀0.arr_unscoped c W']
  show _ ⊢ iprop(Pipeline.arrBufs spec0 c W' ∗ Pipeline.unscopedRest spec0 c W')
  rw [arrBufs0_eq, arrays0_eq]
  refine sep_mono ?_ (Entails.of_eq ?_)
  · rw [(dat0 V q0 c).arrAt_in 0 rfl, (dat0 V q0 c).arrAt_in 1 rfl, (dat0 V q0 c).arrAt_in 2 rfl, (dat0 V q0 c).arrAt_in 3 rfl,
      A_eq0, A_eq0, A_eq0, A_eq0, hrest main_v7 (by decide), hrest main_v9 (by decide), hrest main_v10 (by decide), h11]
    iintro ⟨H7l, H7r, H9, H10, H11⟩
    ihave H7 := (pointsTo_share (PosShare.mem_left_op_right fullShare)).2 $$ [H7l H7r]
    · isplitl [H7l] <;> iassumption
    isplitl [H7]; · iexact H7
    isplitl [H9]; · iexact H9
    isplitl [H10]; · iexact H10
    iexact H11
  · unfold Pipeline.unscopedRest
    exact bigSep_congr fun b hb => by
      rw [hrest b fun e => (Finset.mem_sdiff.mp hb).2 (Finset.mem_image.mpr ⟨4, Finset.mem_univ _, e.symm⟩)]

/-! ## Region 1: its arrays among the unscoped buffers -/

theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v7) ↦{fullShare} W main_v7) ∗ (((c : Thread nD τ).loc main_v9) ↦{fullShare} W main_v9)
          ∗ (((c : Thread nD τ).loc main_v10) ↦{fullShare} W main_v10) ∗ (((c : Thread nD τ).loc main_v11) ↦{fullShare} W main_v11)
          ∗ (((c : Thread nD τ).loc main_v12_0) ↦{fullShare} W main_v12_0) ∗ (((c : Thread nD τ).loc main_v12_1) ↦{fullShare} W main_v12_1)) := by
  unfold Pipeline.arrBufs
  exact bigSep_eq_bigSepL_of_eq [main_v7, main_v9, main_v10, main_v11, main_v12_0, main_v12_1] (by decide) (by decide) _

theorem arrays1_eq (c : Dev nD) (G : (w : Fin cfg1.W) → Buf (Elt F) ((cfg1.win w).arr.view.loc (c : Thread nD τ))) :
    ((dat1 V q1 c).arrays G : sProp 𝕄)
      = iprop((((c : Thread nD τ).loc main_v7) ↦{fullShare.left} G 0) ∗ (((c : Thread nD τ).loc main_v7) ↦{fullShare.right} G 1)
          ∗ (((c : Thread nD τ).loc main_v9) ↦{fullShare} G 2) ∗ (((c : Thread nD τ).loc main_v10) ↦{fullShare} G 3)
          ∗ (((c : Thread nD τ).loc main_v11) ↦{fullShare} G 4) ∗ (((c : Thread nD τ).loc main_v12_0) ↦{fullShare} G 5)
          ∗ (((c : Thread nD τ).loc main_v12_1) ↦{fullShare} G 6)) := by
  unfold Dat.arrays
  rw [bigSep_W1]
  have e0 : ((cfg1.win 0).arr.view.loc (c : Thread nD τ) ↦[(cfg1.win 0).arr.view.set]{(dat1 V q1 c).share 0} G 0 : sProp 𝕄)
      = (((c : Thread nD τ).loc main_v7) ↦{fullShare.left} G 0) := by rw [(arr_whole1 0).set_eq_univ]; rfl
  have e1 : ((cfg1.win 1).arr.view.loc (c : Thread nD τ) ↦[(cfg1.win 1).arr.view.set]{(dat1 V q1 c).share 1} G 1 : sProp 𝕄)
      = (((c : Thread nD τ).loc main_v7) ↦{fullShare.right} G 1) := by rw [(arr_whole1 1).set_eq_univ]; rfl
  have e2 : ((cfg1.win 2).arr.view.loc (c : Thread nD τ) ↦[(cfg1.win 2).arr.view.set]{(dat1 V q1 c).share 2} G 2 : sProp 𝕄)
      = (((c : Thread nD τ).loc main_v9) ↦{fullShare} G 2) := by rw [(arr_whole1 2).set_eq_univ]; rfl
  have e3 : ((cfg1.win 3).arr.view.loc (c : Thread nD τ) ↦[(cfg1.win 3).arr.view.set]{(dat1 V q1 c).share 3} G 3 : sProp 𝕄)
      = (((c : Thread nD τ).loc main_v10) ↦{fullShare} G 3) := by rw [(arr_whole1 3).set_eq_univ]; rfl
  have e4 : ((cfg1.win 4).arr.view.loc (c : Thread nD τ) ↦[(cfg1.win 4).arr.view.set]{(dat1 V q1 c).share 4} G 4 : sProp 𝕄)
      = (((c : Thread nD τ).loc main_v11) ↦{fullShare} G 4) := by rw [(arr_whole1 4).set_eq_univ]; rfl
  have e5 : ((cfg1.win 5).arr.view.loc (c : Thread nD τ) ↦[(cfg1.win 5).arr.view.set]{(dat1 V q1 c).share 5} G 5 : sProp 𝕄)
      = (((c : Thread nD τ).loc main_v12_0) ↦{fullShare} G 5) := by rw [(arr_whole1 5).set_eq_univ]; rfl
  have e6 : ((cfg1.win 6).arr.view.loc (c : Thread nD τ) ↦[(cfg1.win 6).arr.view.set]{(dat1 V q1 c).share 6} G 6 : sProp 𝕄)
      = (((c : Thread nD τ).loc main_v12_1) ↦{fullShare} G 6) := by rw [(arr_whole1 6).set_eq_univ]; rfl
  exact sep_congr' e0 (sep_congr' e1 (sep_congr' e2 (sep_congr' e3 (sep_congr' e4 (sep_congr' e5 e6)))))

/-- ENTRY of region 1, as for region 0. -/
theorem entry1 (c : Dev nD) :
    (unscopedBufs c (V c) : sProp 𝕄) ⊢ iprop((dat1 V q1 c).arrays ((dat1 V q1 c).arrAt · 0) ∗ Pipeline.unscopedRest spec1 c (V c)) := by
  rw [Pipeline.unscopedBufs_split₀ cfgs 1 winFacts₀1.arr_unscoped c (V c)]
  show iprop(Pipeline.arrBufs spec1 c (V c) ∗ Pipeline.unscopedRest spec1 c (V c)) ⊢ _
  rw [arrBufs1_eq, arrays1_eq]
  refine sep_mono ?_ .rfl
  iintro ⟨H7, H9, H10, H11, H12, H13⟩
  ihave H7' := (pointsTo_share (PosShare.mem_left_op_right fullShare)).1 $$ H7
  icases H7' with ⟨H7l, H7r⟩
  isplitl [H7l]; · iexact H7l
  isplitl [H7r]; · iexact H7r
  isplitl [H9]; · iexact H9
  isplitl [H10]; · iexact H10
  isplitl [H11]; · iexact H11
  isplitl [H12]; · iexact H12
  iexact H13

/-- EXIT of region 1: the two output arrays at what the write-backs left, everything else as entered. -/
theorem exit1 (c : Dev nD) (W' : (b : Ref sig .tc) → Buf (Elt F) ((c : Thread nD τ).loc b))
    (h12 : W' main_v12_0 = (dat1 V q1 c).arrAt 5 cfg1.N) (h13 : W' main_v12_1 = (dat1 V q1 c).arrAt 6 cfg1.N)
    (hrest : ∀ b : Ref sig .tc, b ≠ main_v12_0 → b ≠ main_v12_1 → W' b = V c b) :
    iprop((dat1 V q1 c).arrays ((dat1 V q1 c).arrAt · cfg1.N) ∗ Pipeline.unscopedRest spec1 c (V c)) ⊢ (unscopedBufs c W' : sProp 𝕄) := by
  rw [Pipeline.unscopedBufs_split₀ cfgs 1 winFacts₀1.arr_unscoped c W']
  show _ ⊢ iprop(Pipeline.arrBufs spec1 c W' ∗ Pipeline.unscopedRest spec1 c W')
  rw [arrBufs1_eq, arrays1_eq]
  refine sep_mono ?_ (Entails.of_eq ?_)
  · rw [(dat1 V q1 c).arrAt_in 0 rfl, (dat1 V q1 c).arrAt_in 1 rfl, (dat1 V q1 c).arrAt_in 2 rfl, (dat1 V q1 c).arrAt_in 3 rfl,
      (dat1 V q1 c).arrAt_in 4 rfl, A_eq1, A_eq1, A_eq1, A_eq1, A_eq1,
      hrest main_v7 (by decide) (by decide), hrest main_v9 (by decide) (by decide), hrest main_v10 (by decide) (by decide),
      hrest main_v11 (by decide) (by decide), h12, h13]
    iintro ⟨H7l, H7r, H9, H10, H11, H12, H13⟩
    ihave H7 := (pointsTo_share (PosShare.mem_left_op_right fullShare)).2 $$ [H7l H7r]
    · isplitl [H7l] <;> iassumption
    isplitl [H7]; · iexact H7
    isplitl [H9]; · iexact H9
    isplitl [H10]; · iexact H10
    isplitl [H11]; · iexact H11
    isplitl [H12]; · iexact H12
    iexact H13
  · unfold Pipeline.unscopedRest
    exact bigSep_congr fun b hb => by
      rw [hrest b (fun e => (Finset.mem_sdiff.mp hb).2 (Finset.mem_image.mpr ⟨5, Finset.mem_univ _, e.symm⟩))
        (fun e => (Finset.mem_sdiff.mp hb).2 (Finset.mem_image.mpr ⟨6, Finset.mem_univ _, e.symm⟩))]

end Shares

end Cert.KernelIdeal.Hand

end
-- ==== Proof.Run.lean ====
/-
  The kernel program's run through its two regions: the buffers' contents around them, each region as a segment of @main
  over "every unscoped buffer at the boundary's contents, the generator register at some state, nothing owed", the frame
  (every argument array ends as launched) and the run with the result buffer named.
-/
import proofs.«116760_j49323404427556_1_alg».proof.Proof.Gen.KernelIdeal.Launch
import proofs.«116760_j49323404427556_1_alg».proof.Proof.Gen.KernelIdeal.Skeleton
import proofs.«116760_j49323404427556_1_alg».proof.Proof.Gen.KernelIdeal.Points
import proofs.«116760_j49323404427556_1_alg».proof.Proof.Gen.KernelIdeal.Regions
import proofs.«116760_j49323404427556_1_alg».proof.Proof.Asm
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents around the two regions -/

/-- Region 0 is entered from the host prefix's contents. -/
abbrev EV0 : (c : Dev nD) → (b : Ref sig .tc) → Buf (Elt F) ((c : Thread nD τ).loc b) := fun c b => Gen.V4 m c b

/-- What region 0's write-backs leave in its output array. -/
def out11 (c : Dev nD) : Buf (Elt F) ((c : Thread nD τ).loc main_v11) := (dat0 (EV0 m) q0 c).arrAt 4 cfg0.N

/-- The contents region 0 leaves: only its output array changes. -/
def outsA : Gen.Outs (F := F) := fun _ r c => if h : r = main_v11 then h ▸ out11 m c else Gen.V0 m c r

theorem outsA_v11 (c : Dev nD) : outsA m 5 main_v11 c = out11 m c := by
  unfold outsA; rw [dif_pos rfl]

/-- Region 1 is entered from what region 0 left. -/
abbrev EV1 : (c : Dev nD) → (b : Ref sig .tc) → Buf (Elt F) ((c : Thread nD τ).loc b) := fun c b => Gen.V5 m (outsA m) c b

/-- What region 1's write-backs leave in its two output arrays. -/
def out120 (c : Dev nD) : Buf (Elt F) ((c : Thread nD τ).loc main_v12_0) := (dat1 (EV1 m) q1 c).arrAt 5 cfg1.N
def out121 (c : Dev nD) : Buf (Elt F) ((c : Thread nD τ).loc main_v12_1) := (dat1 (EV1 m) q1 c).arrAt 6 cfg1.N

/-- The contents the regions leave in the buffers they may change. -/
def outs : Gen.Outs (F := F) := fun _ r c =>
  if h : r = main_v11 then h ▸ out11 m c
  else if h : r = main_v12_0 then h ▸ out120 m c
  else if h : r = main_v12_1 then h ▸ out121 m c
  else Gen.V0 m c r

theorem outs_v11 (c : Dev nD) : outs m 5 main_v11 c = out11 m c := by
  unfold outs; rw [dif_pos rfl]
theorem outs_v12_0 (c : Dev nD) : outs m 6 main_v12_0 c = out120 m c := by
  unfold outs; rw [dif_neg (by decide), dif_pos rfl]
theorem outs_v12_1 (c : Dev nD) : outs m 6 main_v12_1 c = out121 m c := by
  unfold outs; rw [dif_neg (by decide), dif_neg (by decide), dif_pos rfl]

/-- After region 0 the two bookkeepings agree. -/
theorem V5_outs (c : Dev nD) : Gen.V5 m (outs m) c = Gen.V5 m (outsA m) c := by
  unfold Gen.V5; rw [outs_v11, outsA_v11]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (EV0 m) q0 c
  | ⟨1, _⟩ => fun c => dat1 (EV1 m) q1 c

/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
def E : Fin 3 → Dev nD → sProp 𝕄 := fun _ c => R (F := F) c

set_option backward.isDefEq.respectTransparency.types false in
/-- REGION 0 over the thread state: entered from the host prefix's contents, left with its output array at what the
    write-backs leave. The rows array is dealt in halves to the two windows that read it and put together again at the exit. -/
def reg0 : RegionSeg (pcfgs (F := F)) Gen.adm (pdats m) () defs₀ Variants.none L lv 0 where
  win := winFacts₀0
  block_pos := block_pos0
  stage_whole := stage_whole0
  K := PEmpty
  osem k := k.elim
  ho := Pipeline.OwnSemFacts.none _
  hbody c := (body_obligation0 (EV0 m) q0 c).loose
  hwaits := Pipeline.hwaits_of_owed_zero _ _ _ _ L lv 0 fun _ _ => rfl
  pre c := iprop(StableHlo.held (c : Thread nD τ) (Pipeline.ucRefs τ sig) (Gen.V4 m c) ∗ R c)
  post c := iprop(StableHlo.held (c : Thread nD τ) (Pipeline.ucRefs τ sig) (Gen.V5 m (outs m) c) ∗ R c)
  X c := iprop(∃ r, prngReg c r)
  Y c := iprop(∃ r, prngReg c r)
  Z c := Pipeline.unscopedRest (Ix := Unit) (Name := ℕ) (U := UR sig nD τ) (Lvl := ℕ) spec0 c (EV0 m c)
  hentry c := by
    rw [Pipeline.ownSems0_none]
    have hsplit := entry0 (EV0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (EV0 m) q0 c)
    unfold Pipeline.ΦA
    iintro ⟨Hp, -, Hr⟩
    isplitl [Hr]; · iexact Hr
    iexact Hp
  hout c := by
    rw [Pipeline.ownSems0_none]
    refine (hout0 (EV0 m) q0 c).trans ?_
    unfold Pipeline.ΦA
    iintro ⟨Hr, Hp⟩
    isplitl [Hp]; · iexact Hp
    isplitr; · iempintro
    iexact Hr
  hexit c := by
    have hjoin := exit0 (EV0 m) c (fun b => Gen.V5 m (outs m) c b)
      (by show Gen.V5 m (outs m) c main_v11 = _; unfold Gen.V5; rw [Function.update_self, outs_v11]; rfl)
      (fun b hb => Gen.V5_of m (outs m) c b (by simpa using hb))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- REGION 1 over the thread state: entered from what region 0 left, left with its two output arrays at what the
    write-backs leave; the rows array again dealt in halves. -/
def reg1 : RegionSeg (pcfgs (F := F)) Gen.adm (pdats m) () defs₀ Variants.none L lv 1 where
  win := winFacts₀1
  block_pos := block_pos1
  stage_whole := stage_whole1
  K := PEmpty
  osem k := k.elim
  ho := Pipeline.OwnSemFacts.none _
  hbody c := (body_obligation1 (EV1 m) q1 c).loose
  hwaits := Pipeline.hwaits_of_owed_zero _ _ _ _ L lv 1 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (EV1 m c)
  hentry c := by
    rw [Pipeline.ownSems0_none, V5_outs]
    have hsplit := entry1 (EV1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (EV1 m) q1 c)
    unfold Pipeline.ΦA
    iintro ⟨Hp, -, Hr⟩
    isplitl [Hr]; · iexact Hr
    iexact Hp
  hout c := by
    rw [Pipeline.ownSems0_none]
    refine (hout1 (EV1 m) q1 c).trans ?_
    unfold Pipeline.ΦA
    iintro ⟨Hr, Hp⟩
    isplitl [Hp]; · iexact Hp
    isplitr; · iempintro
    iexact Hr
  hexit c := by
    have hjoin := exit1 (EV1 m) c (fun b => Gen.V6 m (outs m) c b)
      (by show Gen.V6 m (outs m) c main_v12_0 = _; unfold Gen.V6
          rw [Function.update_of_ne (StableHlo.devRef_ne_of_ne (by decide)), Function.update_self, outs_v12_0]; rfl)
      (by show Gen.V6 m (outs m) c main_v12_1 = _; unfold Gen.V6; rw [Function.update_self, outs_v12_1]; rfl)
      (fun b hb hb' => (Gen.V6_of m (outs m) c b (by simp [hb, hb'])).trans (congrFun (V5_outs m c) _))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The launch -/

/-- The launch's user component: the pipeline library's cells and tokens. -/
abbrev u₀ : UR sig nD τ := initOf (Pipeline.cells cfgs cellOf_inj) (Pipeline.launchToks cfgs cellOf_inj)

theorem hu₀ : (ownU (u₀) : sProp 𝕄) ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0c (c : Dev nD) : iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (E (F := F) 0 c : sProp 𝕄) := by
  unfold E
  iintro ⟨-, HO, -, Hp, -⟩
  isplitl [Hp]; · iexists _; iexact Hp
  iexists ∅; iexact HO

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine (show _ ⊢ (bigSep Finset.univ (E (F := F) 0) : sProp 𝕄) from ?_).trans (by iintro H; imodintro; iexact H)
  refine (show iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄) from by
    iintro ⟨H, -⟩; iexact H).trans (bigSep_mono fun c _ => hE0c ρ c)

theorem hE2 (c : Dev nD) : (E (F := F) 2 c : sProp 𝕄) ⊢ iprop(∃ W, owes (c : Thread nD τ) (0 : CellTallies nD τ sig Unit) W) := by
  unfold E; iintro ⟨-, HO⟩; iexact HO

set_option backward.isDefEq.respectTransparency.types false in
/-- THE FRAME at any instance: every execution of @main terminates, nothing faulting, the argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Gen.frame_cond m emb₁ () Variants.none L lv (fun _ _ => rfl) ρ (outs m) (pdats m) 0 (fun _ => BI.emp) u₀ hu₀ E (hE0 ρ) hE2
    (reg0 m) (fun _ => .rfl) (fun _ => .rfl) (reg1 m) (fun _ => .rfl) (fun _ => .rfl)

set_option backward.isDefEq.respectTransparency.types false in
/-- THE RUN WITH THE RESULT NAMED, at any instance: as the frame, and the result buffer ends at what the host tail computes
    from the regions' output arrays (the last boundary's contents read against the final state). -/
theorem run_val : θ_run defs (onTc (τ := τ) (main (F := F))) ⟨m, fun _ => 0, ρ⟩ (fun r => ∀ c : Dev nD,
      r.2.mem ((c.tc : Thread nD τ).loc main_v16) = Gen.V7 m (outs m) c main_v16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine Pipeline.θ_run_regions_kit_dev (pcfgs (F := F)) Gen.adm (pdats m) () cellOf_inj emb₁ defs₀ Variants.none L lv m ρ main
    (Gen.segs m (outs m) Variants.none L lv E () (pdats m) (reg0 m) (reg1 m))
    (fun c Q => by
      rewrite [main_chain c, Seg.run_eq_chain,
        show (Gen.segs m (outs m) Variants.none L lv E () (pdats m) (reg0 m) (reg1 m) c).map Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()),
          StableHlo.seq hostOps2 ] from rfl]
      exact .rfl)
    (fun c => by simp only [Gen.segs, Seg.pipes_host, Seg.pipes_region, Seg.pipes_nil]; decide) 0 (fun _ _ => rfl) (fun _ => BI.emp) u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V7 m (outs m) c))
    (hch := fun c => ⟨.rfl, .rfl, .rfl, .rfl, .rfl, .rfl, .rfl, sep_mono .rfl (hE2 c)⟩)
    (hinit := ?_) (QY := fun c s => s.mem ((c.tc : Thread nD τ).loc main_v16) = Gen.V7 m (outs m) c main_v16 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h => h)
  · -- the launch: the unscoped buffers are held at the launch contents; the rest makes the riding state on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (Gen.V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep']
    isplitl [Hh]; · iexact Hh
    iexact HE
  · -- the end: the result's and each argument's buffer read off the last boundary's contents
    unfold StableHlo.held
    iintro ⟨Hh, HSI⟩
    ihave Hr := (pointsTo_read_all (Pipeline.ucRefs τ sig) (fun b => ((c : Thread nD τ).1, b)) (Gen.V7 m (outs m) c) s') $$ [Hh HSI]
    · isplitl [Hh] <;> iassumption
    icases Hr with ⟨%h, HSI⟩
    imodintro
    isplitr
    · ipureintro
      exact ⟨h (Proc.devRef .tc main_v16) (Finset.mem_filter.mpr ⟨StableHlo.devRef_mem_tcRefs main_v16, by decide⟩),
        (h (Proc.devRef .tc main_arg0) (Finset.mem_filter.mpr ⟨StableHlo.devRef_mem_tcRefs main_arg0, by decide⟩)).trans (Gen.V7_main_arg0 m (outs m) c),
        (h (Proc.devRef .tc main_arg1) (Finset.mem_filter.mpr ⟨StableHlo.devRef_mem_tcRefs main_arg1, by decide⟩)).trans (Gen.V7_main_arg1 m (outs m) c),
        (h (Proc.devRef .tc main_arg2) (Finset.mem_filter.mpr ⟨StableHlo.devRef_mem_tcRefs main_arg2, by decide⟩)).trans (Gen.V7_main_arg2 m (outs m) c),
        (h (Proc.devRef .tc main_arg3) (Finset.mem_filter.mpr ⟨StableHlo.devRef_mem_tcRefs main_arg3, by decide⟩)).trans (Gen.V7_main_arg3 m (outs m) c)⟩
    · iexact HSI

end Cert.KernelIdeal.Hand

end
-- ==== Proof.R0Pieces.lean ====
import proofs.«116760_j49323404427556_1_alg».proof.Proof.R0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: what each case's found pieces are, as the body's arithmetic of its loads -/

theorem hz2 : (![0, 0] : Fin 2 → Nat) = fun _ => 0 := funext fun a => by fin_cases a <;> rfl

/-- Case B leaves in accumulator 0 what it held plus the lane sums of the square roots. -/
theorem sout0_B_0_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) :
    sout0_B_0 c i arg2 harg2 arg3 harg3 arg4 harg4 arg5 harg5 arg6 harg6 arg7 harg7 arg8 harg8 hc0 hc1 x0 x1 x2 x3 xs0 xs1 = k0_pay7 x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg7.read_unread, harg8.read_unread, View.ld_unit_zero (S := S1024x512) hz2, View.ld_unit_zero (S := S512x512) hz2, View.ld_unit_zero (S := S1024x1) hz2, View.ld_unit_zero (S := S1x512) hz2]

/-- Case B leaves in accumulator 1 what it held plus the lane sums of the square roots times their arguments. -/
theorem sout0_B_1_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) :
    sout0_B_1 c i arg2 harg2 arg3 harg3 arg4 harg4 arg5 harg5 arg6 harg6 arg7 harg7 arg8 harg8 hc0 hc1 x0 x1 x2 x3 xs0 xs1 = k0_pay1 (k0_pay8 x0 x1 x2 x3 xs1) := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz2]
  simp only [View.readAt_eq_ld, harg2.read_unread, harg3.read_unread, harg4.read_unread, harg5.read_unread, harg7.read_unread, harg8.read_unread, View.ld_unit_zero (S := S1024x512) hz2, View.ld_unit_zero (S := S512x512) hz2, View.ld_unit_zero (S := S1024x1) hz2, View.ld_unit_zero (S := S1x512) hz2]

/-- Case A leaves in accumulator 0 the zero column plus the lane sums of the square roots. -/
theorem sout0_A_0_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) :
    sout0_A_0 c i arg2 harg2 arg3 harg3 arg4 harg4 arg5 harg5 arg6 harg6 arg7 harg7 arg8 harg8 hc0 hc1 x0 x1 x2 x3 = k0_pay7 x0 x1 x2 x3 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread, View.ld_unit_zero (S := S1024x512) hz2, View.ld_unit_zero (S := S512x512) hz2, View.ld_unit_zero (S := S1024x1) hz2, View.ld_unit_zero (S := S1x512) hz2]

/-- Case A leaves in accumulator 1 the zero column plus the lane sums of the square roots times their arguments. -/
theorem sout0_A_1_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x512 .bf16) (x1 : Vec F S512x512 .bf16) (x2 : Vec F S1024x1 .i32) (x3 : Vec F S1x512 .i32) :
    sout0_A_1 c i arg2 harg2 arg3 harg3 arg4 harg4 arg5 harg5 arg6 harg6 arg7 harg7 arg8 harg8 hc0 hc1 x0 x1 x2 x3 = k0_pay1 (k0_pay8 x0 x1 x2 x3 (k0_pay4 (F := F))) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1024x1) hz2, View.readCov_unit_zero (S := S1024x1) _ hz2]
  simp only [View.readAt_eq_ld, harg2.read_unread, harg3.read_unread, harg4.read_unread, harg5.read_unread, View.ld_unit_zero (S := S1024x512) hz2, View.ld_unit_zero (S := S512x512) hz2, View.ld_unit_zero (S := S1024x1) hz2, View.ld_unit_zero (S := S1x512) hz2]

/-- Case C leaves in accumulator 0 what it held plus the lane sums of the square roots. -/
theorem sout0_C_0_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) :
    sout0_C_0 c i arg2 harg2 arg3 harg3 arg4 harg4 arg5 harg5 arg6 harg6 arg7 harg7 arg8 harg8 hc0 hc1 x0 x1 x2 x3 xs0 xs1 = k0_pay7 x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg7.read_unread, harg8.read_unread, View.ld_unit_zero (S := S1024x512) hz2, View.ld_unit_zero (S := S512x512) hz2, View.ld_unit_zero (S := S1024x1) hz2, View.ld_unit_zero (S := S1x512) hz2]

/-- Case C leaves in accumulator 1 what it held plus the lane sums of the square roots times their arguments. -/
theorem sout0_C_1_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) :
    sout0_C_1 c i arg2 harg2 arg3 harg3 arg4 harg4 arg5 harg5 arg6 harg6 arg7 harg7 arg8 harg8 hc0 hc1 x0 x1 x2 x3 xs0 xs1 = k0_pay1 (k0_pay8 x0 x1 x2 x3 xs1) := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2]
  simp only [View.readAt_eq_ld, harg2.read_unread, harg3.read_unread, harg4.read_unread, harg5.read_unread, harg7.read_unread, harg8.read_unread, View.ld_unit_zero (S := S1024x512) hz2, View.ld_unit_zero (S := S512x512) hz2, View.ld_unit_zero (S := S1024x1) hz2, View.ld_unit_zero (S := S1x512) hz2]

/-- Case C stores into the output block the quotient of the two accumulators as the point leaves them. -/
theorem out0_C_4_eq (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x512 .bf16) (x1 : Vec F S512x512 .bf16) (x2 : Vec F S1024x1 .i32) (x3 : Vec F S1x512 .i32) (xs0 : Vec F S1024x1 .f32) (xs1 : Vec F S1024x1 .f32) :
    out0_C_4 c i arg2 harg2 arg3 harg3 arg4 harg4 arg5 harg5 arg6 harg6 arg7 harg7 arg8 harg8 hc0 hc1 x0 x1 x2 x3 xs0 xs1 = k0_pay2 (k0_pay1 (k0_pay8 x0 x1 x2 x3 xs1)) (k0_pay7 x0 x1 x2 x3 xs0) := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz2, View.readCov_unit_zero (S := S1024x1) _ hz2, View.readCov_unit_zero (S := S1024x1) _ hz2]
  simp only [View.readAt_eq_ld, harg2.read_unread, harg3.read_unread, harg4.read_unread, harg5.read_unread, harg7.read_unread, harg8.read_unread, View.ld_unit_zero (S := S1024x512) hz2, View.ld_unit_zero (S := S512x512) hz2, View.ld_unit_zero (S := S1024x1) hz2, View.ld_unit_zero (S := S1x512) hz2]

end Cert.KernelIdeal.Hand

end
-- ==== Proof.Spec.lean ====
/-
  The loss both programs compute, as ONE function of two pieces of data on the extended reals: the 8192 rows
  `o i` (512 entries each) and their 8192 labels `l i` (32-bit words).

    cost i j  = exp (2 · Σ_k o i k · o j k)
    neg  i j  = 0 when l i = l j, else cost i j
    s1 i      = Σ_j sqrt (neg i j)            s2 i = Σ_j sqrt (neg i j) · neg i j
    nes i     = s2 i / s1 i
    pos i j   = 1 when l i = l j and i ≠ j, else 0
    logr i j  = log (cost i j / (cost i j + 8190 · nes i))
    sl i      = Σ_j logr i j · pos i j        ct i = Σ_j pos i j
    loss      = −(Σ_i sl i) / (Σ_i ct i)

  The quotient is the extended reals' division with the conventions at a zero divisor (`Ideal.div`), every sum a
  finite sum in the commutative monoid of the extended reals; no entry is assumed finite. The two literals 2 and 8190
  are kept as the binary words both programs print, never evaluated.
-/
import Idealize.ShloMosaic.PureOps.Ideal
import Idealize.ShloMosaic.PureOps.Ideal.Laws
import Idealize.ShloMosaic.Lib.ValueIdx

noncomputable section

namespace Cert.Spec

open Idealize.ShloMosaic

/-- The literal 2 of `exp (2 · ⟨o i, o j⟩)`, as the word both programs print. -/
def two : EReal := Ideal.ofBits .f32 0x40000000#32
/-- The literal 8190 = 2·4096 − 2, as the word both programs print. -/
def scale : EReal := Ideal.ofBits .f32 0x45FFF000#32

variable (o : Fin 8192 → Fin 512 → EReal) (l : Fin 8192 → BitVec 32)

/-- The inner product of rows `i` and `j`. -/
def dot (i j : Fin 8192) : EReal := ∑ k : Fin 512, o i k * o j k
/-- The similarity `exp (2 · ⟨o i, o j⟩)`. -/
def cost (i j : Fin 8192) : EReal := Ideal.exp (two * dot o i j)
/-- The similarity kept on pairs of different labels only. -/
def neg (i j : Fin 8192) : EReal := if l i = l j then 0 else cost o i j
/-- Row `i`'s sum of the square roots of its negatives' similarities, -/
def s1 (i : Fin 8192) : EReal := ∑ j : Fin 8192, Ideal.sqrt (neg o l i j)
/-- and of their 3/2-th powers. -/
def s2 (i : Fin 8192) : EReal := ∑ j : Fin 8192, Ideal.sqrt (neg o l i j) * neg o l i j
/-- The hard-negative normaliser of row `i`. -/
def nes (i : Fin 8192) : EReal := Ideal.div (s2 o l i) (s1 o l i)
/-- The indicator of a positive pair: same label, off the diagonal. -/
def pos (i j : Fin 8192) : EReal := if l i = l j ∧ i ≠ j then 1 else 0
/-- The log-ratio of the pair `(i, j)`. -/
def logr (i j : Fin 8192) : EReal := Ideal.log (Ideal.div (cost o i j) (cost o i j + scale * nes o l i))
/-- Row `i`'s sum of log-ratios over its positives, -/
def sl (i : Fin 8192) : EReal := ∑ j : Fin 8192, logr o l i j * pos l i j
/-- and the number of them. -/
def ct (i : Fin 8192) : EReal := ∑ j : Fin 8192, pos l i j
/-- The loss. -/
def loss : EReal := Ideal.div (-(∑ i : Fin 8192, sl o l i)) (∑ i : Fin 8192, ct l i)

end Cert.Spec

end
-- ==== Proof.R0ValPay.lean ====
import proofs.«116760_j49323404427556_1_alg».proof.Proof.Gen.KernelIdeal.Skeleton
import proofs.«116760_j49323404427556_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-! # Region 0: the body's arithmetic read at an index, on the extended reals

One grid point sees 1024 rows `A r` and 512 rows `B cc` of the row matrix with their labels `la r`, `lb cc`. The body
forms the 1024 x 512 block of similarities `exp (2 · ⟨A r, B cc⟩)`, zeroes the entries of equal labels, and adds to
each of two column accumulators the lane sums of the square roots, resp. of the square roots times the entries. -/

/-- The matrix product's dimension numbers: rows times rows (the second operand is transposed first). -/
abbrev D0 : DotDims S1024x512 S512x512 S1024x512 := dot_S1024x512_S512x512_S1024x512_1_0_0_1_n_n

theorem lhs_0 (j : S1024x512.Idx) (k : D0.contr.Idx) : (D0.lhsIdx j k 0 : ℕ) = j 0 := by
  simp [DotDims.lhsIdx, D0, dot_S1024x512_S512x512_S1024x512_1_0_0_1_n_n]; rfl
theorem lhs_1 (j : S1024x512.Idx) (k : D0.contr.Idx) : (D0.lhsIdx j k 1 : ℕ) = k ⟨0, by decide⟩ := by
  simp [DotDims.lhsIdx, D0, dot_S1024x512_S512x512_S1024x512_1_0_0_1_n_n]; rfl
theorem rhs_0 (j : S1024x512.Idx) (k : D0.contr.Idx) : (D0.rhsIdx j k 0 : ℕ) = k ⟨0, by decide⟩ := by
  simp [DotDims.rhsIdx, D0, dot_S1024x512_S512x512_S1024x512_1_0_0_1_n_n]; rfl
theorem rhs_1 (j : S1024x512.Idx) (k : D0.contr.Idx) : (D0.rhsIdx j k 1 : ℕ) = j 1 := by
  simp [DotDims.rhsIdx, D0, dot_S1024x512_S512x512_S1024x512_1_0_0_1_n_n]; rfl

/-- The contraction's indices are `Fin 512`. -/
def contr512 : D0.contr.Idx ≃ Fin 512 := contrEquiv1 D0 512 rfl rfl

theorem contr512_symm_val (k : Fin 512) : ((contr512.symm k) ⟨0, by decide⟩ : ℕ) = k.val :=
  contrEquiv1_symm_val D0 512 rfl rfl k

/-- A column broadcast along the lanes reads, at `(r, cc)`, the column at `r`. -/
theorem bcast_col {α : Type} (v : S1024x1.Idx → α) (h : S1024x1.Broadcasts S1024x512) (r : Fin 1024) (cc : Fin 512) :
    broadcastTo S1024x512 v h (ix2 r cc) = v (ix2 r (0 : Fin 1)) := by
  refine broadcastTo_apply v h (ix2 r cc) (ix2 r (0 : Fin 1)) fun ax => ?_
  match ax with
  | ⟨0, _⟩ => rfl
  | ⟨1, _⟩ => rfl

/-- A vector of 1024 entries cast to a column reads, at `(r, 0)`, the vector at `r`. -/
theorem cast_col {α : Type} (v : S1024.Idx → α) (h : S1024.ShapeCasts S1024x1) (r : Fin 1024) :
    shapeCast S1024x1 v h (ix2 r (0 : Fin 1)) = v (ix1 r) :=
  shapeCast_apply v h _ _ (by
    rw [Shape.rowMajor_val_two, Shape.rowMajor_val_one]
    show r.val = r.val * 1 + 0
    omega)

theorem cmpi_eq_one (a b : BitVec 32) (h : a = b) : IntOp.cmpi .eq a b = 1#1 := by
  subst h; simp [IntOp.cmpi]
theorem cmpi_eq_zero (a b : BitVec 32) (h : ¬a = b) : IntOp.cmpi .eq a b = 0#1 := by
  have hb : (a == b) = false := beq_eq_false_iff_ne.mpr h
  simp [IntOp.cmpi, hb]

/-- A lane sum of a 1024 x 512 block, read at row `r`: the sum of the row's 512 entries. -/
theorem lane_sum (src : FVec Ideal S1024x512 .f32) (h : S1024x512.Reduces [1] S1024) (hφ : FKind.Formats .f32)
    (hacc : (0x00000000#32 : BitVec 32) = 0x00000000#32) (r : Fin 1024) :
    multiReduction (F := Ideal) .add [1] S1024 src 0x00000000#32 h hφ hacc (ix1 r) = ∑ k : Fin 512, src (ix2 r k) := by
  refine (Ideal.multiReduction_add_single src 0x00000000#32 h hφ hacc (ix1 r)).trans ?_
  show (∑ k : Fin 512, src (h.lift (ix1 r) k)) = _
  refine Finset.sum_congr rfl fun k _ => congrArg src ?_
  funext a
  match a with
  | ⟨0, _⟩ => exact Fin.ext rfl
  | ⟨1, _⟩ => exact Fin.ext rfl

section Block
variable (A : Fin 1024 → Fin 512 → EReal) (B : Fin 512 → Fin 512 → EReal) (la : Fin 1024 → BitVec 32) (lb : Fin 512 → BitVec 32)

/-- The block's entry: the similarity of row `r` and row `cc`, kept only where the labels differ. -/
def negB (r : Fin 1024) (cc : Fin 512) : EReal :=
  if la r = lb cc then 0 else Ideal.exp (Cert.Spec.two * ∑ k : Fin 512, A r k * B cc k)

variable {A B la lb}

/-- The matrix product at an entry: the inner product of the two rows. -/
theorem prod_apply (y0 : FVec Ideal S1024x512 .bf16) (y1 : FVec Ideal S512x512 .bf16)
    (hy0 : ∀ (r : Fin 1024) (k : Fin 512), y0 (ix2 r k) = A r k)
    (hy1 : ∀ (cc : Fin 512) (k : Fin 512), y1 (ix2 cc k) = B cc k)
    (h : S512x512.Transposes [1, 0] S512x512) (r : Fin 1024) (cc : Fin 512) :
    FloatOps.matmul (F := Ideal) D0 none y0 (transpose S512x512 [1, 0] y1 h) (constant S1024x512 .f32 0x00000000#32) (ix2 r cc)
      = ∑ k : Fin 512, A r k * B cc k := by
  rw [Ideal.matmul_constant_zero_apply, ← Equiv.sum_comp contr512.symm]
  refine Finset.sum_congr rfl fun k _ => ?_
  have e0 : D0.lhsIdx (ix2 r cc) (contr512.symm k) = ix2 r k := by
    funext a; apply Fin.ext
    match a with
    | ⟨0, _⟩ => exact lhs_0 _ _
    | ⟨1, _⟩ => exact (lhs_1 _ _).trans (contr512_symm_val k)
  have e1 : D0.rhsIdx (ix2 r cc) (contr512.symm k) = ix2 k cc := by
    funext a; apply Fin.ext
    match a with
    | ⟨0, _⟩ => exact (rhs_0 _ _).trans (contr512_symm_val k)
    | ⟨1, _⟩ => exact rhs_1 _ _
  rw [e0, e1, hy0, transpose_ix2_apply, hy1]

variable (x0 : Vec Ideal S1024x512 .bf16) (x1 : Vec Ideal S512x512 .bf16) (x2 : Vec Ideal S1024x1 .i32) (x3 : Vec Ideal S1x512 .i32)
  (hx0 : ∀ (r : Fin 1024) (k : Fin 512), x0 (ix2 r k) = A r k)
  (hx1 : ∀ (cc : Fin 512) (k : Fin 512), x1 (ix2 cc k) = B cc k)
  (hx2 : ∀ r : Fin 1024, x2 (ix2 r (0 : Fin 1)) = la r)
  (hx3 : ∀ cc : Fin 512, x3 (ix2 (0 : Fin 1) cc) = lb cc)

include hx0 hx1 hx2 hx3 in
/-- The masked similarity block at an entry. -/
theorem pay5_apply (r : Fin 1024) (cc : Fin 512) :
    k0_pay5 (F := Ideal) x0 x1 x2 x3 (ix2 r cc) = negB A B la lb r cc := by
  unfold k0_pay5
  simp only [shapeCast_self]
  rw [select_apply]
  show Scalar.select (IntOp.cmpi .eq (broadcastTo S1024x512 x2 _ (ix2 r cc)) (broadcastTo S1024x512 x3 _ (ix2 r cc))) _ _ = _
  rw [bcast_col, broadcastTo_1b_ab_apply, hx2, hx3]
  unfold negB
  by_cases hl : la r = lb cc
  · rw [if_pos hl, cmpi_eq_one _ _ hl, select_one]
    exact Ideal.ofBits_zero_f32
  · rw [if_neg hl, cmpi_eq_zero _ _ hl, select_zero]
    show Ideal.exp (Ideal.ofBits .f32 0x40000000#32 * FloatOps.matmul (F := Ideal) D0 none x0 (transpose S512x512 [1, 0] x1 _) (constant S1024x512 .f32 0x00000000#32) (ix2 r cc)) = _
    rw [prod_apply x0 x1 hx0 hx1]
    rfl

include hx0 hx1 hx2 hx3 in
/-- Its square root at an entry. -/
theorem pay6_apply (r : Fin 1024) (cc : Fin 512) :
    k0_pay6 (F := Ideal) x0 x1 x2 x3 (ix2 r cc) = Ideal.sqrt (negB A B la lb r cc) := by
  unfold k0_pay6
  show Ideal.sqrt (k0_pay5 (F := Ideal) x0 x1 x2 x3 (ix2 r cc)) = _
  rw [pay5_apply x0 x1 x2 x3 hx0 hx1 hx2 hx3]

include hx0 hx1 hx2 hx3 in
/-- The first accumulator's new column: what it held plus the row's sum of square roots. -/
theorem pay7_apply (v22 : Vec Ideal S1024x1 .f32) (r : Fin 1024) :
    k0_pay7 (F := Ideal) x0 x1 x2 x3 v22 (ix2 r (0 : Fin 1))
      = v22 (ix2 r (0 : Fin 1)) + ∑ cc : Fin 512, Ideal.sqrt (negB A B la lb r cc) := by
  unfold k0_pay7
  simp only [shapeCast_self]
  show v22 (ix2 r (0 : Fin 1)) + shapeCast S1024x1 (multiReduction (F := Ideal) .add [1] S1024 (k0_pay6 x0 x1 x2 x3) 0x00000000#32 _ _ _) _ (ix2 r (0 : Fin 1)) = _
  rw [cast_col, lane_sum]
  exact congrArg (v22 (ix2 r (0 : Fin 1)) + ·) (Finset.sum_congr rfl fun cc _ => pay6_apply x0 x1 x2 x3 hx0 hx1 hx2 hx3 r cc)

include hx0 hx1 hx2 hx3 in
/-- The second accumulator's new column: what it held plus the row's sum of square roots times the entries. -/
theorem pay8_apply (v29 : Vec Ideal S1024x1 .f32) (r : Fin 1024) :
    k0_pay8 (F := Ideal) x0 x1 x2 x3 v29 (ix2 r (0 : Fin 1))
      = v29 (ix2 r (0 : Fin 1)) + ∑ cc : Fin 512, Ideal.sqrt (negB A B la lb r cc) * negB A B la lb r cc := by
  unfold k0_pay8
  show v29 (ix2 r (0 : Fin 1)) + shapeCast S1024x1 (multiReduction (F := Ideal) .add [1] S1024 (mulf (k0_pay6 x0 x1 x2 x3) (k0_pay5 x0 x1 x2 x3)) 0x00000000#32 _ _ _) _ (ix2 r (0 : Fin 1)) = _
  rw [cast_col, lane_sum]
  refine congrArg (v29 (ix2 r (0 : Fin 1)) + ·) (Finset.sum_congr rfl fun cc _ => ?_)
  rw [mulf_apply, pay6_apply x0 x1 x2 x3 hx0 hx1 hx2 hx3, pay5_apply x0 x1 x2 x3 hx0 hx1 hx2 hx3]

end Block

/-- The zero column the accumulators start from. -/
theorem pay3_apply (y : S1024x1.Idx) : k0_pay3 (F := Ideal) y = 0 := by
  unfold k0_pay3
  simp only [shapeCast_self]
  exact Ideal.ofBits_zero_f32
theorem pay4_apply (y : S1024x1.Idx) : k0_pay4 (F := Ideal) y = 0 := by
  unfold k0_pay4
  simp only [shapeCast_self]
  exact Ideal.ofBits_zero_f32
/-- A cast of a column to its own shape. -/
theorem pay1_eq (v : FVec Ideal S1024x1 .f32) : k0_pay1 (F := Ideal) v = v := by
  unfold k0_pay1
  simp only [shapeCast_self]
/-- The quotient the last point of a row block stores. -/
theorem pay2_apply (v40 v41 : Vec Ideal S1024x1 .f32) (y : S1024x1.Idx) :
    k0_pay2 (F := Ideal) v40 v41 y = Ideal.div (v40 y) (v41 y) := rfl

end Cert.KernelIdeal.Hand

end
-- ==== Proof.R0ValBlk.lean ====
import proofs.«116760_j49323404427556_1_alg».proof.Proof.R0Runs
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-! # Region 0: the windows' blocks as rows of the arrays

At point `t` (row block `t / 16`, column block `t % 16`) the first window holds rows `(t / 16) · 1024 + r` of the row
matrix, the second rows `(t % 16) · 512 + cc` of the same matrix, the third the labels of the former rows as a column,
the fourth the labels of the latter as a row, and the output window the rows `(t / 16) · 1024 + r` of the result. -/

variable {F : FTy → Type} [FloatOps F]

/-- The printed index maps, decided once over the grid. -/
theorem idx_facts0 : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

section Blocks
variable (V : (c : Dev nD) → (b : Ref sig .tc) → Buf (Elt F) ((c : Thread nD τ).loc b))

theorem blk0_0_apply (c : Dev nD) (t : Fin cfg0.N) (r : Fin 1024) (k : Fin 512) (hb : t.val / 16 * 1024 + r.val < 8192) :
    iblk0 V c 0 t (ix2 r k) = V c main_v7 (ix2 (⟨t.val / 16 * 1024 + r.val, hb⟩ : Fin 8192) k) := by
  obtain ⟨e0, e1, -⟩ := idx_facts0 t
  show V c main_v7 (((cfg0.win 0).blk t).view.emb (ix2 r k)) = _
  refine congrArg (V c main_v7) (funext fun a => Fin.ext ?_)
  match a with
  | ⟨0, _⟩ => show win0_0.index t (0 : Fin 2) * 1024 + 1 * r.val = t.val / 16 * 1024 + r.val; rw [e0]; omega
  | ⟨1, _⟩ => show win0_0.index t (1 : Fin 2) * 512 + 1 * k.val = k.val; rw [e1]; omega

theorem blk0_1_apply (c : Dev nD) (t : Fin cfg0.N) (cc : Fin 512) (k : Fin 512) (hb : t.val % 16 * 512 + cc.val < 8192) :
    iblk0 V c 1 t (ix2 cc k) = V c main_v7 (ix2 (⟨t.val % 16 * 512 + cc.val, hb⟩ : Fin 8192) k) := by
  obtain ⟨-, -, e0, e1, -⟩ := idx_facts0 t
  show V c main_v7 (((cfg0.win 1).blk t).view.emb (ix2 cc k)) = _
  refine congrArg (V c main_v7) (funext fun a => Fin.ext ?_)
  match a with
  | ⟨0, _⟩ => show win0_1.index t (0 : Fin 2) * 512 + 1 * cc.val = t.val % 16 * 512 + cc.val; rw [e0]; omega
  | ⟨1, _⟩ => show win0_1.index t (1 : Fin 2) * 512 + 1 * k.val = k.val; rw [e1]; omega

theorem blk0_2_apply (c : Dev nD) (t : Fin cfg0.N) (r : Fin 1024) (hb : t.val / 16 * 1024 + r.val < 8192) :
    iblk0 V c 2 t (ix2 r (0 : Fin 1)) = V c main_v9 (ix2 (⟨t.val / 16 * 1024 + r.val, hb⟩ : Fin 8192) (0 : Fin 1)) := by
  obtain ⟨-, -, -, -, e0, e1, -⟩ := idx_facts0 t
  show V c main_v9 (((cfg0.win 2).blk t).view.emb (ix2 r (0 : Fin 1))) = _
  refine congrArg (V c main_v9) (funext fun a => Fin.ext ?_)
  match a with
  | ⟨0, _⟩ => show win0_2.index t (0 : Fin 2) * 1024 + 1 * r.val = t.val / 16 * 1024 + r.val; rw [e0]; omega
  | ⟨1, _⟩ => show win0_2.index t (1 : Fin 2) * 1 + 1 * 0 = 0; rw [e1]

theorem blk0_3_apply (c : Dev nD) (t : Fin cfg0.N) (cc : Fin 512) (hb : t.val % 16 * 512 + cc.val < 8192) :
    iblk0 V c 3 t (ix2 (0 : Fin 1) cc) = V c main_v10 (ix2 (0 : Fin 1) (⟨t.val % 16 * 512 + cc.val, hb⟩ : Fin 8192)) := by
  obtain ⟨-, -, -, -, -, -, e0, e1, -⟩ := idx_facts0 t
  show V c main_v10 (((cfg0.win 3).blk t).view.emb (ix2 (0 : Fin 1) cc)) = _
  refine congrArg (V c main_v10) (funext fun a => Fin.ext ?_)
  match a with
  | ⟨0, _⟩ => show win0_3.index t (0 : Fin 2) * 1 + 1 * 0 = 0; rw [e0]
  | ⟨1, _⟩ => show win0_3.index t (1 : Fin 2) * 512 + 1 * cc.val = t.val % 16 * 512 + cc.val; rw [e1]; omega

end Blocks

end Cert.KernelIdeal.Hand

end
-- ==== Proof.LibSumBlocks.lean ====
/-
  A sum over an index range cut into equal consecutive blocks: the sum over `Fin N`, `N = a·b`, is the sum
  over the `a` blocks of the sums over the `b` positions inside each, position `k` of block `t` being the index
  `t·b + k`. In any commutative additive monoid (the extended reals among them), so no finiteness is asked.
-/
import Mathlib

namespace Cert.LibSumBlocks

/-- Position `k` of block `t` lies inside the range. -/
theorem block_lt {a b : ℕ} (t : Fin a) (k : Fin b) : t.val * b + k.val < a * b := by
  have h1 : t.val + 1 ≤ a := t.isLt
  have h2 : k.val < b := k.isLt
  calc t.val * b + k.val < t.val * b + b := by omega
    _ = (t.val + 1) * b := by ring
    _ ≤ a * b := Nat.mul_le_mul_right b h1

/-- The sum over `Fin N`, `N = a·b`, block by block. -/
theorem sum_blocks {M : Type*} [AddCommMonoid M] (a b N : ℕ) (h : N = a * b) (f : Fin N → M) :
    ∑ n : Fin N, f n = ∑ t : Fin a, ∑ k : Fin b, f ⟨t.val * b + k.val, h ▸ block_lt t k⟩ := by
  subst h
  rw [← Equiv.sum_comp finProdFinEquiv f, Fintype.sum_prod_type]
  refine Finset.sum_congr rfl fun t _ => Finset.sum_congr rfl fun k _ => ?_
  congr 1
  apply Fin.ext
  simp only [finProdFinEquiv_apply_val]
  ring

end Cert.LibSumBlocks
-- ==== Proof.R0ValAcc.lean ====
import proofs.«116760_j49323404427556_1_alg».proof.Proof.R0Pieces
import proofs.«116760_j49323404427556_1_alg».proof.Proof.R0ValPay
import proofs.«116760_j49323404427556_1_alg».proof.Proof.R0ValBlk
import proofs.«116760_j49323404427556_1_alg».proof.Proof.LibSumBlocks

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-! # Region 0: the two accumulators after each point, on the extended reals

After point `t` (row block `t / 16`, column block `j = t % 16`) row `r` of the first accumulator holds the sum, over the
column blocks `0 … j` and the 512 columns of each, of the square roots of the masked similarities of row
`(t / 16) · 1024 + r`; the second the same sum of the square roots times the entries. By induction on the point. -/

section Acc
variable (o : Fin 8192 → Fin 512 → EReal) (l : Fin 8192 → BitVec 32)

/-- The rows and the labels continued past the range (never read there): indices are then plain naturals. -/
def oN (i : ℕ) (k : Fin 512) : EReal := if h : i < 8192 then o ⟨i, h⟩ k else 0
def lN (i : ℕ) : BitVec 32 := if h : i < 8192 then l ⟨i, h⟩ else 0
/-- The masked similarity of rows `i` and `j`. -/
def negN (i j : ℕ) : EReal := if lN l i = lN l j then 0 else Ideal.exp (Cert.Spec.two * ∑ k : Fin 512, oN o i k * oN o j k)

theorem negN_eq (i j : Fin 8192) : negN o l i.val j.val = Cert.Spec.neg o l i j := by
  unfold negN lN oN Cert.Spec.neg Cert.Spec.cost Cert.Spec.dot
  simp only [dif_pos i.isLt, dif_pos j.isLt, Fin.eta]

/-- Row `i`'s sums over the first `m` column blocks. -/
def S1 (i m : ℕ) : EReal := ∑ s ∈ Finset.range m, ∑ cc : Fin 512, Ideal.sqrt (negN o l i (s * 512 + cc.val))
def S2 (i m : ℕ) : EReal := ∑ s ∈ Finset.range m, ∑ cc : Fin 512, Ideal.sqrt (negN o l i (s * 512 + cc.val)) * negN o l i (s * 512 + cc.val)

theorem S1_succ (i m : ℕ) : S1 o l i (m + 1) = S1 o l i m + ∑ cc : Fin 512, Ideal.sqrt (negN o l i (m * 512 + cc.val)) :=
  Finset.sum_range_succ _ m
theorem S2_succ (i m : ℕ) : S2 o l i (m + 1) = S2 o l i m + ∑ cc : Fin 512, Ideal.sqrt (negN o l i (m * 512 + cc.val)) * negN o l i (m * 512 + cc.val) :=
  Finset.sum_range_succ _ m
theorem S1_one (i : ℕ) : S1 o l i 1 = ∑ cc : Fin 512, Ideal.sqrt (negN o l i (0 * 512 + cc.val)) :=
  Finset.sum_range_one _
theorem S2_one (i : ℕ) : S2 o l i 1 = ∑ cc : Fin 512, Ideal.sqrt (negN o l i (0 * 512 + cc.val)) * negN o l i (0 * 512 + cc.val) :=
  Finset.sum_range_one _

/-- Over all sixteen column blocks the sums are the whole rows' sums. -/
theorem S1_full (i : Fin 8192) : S1 o l i.val 16 = Cert.Spec.s1 o l i := by
  unfold S1 Cert.Spec.s1
  rw [Cert.LibSumBlocks.sum_blocks 16 512 8192 rfl (fun j => Ideal.sqrt (Cert.Spec.neg o l i j)), Finset.sum_range]
  exact Finset.sum_congr rfl fun s _ => Finset.sum_congr rfl fun cc _ =>
    congrArg Ideal.sqrt (negN_eq o l i ⟨s.val * 512 + cc.val, Cert.LibSumBlocks.block_lt s cc⟩)
theorem S2_full (i : Fin 8192) : S2 o l i.val 16 = Cert.Spec.s2 o l i := by
  unfold S2 Cert.Spec.s2
  rw [Cert.LibSumBlocks.sum_blocks 16 512 8192 rfl (fun j => Ideal.sqrt (Cert.Spec.neg o l i j) * Cert.Spec.neg o l i j), Finset.sum_range]
  refine Finset.sum_congr rfl fun s _ => Finset.sum_congr rfl fun cc _ => ?_
  rw [negN_eq o l i ⟨s.val * 512 + cc.val, Cert.LibSumBlocks.block_lt s cc⟩]

variable (V : (c : Dev nD) → (b : Ref sig .tc) → Buf (Elt Ideal) ((c : Thread nD τ).loc b)) (c : Dev nD)
  (h7 : ∀ (i : Fin 8192) (k : Fin 512), V c main_v7 (ix2 i k) = o i k)
  (h9 : ∀ i : Fin 8192, V c main_v9 (ix2 i (0 : Fin 1)) = l i)
  (h10 : ∀ j : Fin 8192, V c main_v10 (ix2 (0 : Fin 1) j) = l j)

theorem rowb_lt (t : Fin cfg0.N) (r : Fin 1024) : t.val / 16 * 1024 + r.val < 8192 := by
  have hN : t.val < 128 := lt_of_lt_of_eq t.isLt (show cfg0.N = 128 from N_0)
  have := r.isLt; omega
theorem colb_lt (t : Fin cfg0.N) (cc : Fin 512) : t.val % 16 * 512 + cc.val < 8192 := by
  have := cc.isLt; omega

include h7 in
theorem hx0 (t : Fin cfg0.N) (r : Fin 1024) (k : Fin 512) : iblk0 V c 0 t (ix2 r k) = oN o (t.val / 16 * 1024 + r.val) k := by
  rw [blk0_0_apply V c t r k (rowb_lt t r), h7]; unfold oN; rw [dif_pos (rowb_lt t r)]
include h7 in
theorem hx1 (t : Fin cfg0.N) (cc : Fin 512) (k : Fin 512) : iblk0 V c 1 t (ix2 cc k) = oN o (t.val % 16 * 512 + cc.val) k := by
  rw [blk0_1_apply V c t cc k (colb_lt t cc), h7]; unfold oN; rw [dif_pos (colb_lt t cc)]
include h9 in
theorem hx2 (t : Fin cfg0.N) (r : Fin 1024) : iblk0 V c 2 t (ix2 r (0 : Fin 1)) = lN l (t.val / 16 * 1024 + r.val) := by
  rw [blk0_2_apply V c t r (rowb_lt t r), h9]; unfold lN; rw [dif_pos (rowb_lt t r)]
include h10 in
theorem hx3 (t : Fin cfg0.N) (cc : Fin 512) : iblk0 V c 3 t (ix2 (0 : Fin 1) cc) = lN l (t.val % 16 * 512 + cc.val) := by
  rw [blk0_3_apply V c t cc (colb_lt t cc), h10]; unfold lN; rw [dif_pos (colb_lt t cc)]

include h7 h9 h10 in
/-- One point's step of the first accumulator, at a row. -/
theorem step1 (t : Fin cfg0.N) (v : Vec Ideal S1024x1 .f32) (r : Fin 1024) :
    k0_pay7 (F := Ideal) (iblk0 V c 0 t) (iblk0 V c 1 t) (iblk0 V c 2 t) (iblk0 V c 3 t) v (ix2 r (0 : Fin 1))
      = v (ix2 r (0 : Fin 1)) + ∑ cc : Fin 512, Ideal.sqrt (negN o l (t.val / 16 * 1024 + r.val) (t.val % 16 * 512 + cc.val)) :=
  pay7_apply (A := fun r k => oN o (t.val / 16 * 1024 + r.val) k) (B := fun cc k => oN o (t.val % 16 * 512 + cc.val) k)
    (la := fun r => lN l (t.val / 16 * 1024 + r.val)) (lb := fun cc => lN l (t.val % 16 * 512 + cc.val))
    (iblk0 V c 0 t) (iblk0 V c 1 t) (iblk0 V c 2 t) (iblk0 V c 3 t) (hx0 o V c h7 t) (hx1 o V c h7 t) (hx2 l V c h9 t) (hx3 l V c h10 t) v r

include h7 h9 h10 in
/-- One point's step of the second accumulator, at a row. -/
theorem step2 (t : Fin cfg0.N) (v : Vec Ideal S1024x1 .f32) (r : Fin 1024) :
    k0_pay8 (F := Ideal) (iblk0 V c 0 t) (iblk0 V c 1 t) (iblk0 V c 2 t) (iblk0 V c 3 t) v (ix2 r (0 : Fin 1))
      = v (ix2 r (0 : Fin 1)) + ∑ cc : Fin 512, Ideal.sqrt (negN o l (t.val / 16 * 1024 + r.val) (t.val % 16 * 512 + cc.val)) * negN o l (t.val / 16 * 1024 + r.val) (t.val % 16 * 512 + cc.val) :=
  pay8_apply (A := fun r k => oN o (t.val / 16 * 1024 + r.val) k) (B := fun cc k => oN o (t.val % 16 * 512 + cc.val) k)
    (la := fun r => lN l (t.val / 16 * 1024 + r.val)) (lb := fun cc => lN l (t.val % 16 * 512 + cc.val))
    (iblk0 V c 0 t) (iblk0 V c 1 t) (iblk0 V c 2 t) (iblk0 V c 3 t) (hx0 o V c h7 t) (hx1 o V c h7 t) (hx2 l V c h9 t) (hx3 l V c h10 t) v r

/-- What a first point of a row block leaves in the accumulators, as the body's arithmetic of the point's blocks. -/
theorem outs_A (t : Fin cfg0.N) (h0 : t.val % 16 = 0) (h1 : ¬t.val % 16 = 15) :
    (outsAt0 V c t.val t.isLt).2.1 = k0_pay7 (iblk0 V c 0 t) (iblk0 V c 1 t) (iblk0 V c 2 t) (iblk0 V c 3 t) (k0_pay3 (F := Ideal))
    ∧ (outsAt0 V c t.val t.isLt).2.2 = k0_pay1 (k0_pay8 (iblk0 V c 0 t) (iblk0 V c 1 t) (iblk0 V c 2 t) (iblk0 V c 3 t) (k0_pay4 (F := Ideal))) := by
  rw [outsAt0_A V c t h0 h1]
  dsimp only
  refine ⟨?_, ?_⟩
  · exact sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (fun h => h1 ((hcond0_1 t).mp h)) (iblk0 V c 0 t) (iblk0 V c 1 t) (iblk0 V c 2 t) (iblk0 V c 3 t)
  · exact sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (fun h => h1 ((hcond0_1 t).mp h)) (iblk0 V c 0 t) (iblk0 V c 1 t) (iblk0 V c 2 t) (iblk0 V c 3 t)

/-- What a later point leaves in them, over what the point before left. -/
theorem outs_BC (t : Fin cfg0.N) (h0 : ¬t.val % 16 = 0) :
    (outsAt0 V c t.val t.isLt).2.1 = k0_pay7 (iblk0 V c 0 t) (iblk0 V c 1 t) (iblk0 V c 2 t) (iblk0 V c 3 t) (outsAt0 V c (t.val - 1) (Nat.lt_of_le_of_lt (Nat.sub_le _ _) t.isLt)).2.1
    ∧ (outsAt0 V c t.val t.isLt).2.2 = k0_pay1 (k0_pay8 (iblk0 V c 0 t) (iblk0 V c 1 t) (iblk0 V c 2 t) (iblk0 V c 3 t) (outsAt0 V c (t.val - 1) (Nat.lt_of_le_of_lt (Nat.sub_le _ _) t.isLt)).2.2) := by
  by_cases h1 : t.val % 16 = 15
  · rw [outsAt0_C V c t h0 h1]
    dsimp only
    refine ⟨?_, ?_⟩
    · exact sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2
    · exact sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2
  · rw [outsAt0_B V c t h0 h1]
    dsimp only
    refine ⟨?_, ?_⟩
    · exact sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2
    · exact sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

/-- What the last point of a row block stores into the output block. -/
theorem outs_C (t : Fin cfg0.N) (h0 : ¬t.val % 16 = 0) (h1 : t.val % 16 = 15) :
    (outsAt0 V c t.val t.isLt).1 = k0_pay2 (k0_pay1 (k0_pay8 (iblk0 V c 0 t) (iblk0 V c 1 t) (iblk0 V c 2 t) (iblk0 V c 3 t) (outsAt0 V c (t.val - 1) (Nat.lt_of_le_of_lt (Nat.sub_le _ _) t.isLt)).2.2)) (k0_pay7 (iblk0 V c 0 t) (iblk0 V c 1 t) (iblk0 V c 2 t) (iblk0 V c 3 t) (outsAt0 V c (t.val - 1) (Nat.lt_of_le_of_lt (Nat.sub_le _ _) t.isLt)).2.1) := by
  rw [outsAt0_C V c t h0 h1]
  dsimp only
  exact out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.1 (outsAt0 V c (t.val - 1) (Nat.lt_of_le_of_lt (Nat.sub_le _ _) t.isLt)).2.2

include h7 h9 h10 in
/-- THE ACCUMULATION: after point `n` the accumulators hold the row sums over the column blocks `0 … n % 16`. -/
theorem acc_inv : ∀ (n : ℕ) (hn : n < cfg0.N) (r : Fin 1024),
    (outsAt0 V c n hn).2.1 (ix2 r (0 : Fin 1)) = S1 o l (n / 16 * 1024 + r.val) (n % 16 + 1)
    ∧ (outsAt0 V c n hn).2.2 (ix2 r (0 : Fin 1)) = S2 o l (n / 16 * 1024 + r.val) (n % 16 + 1) := by
  intro n
  induction n using Nat.strong_induction_on with
  | _ n ih =>
    intro hn r
    by_cases h0 : n % 16 = 0
    · obtain ⟨e1, e2⟩ := outs_A V c ⟨n, hn⟩ h0 (by show ¬n % 16 = 15; omega)
      have e1' : (outsAt0 V c n hn).2.1 = _ := e1
      have e2' : (outsAt0 V c n hn).2.2 = _ := e2
      rw [e1', e2', pay1_eq, step1 o l V c h7 h9 h10 ⟨n, hn⟩, step2 o l V c h7 h9 h10 ⟨n, hn⟩, pay3_apply, pay4_apply, zero_add, zero_add]
      show _ = S1 o l _ (n % 16 + 1) ∧ _ = S2 o l _ (n % 16 + 1)
      rw [h0, S1_one, S2_one]
      exact ⟨rfl, rfl⟩
    · obtain ⟨e1, e2⟩ := outs_BC V c ⟨n, hn⟩ h0
      have e1' : (outsAt0 V c n hn).2.1 = _ := e1
      have e2' : (outsAt0 V c n hn).2.2 = _ := e2
      have hpos : n ≠ 0 := fun h => h0 (by rw [h])
      obtain ⟨i1, i2⟩ := ih (n - 1) (by omega) (Nat.lt_of_le_of_lt (Nat.sub_le _ _) hn) r
      have d1 : (n - 1) / 16 = n / 16 := by omega
      have d2 : (n - 1) % 16 + 1 = n % 16 := by omega
      rw [d1, d2] at i1 i2
      rw [e1', e2', pay1_eq, step1 o l V c h7 h9 h10 ⟨n, hn⟩, step2 o l V c h7 h9 h10 ⟨n, hn⟩]
      show (outsAt0 V c (n - 1) _).2.1 (ix2 r (0 : Fin 1)) + _ = _ ∧ (outsAt0 V c (n - 1) _).2.2 (ix2 r (0 : Fin 1)) + _ = _
      rw [i1, i2, S1_succ, S2_succ]
      exact ⟨rfl, rfl⟩

end Acc

end Cert.KernelIdeal.Hand

end
-- ==== Proof.R0Val.lean ====
import proofs.«116760_j49323404427556_1_alg».proof.Proof.R0ValAcc

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem

/-! # Region 0: the result column

After the run, row `i` of the region's result holds the quotient of row `i`'s two sums over all 8192 columns: the last
point of each row block stores the quotient of the accumulators, which by then hold the sums over all sixteen column
blocks; the sixteen-by-512 double sum is the sum over the 8192 columns; and the eight flushing points' blocks tile the
result column. -/

section Result
variable (o : Fin 8192 → Fin 512 → EReal) (l : Fin 8192 → BitVec 32)

/-- The result column: row `i` at the normaliser of row `i`. -/
def G11 : S8192x1.Idx → EReal := fun y => Cert.Spec.nes o l ⟨(y 0).val, idx2_lt0 y⟩

variable (V : (c : Dev nD) → (b : Ref sig .tc) → Buf (Elt Ideal) ((c : Thread nD τ).loc b)) (q : Fin cfg0.W → PosShare TreeShare) (c : Dev nD)
  (h7 : ∀ (i : Fin 8192) (k : Fin 512), V c main_v7 (ix2 i k) = o i k)
  (h9 : ∀ i : Fin 8192, V c main_v9 (ix2 i (0 : Fin 1)) = l i)
  (h10 : ∀ j : Fin 8192, V c main_v10 (ix2 (0 : Fin 1) j) = l j)

include h7 h9 h10 in
/-- THE VALUE AT A FLUSHING POINT: the last point of a row block leaves, in row `rr` of the output block, the normaliser
    of the global row `(t / 16) · 1024 + rr`: the accumulators hold by then the sums over all sixteen column blocks. -/
theorem out_point_value (t : Fin cfg0.N) (h15 : t.val % 16 = 15) (rr : Fin 1024) :
    (outsAt0 V c t.val t.isLt).1 (ix2 rr (0 : Fin 1)) = Cert.Spec.nes o l ⟨t.val / 16 * 1024 + rr.val, rowb_lt t rr⟩ := by
  have h0 : ¬t.val % 16 = 0 := by omega
  obtain ⟨b1, b2⟩ := outs_BC V c t h0
  rw [outs_C V c t h0 h15, ← b1, ← b2]
  obtain ⟨i1, i2⟩ := acc_inv o l V c h7 h9 h10 t.val t.isLt rr
  rw [h15] at i1 i2
  show Ideal.div ((outsAt0 V c t.val t.isLt).2.2 (ix2 rr (0 : Fin 1))) ((outsAt0 V c t.val t.isLt).2.1 (ix2 rr (0 : Fin 1))) = _
  rw [i1, i2]
  exact congrArg₂ Ideal.div (S2_full o l ⟨_, rowb_lt t rr⟩) (S1_full o l ⟨_, rowb_lt t rr⟩)

include h7 h9 h10 in
/-- What a flushing point writes back is its block of the result column. -/
theorem flushed4_eq (t : Fin cfg0.N) (hf : (cfg0.win 4).flush t = true) :
    (dat0 (F := Ideal) V q c).flushed 4 t = ((cfg0.win 4).blk t).view.read (Elt Ideal) (G11 o l) := by
  have h15 : t.val % 16 = 15 := (flush0_4 t).mp hf
  obtain ⟨-, -, -, -, -, -, -, -, e0, e1⟩ := idx_facts0 t
  show (cfg0.win 4).cut (grid0.coords t) ((dat0 (F := Ideal) V q c).after 4 t) = _
  rw [after0_4]
  funext y
  obtain ⟨r, u, rfl⟩ : ∃ (r : Fin 1024) (u : Fin 1), y = ix2 r u := ⟨y 0, y 1, eq_ix2 y⟩
  obtain rfl : u = 0 := Subsingleton.elim _ _
  have hi : (⟨((((cfg0.win 4).blk t).view.emb (ix2 r (0 : Fin 1))) 0).val, idx2_lt0 _⟩ : Fin 8192) = ⟨t.val / 16 * 1024 + r.val, rowb_lt t r⟩ :=
    Fin.ext (by show win0_4.index t (0 : Fin 2) * 1024 + 1 * r.val = t.val / 16 * 1024 + r.val; rw [e0]; omega)
  show (outsAt0 V c t.val t.isLt).1 (ix2 r (0 : Fin 1)) = Cert.Spec.nes o l ⟨_, _⟩
  rw [out_point_value o l V c h7 h9 h10 t h15 r, hi]

/-- An index of the result column is in point `t`'s block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v11).slice (win0_4.rect t)).set ↔ _
  rw [View.set_slice_whole, Rect.mem_set_unit]
  exact Iff.rfl

/-- Row `i` is in the block of the last point of its row block. -/
theorem cover4 (i : S8192x1.Idx) : ∃ t : Fin cfg0.N, (cfg0.win 4).flush t = true ∧ i ∈ ((cfg0.win 4).blk t).view.set := by
  have hi0 : (i 0).val < 8192 := idx2_lt0 i
  have hi1 : (i 1).val < 1 := idx2_lt1 i
  have hN : cfg0.N = 128 := N_0
  have ht : (i 0).val / 1024 * 16 + 15 < cfg0.N := by rw [hN]; omega
  obtain ⟨-, -, -, -, -, -, -, -, e0, e1⟩ := idx_facts0 ⟨(i 0).val / 1024 * 16 + 15, ht⟩
  refine ⟨⟨(i 0).val / 1024 * 16 + 15, ht⟩, (flush0_4 _).mpr (by show ((i 0).val / 1024 * 16 + 15) % 16 = 15; omega), ?_⟩
  rw [mem_blk4]
  intro a
  match a with
  | ⟨0, _⟩ =>
    show win0_4.index ⟨(i 0).val / 1024 * 16 + 15, ht⟩ (0 : Fin 2) * 1024 ≤ (i 0).val ∧ (i 0).val < win0_4.index ⟨(i 0).val / 1024 * 16 + 15, ht⟩ (0 : Fin 2) * 1024 + 1024
    rw [e0]; show ((i 0).val / 1024 * 16 + 15) / 16 * 1024 ≤ (i 0).val ∧ (i 0).val < ((i 0).val / 1024 * 16 + 15) / 16 * 1024 + 1024
    omega
  | ⟨1, _⟩ =>
    show win0_4.index ⟨(i 0).val / 1024 * 16 + 15, ht⟩ (1 : Fin 2) * 1 ≤ (i 1).val ∧ (i 1).val < win0_4.index ⟨(i 0).val / 1024 * 16 + 15, ht⟩ (1 : Fin 2) * 1 + 1
    rw [e1]; omega

end Result

/-- THE RESULT of region 0: after the run, row `i` of its output array is the normaliser `s2 i / s1 i` of row `i`. -/
theorem out11_value (V : (c : Dev nD) → (b : Ref sig .tc) → Buf (Elt Ideal) ((c : Thread nD τ).loc b)) (q : Fin cfg0.W → PosShare TreeShare) (c : Dev nD)
    (o : Fin 8192 → Fin 512 → EReal) (l : Fin 8192 → BitVec 32)
    (h7 : ∀ (i : Fin 8192) (k : Fin 512), V c main_v7 (ValueIdx.ix2 i k) = o i k)
    (h9 : ∀ i : Fin 8192, V c main_v9 (ValueIdx.ix2 i (0 : Fin 1)) = l i)
    (h10 : ∀ j : Fin 8192, V c main_v10 (ValueIdx.ix2 (0 : Fin 1) j) = l j) :
    ∀ i : Fin 8192, (dat0 (F := Ideal) V q c).arrAt 4 cfg0.N (ValueIdx.ix2 i (0 : Fin 1)) = Cert.Spec.nes o l i := by
  intro i
  rw [(dat0 (F := Ideal) V q c).arrAt_eq_of_cover 4 (G11 o l) (flushed4_eq o l V q c h7 h9 h10) cover4]
  rfl

end Cert.KernelIdeal.Hand

end
-- ==== Proof.R1Pieces.lean ====
/- Region 1: what each case's found pieces are, as the body's arithmetic of its loads. -/
import proofs.«116760_j49323404427556_1_alg».proof.Proof.R1
import Idealize.ShloMosaic.Lib.Pipeline.Value

-- membership in a rectangle of production extents: the elaborator's structural look recurses once per
-- coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: each case's found pieces as the body's arithmetic of its loads -/

theorem hz2_1 : (![0, 0] : Fin 2 → Nat) = fun _ => 0 := funext fun a => by fin_cases a <;> rfl

/-- Away from both ends of a row, accumulator 0 ends at what it held plus the lane sums of the masked log-ratios. -/
theorem sout1_B_0_eq (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) :
    sout1_B_0 c i arg2 harg2 arg3 harg3 arg4 harg4 arg5 harg5 arg6 harg6 arg7 harg7 arg8 harg8 arg9 harg9 arg10 harg10 hc0 hc1 x0 x1 x2 x3 x4 xs0 xs1 = k1_pay1 (k1_pay5 x0 x1) (k1_pay6 i x2 x3) (k1_pay7 x4) xs0 := by
  unfold sout1_B_0
  rw [View.read_writes_eq_canon _ _ _ (scover1_B_0 c i arg2 harg2 arg3 harg3 arg4 harg4 arg5 harg5 arg6 harg6 arg7 harg7 arg8 harg8 arg9 harg9 arg10 harg10 hc0 hc1 x0 x1 x2 x3 x4 xs0 xs1)]
  unfold kernelRun1_B
  dsimp only
  sl_unfold_words
  rw [View.canon_unit_zero hz2_1]
  simp only [View.readAt_eq_ld, harg2.read_unread, harg3.read_unread, harg4.read_unread, harg5.read_unread, harg6.read_unread, harg9.read_unread, harg10.read_unread, View.ld_unit_zero (S := S1024x512) hz2_1, View.ld_unit_zero (S := S512x512) hz2_1, View.ld_unit_zero (S := S1024x1) hz2_1, View.ld_unit_zero (S := S1x512) hz2_1]

/-- Away from both ends of a row, accumulator 1 ends at what it held plus the lane sums of the mask. -/
theorem sout1_B_1_eq (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : ¬cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) :
    sout1_B_1 c i arg2 harg2 arg3 harg3 arg4 harg4 arg5 harg5 arg6 harg6 arg7 harg7 arg8 harg8 arg9 harg9 arg10 harg10 hc0 hc1 x0 x1 x2 x3 x4 xs0 xs1 = k1_pay2 (k1_pay6 i x2 x3) xs1 := by
  unfold sout1_B_1
  rw [View.read_writes_eq_canon _ _ _ (scover1_B_1 c i arg2 harg2 arg3 harg3 arg4 harg4 arg5 harg5 arg6 harg6 arg7 harg7 arg8 harg8 arg9 harg9 arg10 harg10 hc0 hc1 x0 x1 x2 x3 x4 xs0 xs1)]
  unfold kernelRun1_B
  dsimp only
  sl_unfold_words
  rw [View.canon_unit_zero hz2_1]
  simp only [View.readAt_eq_ld, harg2.read_unread, harg3.read_unread, harg4.read_unread, harg5.read_unread, harg6.read_unread, harg9.read_unread, harg10.read_unread, View.ld_unit_zero (S := S1024x512) hz2_1, View.ld_unit_zero (S := S512x512) hz2_1, View.ld_unit_zero (S := S1024x1) hz2_1, View.ld_unit_zero (S := S1x512) hz2_1]

/-- At the start of a row, accumulator 0 ends at the zero column plus the lane sums of the masked log-ratios. -/
theorem sout1_A_0_eq (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) :
    sout1_A_0 c i arg2 harg2 arg3 harg3 arg4 harg4 arg5 harg5 arg6 harg6 arg7 harg7 arg8 harg8 arg9 harg9 arg10 harg10 hc0 hc1 x0 x1 x2 x3 x4 = k1_pay1 (k1_pay5 x0 x1) (k1_pay6 i x2 x3) (k1_pay7 x4) (k1_pay3 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_cons_unit_zero (S := S1024x1) hz2_1, View.readCov_unit_zero (S := S1024x1) _ hz2_1]
  simp only [View.readAt_eq_ld, harg2.read_unread, harg3.read_unread, harg4.read_unread, harg5.read_unread, harg6.read_unread, View.ld_unit_zero (S := S1024x512) hz2_1, View.ld_unit_zero (S := S512x512) hz2_1, View.ld_unit_zero (S := S1024x1) hz2_1, View.ld_unit_zero (S := S1x512) hz2_1]

/-- At the start of a row, accumulator 1 ends at the zero column plus the lane sums of the mask. -/
theorem sout1_A_1_eq (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond1_0 i) (hc1 : ¬cond1_1 i)
    (x0 : Vec F S1024x512 .bf16) (x1 : Vec F S512x512 .bf16) (x2 : Vec F S1024x1 .i32) (x3 : Vec F S1x512 .i32) (x4 : Vec F S1024x1 .f32) :
    sout1_A_1 c i arg2 harg2 arg3 harg3 arg4 harg4 arg5 harg5 arg6 harg6 arg7 harg7 arg8 harg8 arg9 harg9 arg10 harg10 hc0 hc1 x0 x1 x2 x3 x4 = k1_pay2 (k1_pay6 i x2 x3) (k1_pay4 (F := F)) := by
  unfold sout1_A_1
  rw [View.read_writes_eq_canon _ _ _ (scover1_A_1 c i arg2 harg2 arg3 harg3 arg4 harg4 arg5 harg5 arg6 harg6 arg7 harg7 arg8 harg8 arg9 harg9 arg10 harg10 hc0 hc1 x0 x1 x2 x3 x4)]
  unfold kernelRun1_A
  dsimp only
  sl_unfold_words
  rw [View.canon_cons_unit_zero (S := S1024x1) hz2_1, View.readCov_unit_zero (S := S1024x1) _ hz2_1]
  simp only [View.readAt_eq_ld, harg2.read_unread, harg3.read_unread, harg4.read_unread, harg5.read_unread, harg6.read_unread, View.ld_unit_zero (S := S1024x512) hz2_1, View.ld_unit_zero (S := S512x512) hz2_1, View.ld_unit_zero (S := S1024x1) hz2_1, View.ld_unit_zero (S := S1x512) hz2_1]

/-- At the end of a row, accumulator 0 ends at what it held plus the lane sums of the masked log-ratios. -/
theorem sout1_C_0_eq (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) :
    sout1_C_0 c i arg2 harg2 arg3 harg3 arg4 harg4 arg5 harg5 arg6 harg6 arg7 harg7 arg8 harg8 arg9 harg9 arg10 harg10 hc0 hc1 x0 x1 x2 x3 x4 xs0 xs1 = k1_pay1 (k1_pay5 x0 x1) (k1_pay6 i x2 x3) (k1_pay7 x4) xs0 := by
  unfold sout1_C_0
  rw [View.read_writes_eq_canon _ _ _ (scover1_C_0 c i arg2 harg2 arg3 harg3 arg4 harg4 arg5 harg5 arg6 harg6 arg7 harg7 arg8 harg8 arg9 harg9 arg10 harg10 hc0 hc1 x0 x1 x2 x3 x4 xs0 xs1)]
  unfold kernelRun1_C
  dsimp only
  sl_unfold_words
  rw [View.canon_unit_zero hz2_1]
  simp only [View.readAt_eq_ld, harg2.read_unread, harg3.read_unread, harg4.read_unread, harg5.read_unread, harg6.read_unread, harg9.read_unread, harg10.read_unread, View.ld_unit_zero (S := S1024x512) hz2_1, View.ld_unit_zero (S := S512x512) hz2_1, View.ld_unit_zero (S := S1024x1) hz2_1, View.ld_unit_zero (S := S1x512) hz2_1]

/-- At the end of a row, accumulator 1 ends at what it held plus the lane sums of the mask. -/
theorem sout1_C_1_eq (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) :
    sout1_C_1 c i arg2 harg2 arg3 harg3 arg4 harg4 arg5 harg5 arg6 harg6 arg7 harg7 arg8 harg8 arg9 harg9 arg10 harg10 hc0 hc1 x0 x1 x2 x3 x4 xs0 xs1 = k1_pay2 (k1_pay6 i x2 x3) xs1 := by
  unfold sout1_C_1
  rw [View.read_writes_eq_canon _ _ _ (scover1_C_1 c i arg2 harg2 arg3 harg3 arg4 harg4 arg5 harg5 arg6 harg6 arg7 harg7 arg8 harg8 arg9 harg9 arg10 harg10 hc0 hc1 x0 x1 x2 x3 x4 xs0 xs1)]
  unfold kernelRun1_C
  dsimp only
  sl_unfold_words
  rw [View.canon_unit_zero hz2_1]
  simp only [View.readAt_eq_ld, harg2.read_unread, harg3.read_unread, harg4.read_unread, harg5.read_unread, harg6.read_unread, harg9.read_unread, harg10.read_unread, View.ld_unit_zero (S := S1024x512) hz2_1, View.ld_unit_zero (S := S512x512) hz2_1, View.ld_unit_zero (S := S1024x1) hz2_1, View.ld_unit_zero (S := S1x512) hz2_1]

/-- At the end of a row, the first output block is stored with accumulator 0 as the point leaves it. -/
theorem out1_C_5_eq (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) :
    out1_C_5 c i arg2 harg2 arg3 harg3 arg4 harg4 arg5 harg5 arg6 harg6 arg7 harg7 arg8 harg8 arg9 harg9 arg10 harg10 hc0 hc1 x0 x1 x2 x3 x4 xs0 xs1 = k1_pay1 (k1_pay5 x0 x1) (k1_pay6 i x2 x3) (k1_pay7 x4) xs0 := by
  unfold out1_C_5
  rw [View.read_writes_eq_canon _ _ _ (cover1_C_5 c i arg2 harg2 arg3 harg3 arg4 harg4 arg5 harg5 arg6 harg6 arg7 harg7 arg8 harg8 arg9 harg9 arg10 harg10 hc0 hc1 x0 x1 x2 x3 x4 xs0 xs1)]
  unfold kernelRun1_C
  dsimp only
  sl_unfold_words
  rw [View.canon_unit_zero hz2_1, View.readCov_unit_zero (S := S1024x1) _ hz2_1]
  simp only [View.readAt_eq_ld, harg2.read_unread, harg3.read_unread, harg4.read_unread, harg5.read_unread, harg6.read_unread, harg9.read_unread, harg10.read_unread, View.ld_unit_zero (S := S1024x512) hz2_1, View.ld_unit_zero (S := S512x512) hz2_1, View.ld_unit_zero (S := S1024x1) hz2_1, View.ld_unit_zero (S := S1x512) hz2_1]

/-- At the end of a row, the second output block is stored with accumulator 1 as the point leaves it. -/
theorem out1_C_6_eq (c : Dev nD) (i : grid1.Coords) (arg2 : Memref sig .tc .vmem S1024x512 .bf16) (harg2 : arg2.IsWhole) (arg3 : Memref sig .tc .vmem S512x512 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond1_0 i) (hc1 : cond1_1 i)
    (x0 : Vec F S1024x512 .bf16) (x1 : Vec F S512x512 .bf16) (x2 : Vec F S1024x1 .i32) (x3 : Vec F S1x512 .i32) (x4 : Vec F S1024x1 .f32) (xs0 : Vec F S1024x1 .f32) (xs1 : Vec F S1024x1 .f32) :
    out1_C_6 c i arg2 harg2 arg3 harg3 arg4 harg4 arg5 harg5 arg6 harg6 arg7 harg7 arg8 harg8 arg9 harg9 arg10 harg10 hc0 hc1 x0 x1 x2 x3 x4 xs0 xs1 = k1_pay2 (k1_pay6 i x2 x3) xs1 := by
  unfold out1_C_6
  rw [View.read_writes_eq_canon _ _ _ (cover1_C_6 c i arg2 harg2 arg3 harg3 arg4 harg4 arg5 harg5 arg6 harg6 arg7 harg7 arg8 harg8 arg9 harg9 arg10 harg10 hc0 hc1 x0 x1 x2 x3 x4 xs0 xs1)]
  unfold kernelRun1_C
  dsimp only
  sl_unfold_words
  rw [View.canon_unit_zero hz2_1, View.readCov_unit_zero (S := S1024x1) _ hz2_1]
  simp only [View.readAt_eq_ld, harg2.read_unread, harg3.read_unread, harg4.read_unread, harg5.read_unread, harg6.read_unread, harg9.read_unread, harg10.read_unread, View.ld_unit_zero (S := S1024x512) hz2_1, View.ld_unit_zero (S := S512x512) hz2_1, View.ld_unit_zero (S := S1024x1) hz2_1, View.ld_unit_zero (S := S1x512) hz2_1]

end Cert.KernelIdeal.Hand

end
-- ==== Proof.LibRealMask.lean ====
/-
  Masks as Booleans, and comparisons and roots of real numbers, on the extended reals.
  A one-bit mask built from comparisons is the bit of a Boolean: "and" of two such bits is the bit of the conjunction, "not" the bit
  of the negation, and a select on such a bit is an if on the Boolean. A comparison of two real numbers read on the extended reals is
  the bit of the real comparison. The square root of a non-negative real is its real square root; the inverse square root of a
  positive real is the inverse of its real square root, so a positive real times its inverse square root is its square root.
  Two natural numbers below 2^32, as 32-bit words, are equal exactly when the numbers are.
-/
import Mathlib
import Idealize.ShloMosaic.Lib.ValueIdx
import Idealize.ShloMosaic.PureOps.Ideal.Laws

noncomputable section

namespace Cert.LibRealMask

open Idealize.ShloMosaic

/-- A select on the bit of a Boolean is an if on the Boolean. -/
theorem sel_bool {α : Type} (a : Bool) (u v : α) : Scalar.select (BitVec.ofBool a) u v = if a = true then u else v := by
  cases a <;> rfl

/-- The "and" of two Booleans' bits is the bit of their conjunction. -/
theorem and_bool (a b : Bool) : IntOp.andi (BitVec.ofBool a) (BitVec.ofBool b) = BitVec.ofBool (a && b) := by
  cases a <;> cases b <;> rfl

/-- The complement of a Boolean's bit is the bit of its negation. -/
theorem not_bool (a : Bool) : ~~~(BitVec.ofBool a) = BitVec.ofBool (!a) := by cases a <;> rfl

/-- "Less than" between two reals, read on the extended reals. -/
theorem cmp_olt_coe (a b : ℝ) : Ideal.cmp .olt (a : EReal) (b : EReal) = BitVec.ofBool (decide (a < b)) := by
  simp only [Ideal.cmp, EReal.coe_lt_coe_iff]

/-- "Greater than" between two reals, read on the extended reals. -/
theorem cmp_ogt_coe (a b : ℝ) : Ideal.cmp .ogt (a : EReal) (b : EReal) = BitVec.ofBool (decide (b < a)) := by
  simp only [Ideal.cmp, EReal.coe_lt_coe_iff]

/-- The square root of a non-negative real. -/
theorem sqrt_coe (r : ℝ) (h : 0 ≤ r) : Ideal.sqrt (r : EReal) = ((Real.sqrt r : ℝ) : EReal) := by
  show (if r < 0 then (⊥ : EReal) else (Real.sqrt r : EReal)) = _
  rw [if_neg (not_lt.mpr h)]

/-- The inverse square root of a positive real. -/
theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- A positive real times its inverse square root is its square root. -/
theorem mul_rsqrt_coe (r : ℝ) (h : 0 < r) : ((r : ℝ) : EReal) * Ideal.rsqrt (r : EReal) = ((Real.sqrt r : ℝ) : EReal) := by
  rw [rsqrt_coe r h, ← EReal.coe_mul]
  congr 1
  have hpos : 0 < Real.sqrt r := Real.sqrt_pos.mpr h
  rw [mul_inv_eq_iff_eq_mul₀ hpos.ne']
  exact (Real.mul_self_sqrt h.le).symm

/-- Two naturals below 2^32, as 32-bit words, are equal exactly when the numbers are. -/
theorem word_eq_of_lt (i j : ℕ) (hi : i < 2 ^ 32) (hj : j < 2 ^ 32) :
    IntOp.cmpi .eq (BitVec.ofNat 32 i) (BitVec.ofNat 32 j) = BitVec.ofBool (decide (i = j)) := by
  simp only [IntOp.cmpi]
  congr 1
  rw [Bool.eq_iff_iff, beq_iff_eq, decide_eq_true_iff]
  constructor
  · intro h
    have := congrArg BitVec.toNat h
    simp only [BitVec.toNat_ofNat] at this
    omega
  · intro h; rw [h]

end Cert.LibRealMask

end
-- ==== Proof.R1ValPay.lean ====
/- Region 1: the body's arithmetic read at an index, on the extended reals.

   One grid point sees 1024 rows `A r` and 512 rows `B cc` of the row matrix, their labels `la r`, `lb cc`, their
   numbers in the whole matrix `gr r`, `gc cc`, and the 1024 normalisers `nz r`. The body forms the 1024 x 512 block of
   similarities, the block of indicators of positive pairs (equal labels, different numbers), the block of log-ratios,
   and adds to each of two column accumulators a lane sum: of the log-ratios times the indicators, resp. of the indicators. -/
import proofs.«116760_j49323404427556_1_alg».proof.Proof.Gen.KernelIdeal.Skeleton
import proofs.«116760_j49323404427556_1_alg».proof.Proof.Spec
import proofs.«116760_j49323404427556_1_alg».proof.Proof.LibRealMask
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.KernelIdeal.Hand.R1

open Cert.KernelIdeal Cert.KernelIdeal.Gen
open Idealize.ShloMosaic Idealize.ShloMosaic.TcCoe Idealize.ShloMosaic.ValueIdx
open Idealize.SL.Sem

/-! ## The matrix product -/

/-- The matrix product's dimension numbers: rows times rows (the second operand is transposed first). -/
abbrev D1 : DotDims S1024x512 S512x512 S1024x512 := dot_S1024x512_S512x512_S1024x512_1_0_0_1_n_n

theorem lhs1_0 (j : S1024x512.Idx) (k : D1.contr.Idx) : (D1.lhsIdx j k 0 : ℕ) = j 0 := by
  simp [DotDims.lhsIdx, D1, dot_S1024x512_S512x512_S1024x512_1_0_0_1_n_n]; rfl
theorem lhs1_1 (j : S1024x512.Idx) (k : D1.contr.Idx) : (D1.lhsIdx j k 1 : ℕ) = k ⟨0, by decide⟩ := by
  simp [DotDims.lhsIdx, D1, dot_S1024x512_S512x512_S1024x512_1_0_0_1_n_n]; rfl
theorem rhs1_0 (j : S1024x512.Idx) (k : D1.contr.Idx) : (D1.rhsIdx j k 0 : ℕ) = k ⟨0, by decide⟩ := by
  simp [DotDims.rhsIdx, D1, dot_S1024x512_S512x512_S1024x512_1_0_0_1_n_n]; rfl
theorem rhs1_1 (j : S1024x512.Idx) (k : D1.contr.Idx) : (D1.rhsIdx j k 1 : ℕ) = j 1 := by
  simp [DotDims.rhsIdx, D1, dot_S1024x512_S512x512_S1024x512_1_0_0_1_n_n]; rfl

/-- The contraction's indices are `Fin 512`. -/
def contr1_512 : D1.contr.Idx ≃ Fin 512 := contrEquiv1 D1 512 rfl rfl

theorem contr1_512_symm_val (k : Fin 512) : ((contr1_512.symm k) ⟨0, by decide⟩ : ℕ) = k.val :=
  contrEquiv1_symm_val D1 512 rfl rfl k

/-- The matrix product at an entry: the inner product of the two rows. -/
theorem prod1_apply {A : Fin 1024 → Fin 512 → EReal} {B : Fin 512 → Fin 512 → EReal}
    (x0 : Vec Ideal S1024x512 .bf16) (x1 : Vec Ideal S512x512 .bf16)
    (hx0 : ∀ (r : Fin 1024) (k : Fin 512), x0 (ix2 r k) = A r k) (hx1 : ∀ (cc : Fin 512) (k : Fin 512), x1 (ix2 cc k) = B cc k)
    (h : S512x512.Transposes [1, 0] S512x512) (r : Fin 1024) (cc : Fin 512) :
    FloatOps.matmul (F := Ideal) (φ₁ := .bf16) (φ₂ := .bf16) D1 none x0 (transpose S512x512 [1, 0] x1 h) (constant S1024x512 .f32 0x00000000#32) (ix2 r cc)
      = ∑ k : Fin 512, A r k * B cc k := by
  rw [Ideal.matmul_constant_zero_apply, ← Equiv.sum_comp contr1_512.symm]
  refine Finset.sum_congr rfl fun k _ => ?_
  have e0 : D1.lhsIdx (ix2 r cc) (contr1_512.symm k) = ix2 r k := by
    funext a; apply Fin.ext
    match a with
    | ⟨0, _⟩ => exact lhs1_0 _ _
    | ⟨1, _⟩ => exact (lhs1_1 _ _).trans (contr1_512_symm_val k)
  have e1 : D1.rhsIdx (ix2 r cc) (contr1_512.symm k) = ix2 k cc := by
    funext a; apply Fin.ext
    match a with
    | ⟨0, _⟩ => exact (rhs1_0 _ _).trans (contr1_512_symm_val k)
    | ⟨1, _⟩ => exact rhs1_1 _ _
  rw [e0, e1, hx0, transpose_ix2_apply, hx1]

/-! ## The similarities -/

/-- The block's similarity of row `r` and row `cc`. -/
def costB (A : Fin 1024 → Fin 512 → EReal) (B : Fin 512 → Fin 512 → EReal) (r : Fin 1024) (cc : Fin 512) : EReal :=
  Ideal.exp (Cert.Spec.two * ∑ k : Fin 512, A r k * B cc k)

theorem pay5_apply {A : Fin 1024 → Fin 512 → EReal} {B : Fin 512 → Fin 512 → EReal}
    (x0 : Vec Ideal S1024x512 .bf16) (x1 : Vec Ideal S512x512 .bf16)
    (hx0 : ∀ (r : Fin 1024) (k : Fin 512), x0 (ix2 r k) = A r k) (hx1 : ∀ (cc : Fin 512) (k : Fin 512), x1 (ix2 cc k) = B cc k)
    (r : Fin 1024) (cc : Fin 512) : k1_pay5 (F := Ideal) x0 x1 (ix2 r cc) = costB A B r cc := by
  have e : k1_pay5 (F := Ideal) x0 x1 (ix2 r cc)
      = Ideal.exp (Ideal.ofBits .f32 0x40000000#32 * FloatOps.matmul (F := Ideal) (φ₁ := .bf16) (φ₂ := .bf16) D1 none x0 (transpose S512x512 [1, 0] x1 transposes_S512x512_p1_0_S512x512) (constant S1024x512 .f32 0x00000000#32) (ix2 r cc)) := by
    unfold k1_pay5
    simp only [shapeCast_self]
    rfl
  rw [e, prod1_apply x0 x1 hx0 hx1]
  rfl

/-! ## The normaliser's column -/

theorem pay7_apply (x4 : Vec Ideal S1024x1 .f32) (r : Fin 1024) :
    k1_pay7 (F := Ideal) x4 (ix2 r (0 : Fin 1)) = Cert.Spec.scale * x4 (ix2 r (0 : Fin 1)) := by
  unfold k1_pay7
  simp only [shapeCast_self]
  rfl

/-! ## The zero columns -/

theorem pay3_apply (y : S1024x1.Idx) : k1_pay3 (F := Ideal) y = 0 := by
  unfold k1_pay3
  simp only [shapeCast_self]
  exact Ideal.ofBits_zero_f32

theorem pay4_apply (y : S1024x1.Idx) : k1_pay4 (F := Ideal) y = 0 := by
  unfold k1_pay4
  simp only [shapeCast_self]
  exact Ideal.ofBits_zero_f32

/-! ## Layout steps at an index -/

/-- A `[a]` array cast to `[a, 1]` reads, at `(i, u)`, the operand at `i`. -/
theorem shapeCast_a_a1_apply' {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply' {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a `[1024, 512]` block into a column, read at a row: the sum over the row's 512 entries. -/
theorem laneSum_apply (src : FVec Ideal S1024x512 .f32) (h : S1024x512.Reduces [1] S1024) (hφ : FKind.Formats .f32)
    (hacc : (0x00000000#32 : BitVec 32) = 0x00000000#32) (hc : S1024.ShapeCasts S1024x1) (r : Fin 1024) :
    shapeCast S1024x1 (multiReduction .add [1] S1024 src 0x00000000#32 h hφ hacc) hc (ix2 r (0 : Fin 1))
      = ∑ cc : Fin 512, src (ix2 r cc) := by
  refine (shapeCast_a_a1_apply' _ hc r (0 : Fin 1)).trans ?_
  refine (Ideal.multiReduction_add_single src 0x00000000#32 h hφ hacc (ix1 r)).trans ?_
  refine Finset.sum_congr rfl fun cc _ => congrArg src ?_
  funext a
  match a with
  | ⟨0, _⟩ => rfl
  | ⟨1, _⟩ => rfl

/-! ## The two accumulations -/

/-- Accumulator 0 after the point: what it held plus the row's sum of the log-ratios times the indicators. -/
theorem pay1_apply (v11 v32 : FVec Ideal S1024x512 .f32) (v36 : FVec Ideal S1024x1 .f32) (v41 : Vec Ideal S1024x1 .f32) (r : Fin 1024) :
    k1_pay1 (F := Ideal) v11 v32 v36 v41 (ix2 r (0 : Fin 1))
      = v41 (ix2 r (0 : Fin 1)) + ∑ cc : Fin 512, Ideal.log (Ideal.div (v11 (ix2 r cc)) (v11 (ix2 r cc) + v36 (ix2 r (0 : Fin 1)))) * v32 (ix2 r cc) := by
  unfold k1_pay1
  simp only [shapeCast_self]
  refine (addf_apply _ _ _).trans ?_
  refine congrArg (v41 (ix2 r (0 : Fin 1)) + ·) ?_
  refine (laneSum_apply _ _ _ _ _ r).trans ?_
  refine Finset.sum_congr rfl fun cc _ => ?_
  show Ideal.log (Ideal.div (v11 (ix2 r cc)) (v11 (ix2 r cc) + broadcastTo S1024x512 v36 broadcasts_S1024x1_S1024x512 (ix2 r cc))) * v32 (ix2 r cc) = _
  rw [broadcastTo_a1_ab_apply']

/-- Accumulator 1 after the point: what it held plus the row's sum of the indicators. -/
theorem pay2_apply (v32 : FVec Ideal S1024x512 .f32) (v49 : Vec Ideal S1024x1 .f32) (r : Fin 1024) :
    k1_pay2 (F := Ideal) v32 v49 (ix2 r (0 : Fin 1)) = v49 (ix2 r (0 : Fin 1)) + ∑ cc : Fin 512, v32 (ix2 r cc) := by
  unfold k1_pay2
  simp only [shapeCast_self]
  refine (addf_apply _ _ _).trans ?_
  exact congrArg (v49 (ix2 r (0 : Fin 1)) + ·) (laneSum_apply _ _ _ _ _ r)

/-! ## The indicators of positive pairs -/

theorem cmpi_apply_r1 {s : Shape} {w : ℕ} (p : CmpIPredicate) (x y : IVec s w) (i : s.Idx) : cmpi p x y i = IntOp.cmpi p (x i) (y i) := rfl
theorem andi_apply_r1 {s : Shape} {w : ℕ} (x y : IVec s w) (i : s.Idx) : andi x y i = IntOp.andi (x i) (y i) := rfl
theorem xori_apply_r1 {s : Shape} {w : ℕ} (x y : IVec s w) (i : s.Idx) : xori x y i = IntOp.xori (x i) (y i) := rfl
theorem addi_apply_r1 {s : Shape} {w : ℕ} (x y : IVec s w) (i : s.Idx) : addi x y i = IntOp.addi (x i) (y i) := rfl

/-- Equality of two words, as the bit of the equality. -/
theorem cmpi_eq_bool {w : ℕ} (x y : BitVec w) : IntOp.cmpi .eq x y = BitVec.ofBool (decide (x = y)) := by
  simp only [IntOp.cmpi]
  congr 1

/-- A Boolean's bit flipped is the bit of its negation. -/
theorem xori_one_bool (a : Bool) : IntOp.xori (BitVec.ofBool a) 1#1 = BitVec.ofBool (!a) := by cases a <;> rfl

/-- A block's offset plus a coordinate, as 32-bit words: the word of the number. -/
theorem word_lin (b a m : ℕ) :
    IntOp.addi (BitVec.ofNat 32 b) (Scalar.muli (BitVec.ofNat 32 a) (BitVec.ofNat 32 m)) = BitVec.ofNat 32 (a * m + b) := by
  show BitVec.ofNat 32 b + BitVec.ofNat 32 a * BitVec.ofNat 32 m = _
  rw [← BitVec.ofNat_mul, ← BitVec.ofNat_add, Nat.add_comm]

/-- The indicator block at an entry: 1 where the labels agree and the two rows' numbers differ, else 0. -/
theorem pay6_apply {la : Fin 1024 → BitVec 32} {lb : Fin 512 → BitVec 32} (i : grid1.Coords)
    (x2 : Vec Ideal S1024x1 .i32) (x3 : Vec Ideal S1x512 .i32)
    (hx2 : ∀ r : Fin 1024, x2 (ix2 r (0 : Fin 1)) = la r) (hx3 : ∀ cc : Fin 512, x3 (ix2 (0 : Fin 1) cc) = lb cc)
    (r : Fin 1024) (cc : Fin 512) :
    k1_pay6 (F := Ideal) i x2 x3 (ix2 r cc)
      = if la r = lb cc ∧ (i 0).val * 1024 + r.val ≠ (i 1).val * 512 + cc.val then (1 : EReal) else 0 := by
  have h0 : (i 0).val < 8 := (i 0).isLt
  have h1 : (i 1).val < 16 := (i 1).isLt
  have e : k1_pay6 (F := Ideal) i x2 x3 (ix2 r cc)
      = Scalar.select (IntOp.andi (IntOp.cmpi .eq (la r) (lb cc))
          (IntOp.xori (IntOp.cmpi .eq (BitVec.ofNat 32 ((i 0).val * 1024 + r.val)) (BitVec.ofNat 32 ((i 1).val * 512 + cc.val))) 1#1))
          (Ideal.ofBits .f32 0x3F800000#32) (Ideal.ofBits .f32 0x00000000#32) := by
    unfold k1_pay6
    simp only [shapeCast_self]
    rw [select_apply, andi_apply_r1, xori_apply_r1, cmpi_apply_r1, cmpi_apply_r1, addi_apply_r1, addi_apply_r1,
      broadcastTo_a1_ab_apply', broadcastTo_1b_ab_apply, hx2, hx3, iota_single_apply, iota_single_apply]
    show Scalar.select (IntOp.andi (IntOp.cmpi .eq (la r) (lb cc))
          (IntOp.xori (IntOp.cmpi .eq (IntOp.addi (BitVec.ofNat 32 r.val) (Scalar.muli (BitVec.ofNat 32 (i 0).val) (BitVec.ofNat 32 1024)))
            (IntOp.addi (BitVec.ofNat 32 cc.val) (Scalar.muli (BitVec.ofNat 32 (i 1).val) (BitVec.ofNat 32 512)))) 1#1))
          (Ideal.ofBits .f32 0x3F800000#32) (Ideal.ofBits .f32 0x00000000#32) = _
    rw [word_lin, word_lin]
  rw [e, cmpi_eq_bool, Cert.LibRealMask.word_eq_of_lt _ _ (by omega) (by omega), xori_one_bool, Cert.LibRealMask.and_bool,
    Cert.LibRealMask.sel_bool, Ideal.ofBits_one_f32, Ideal.ofBits_zero_f32]
  by_cases hl : la r = lb cc <;> by_cases hn : (i 0).val * 1024 + r.val = (i 1).val * 512 + cc.val <;> simp [hl, hn]

end Cert.KernelIdeal.Hand.R1

end
-- ==== Proof.R1ValBlk.lean ====
/- Region 1: which rows and columns of the whole arrays a grid point's blocks are. Point `t` of the 8 x 16 grid is
   row block `t / 16`, column block `t % 16`: its 1024 rows are the rows `(t / 16) · 1024 + r`, its 512 columns the
   rows `(t % 16) · 512 + cc`. -/
import proofs.«116760_j49323404427556_1_alg».proof.Proof.R1Runs
import Idealize.ShloMosaic.Lib.ValueIdx
import Idealize.ShloMosaic.Lib.Pipeline.Value

set_option maxRecDepth 16384

noncomputable section

namespace Cert.KernelIdeal.Hand.R1

open Cert.KernelIdeal Cert.KernelIdeal.Gen
open Idealize.ShloMosaic Idealize.ShloMosaic.TcCoe Idealize.ShloMosaic.ValueIdx
open Idealize.SL.Sem

/-! ## The index maps, decided once over the grid -/

theorem idx1_0 : ∀ t : Fin cfg1.N, win1_0.index t 0 = t.val / 16 ∧ win1_0.index t 1 = 0 :=
  (by decide +kernel : ∀ t : Fin grid1.N, win1_0.index t 0 = t.val / 16 ∧ win1_0.index t 1 = 0)
theorem idx1_1 : ∀ t : Fin cfg1.N, win1_1.index t 0 = t.val % 16 ∧ win1_1.index t 1 = 0 :=
  (by decide +kernel : ∀ t : Fin grid1.N, win1_1.index t 0 = t.val % 16 ∧ win1_1.index t 1 = 0)
theorem idx1_2 : ∀ t : Fin cfg1.N, win1_2.index t 0 = t.val / 16 ∧ win1_2.index t 1 = 0 :=
  (by decide +kernel : ∀ t : Fin grid1.N, win1_2.index t 0 = t.val / 16 ∧ win1_2.index t 1 = 0)
theorem idx1_3 : ∀ t : Fin cfg1.N, win1_3.index t 0 = 0 ∧ win1_3.index t 1 = t.val % 16 :=
  (by decide +kernel : ∀ t : Fin grid1.N, win1_3.index t 0 = 0 ∧ win1_3.index t 1 = t.val % 16)
theorem idx1_4 : ∀ t : Fin cfg1.N, win1_4.index t 0 = t.val / 16 ∧ win1_4.index t 1 = 0 :=
  (by decide +kernel : ∀ t : Fin grid1.N, win1_4.index t 0 = t.val / 16 ∧ win1_4.index t 1 = 0)
theorem idx1_5 : ∀ t : Fin cfg1.N, win1_5.index t 0 = t.val / 16 ∧ win1_5.index t 1 = 0 :=
  (by decide +kernel : ∀ t : Fin grid1.N, win1_5.index t 0 = t.val / 16 ∧ win1_5.index t 1 = 0)
theorem idx1_6 : ∀ t : Fin cfg1.N, win1_6.index t 0 = t.val / 16 ∧ win1_6.index t 1 = 0 :=
  (by decide +kernel : ∀ t : Fin grid1.N, win1_6.index t 0 = t.val / 16 ∧ win1_6.index t 1 = 0)

/-- The grid point's coordinates: the row block and the column block. -/
theorem coords1 : ∀ t : Fin cfg1.N, ((grid1.coords t) 0).val = t.val / 16 ∧ ((grid1.coords t) 1).val = t.val % 16 :=
  (by decide +kernel : ∀ t : Fin grid1.N, ((grid1.coords t) 0).val = t.val / 16 ∧ ((grid1.coords t) 1).val = t.val % 16)

/-- Row `r` of the point's row block, as a row of the whole matrix. -/
def rowOf (t : Fin cfg1.N) (r : Fin 1024) : Fin 8192 :=
  ⟨t.val / 16 * 1024 + r.val, by have h := t.isLt; have hN : cfg1.N = 128 := N_1; have := r.isLt; omega⟩
/-- Column `cc` of the point's column block, as a row of the whole matrix. -/
def colOf (t : Fin cfg1.N) (cc : Fin 512) : Fin 8192 :=
  ⟨t.val % 16 * 512 + cc.val, by have := cc.isLt; omega⟩

theorem rowOf_val (t : Fin cfg1.N) (r : Fin 1024) : (rowOf t r).val = t.val / 16 * 1024 + r.val := rfl
theorem colOf_val (t : Fin cfg1.N) (cc : Fin 512) : (colOf t cc).val = t.val % 16 * 512 + cc.val := rfl

section Blocks
variable {F : FTy → Type} [FloatOps F]
variable (V : (c : Dev nD) → (b : Ref sig .tc) → Buf (Elt F) ((c : Thread nD τ).loc b)) (c : Dev nD)

/-- The point's block of 1024 rows. -/
theorem blk1_0 (t : Fin cfg1.N) (r : Fin 1024) (k : Fin 512) :
    iblk1 V c 0 t (ix2 r k) = V c main_v7 (ix2 (rowOf t r) k) := by
  unfold iblk1
  rw [View.read_apply]
  show V c main_v7 _ = V c main_v7 _
  refine congrArg (V c main_v7) (funext fun a => Fin.ext ?_)
  match a with
  | ⟨0, _⟩ => show win1_0.index t 0 * 1024 + 1 * r.val = t.val / 16 * 1024 + r.val; rw [(idx1_0 t).1]; omega
  | ⟨1, _⟩ => show win1_0.index t 1 * 512 + 1 * k.val = k.val; rw [(idx1_0 t).2]; omega

/-- The point's block of 512 rows (the columns of the similarity block). -/
theorem blk1_1 (t : Fin cfg1.N) (cc : Fin 512) (k : Fin 512) :
    iblk1 V c 1 t (ix2 cc k) = V c main_v7 (ix2 (colOf t cc) k) := by
  unfold iblk1
  rw [View.read_apply]
  show V c main_v7 _ = V c main_v7 _
  refine congrArg (V c main_v7) (funext fun a => Fin.ext ?_)
  match a with
  | ⟨0, _⟩ => show win1_1.index t 0 * 512 + 1 * cc.val = t.val % 16 * 512 + cc.val; rw [(idx1_1 t).1]; omega
  | ⟨1, _⟩ => show win1_1.index t 1 * 512 + 1 * k.val = k.val; rw [(idx1_1 t).2]; omega

/-- The labels of the point's 1024 rows. -/
theorem blk1_2 (t : Fin cfg1.N) (r : Fin 1024) :
    iblk1 V c 2 t (ix2 r (0 : Fin 1)) = V c main_v9 (ix2 (rowOf t r) (0 : Fin 1)) := by
  unfold iblk1
  rw [View.read_apply]
  show V c main_v9 _ = V c main_v9 _
  refine congrArg (V c main_v9) (funext fun a => Fin.ext ?_)
  match a with
  | ⟨0, _⟩ => show win1_2.index t 0 * 1024 + 1 * r.val = t.val / 16 * 1024 + r.val; rw [(idx1_2 t).1]; omega
  | ⟨1, _⟩ => show win1_2.index t 1 * 1 + 1 * 0 = 0; rw [(idx1_2 t).2]

/-- The labels of the point's 512 columns. -/
theorem blk1_3 (t : Fin cfg1.N) (cc : Fin 512) :
    iblk1 V c 3 t (ix2 (0 : Fin 1) cc) = V c main_v10 (ix2 (0 : Fin 1) (colOf t cc)) := by
  unfold iblk1
  rw [View.read_apply]
  show V c main_v10 _ = V c main_v10 _
  refine congrArg (V c main_v10) (funext fun a => Fin.ext ?_)
  match a with
  | ⟨0, _⟩ => show win1_3.index t 0 * 1 + 1 * 0 = 0; rw [(idx1_3 t).1]
  | ⟨1, _⟩ => show win1_3.index t 1 * 512 + 1 * cc.val = t.val % 16 * 512 + cc.val; rw [(idx1_3 t).2]; omega

/-- The normalisers of the point's 1024 rows. -/
theorem blk1_4 (t : Fin cfg1.N) (r : Fin 1024) :
    iblk1 V c 4 t (ix2 r (0 : Fin 1)) = V c main_v11 (ix2 (rowOf t r) (0 : Fin 1)) := by
  unfold iblk1
  rw [View.read_apply]
  show V c main_v11 _ = V c main_v11 _
  refine congrArg (V c main_v11) (funext fun a => Fin.ext ?_)
  match a with
  | ⟨0, _⟩ => show win1_4.index t 0 * 1024 + 1 * r.val = t.val / 16 * 1024 + r.val; rw [(idx1_4 t).1]; omega
  | ⟨1, _⟩ => show win1_4.index t 1 * 1 + 1 * 0 = 0; rw [(idx1_4 t).2]

end Blocks

end Cert.KernelIdeal.Hand.R1

end
-- ==== Proof.R1ValAcc.lean ====
/- Region 1: what the two carried accumulators hold after each grid point, on the extended reals. Within a row block
   (the 16 points `t` with one `t / 16`) accumulator 0 at row `r` holds, after the point of column block `t % 16`, the
   sum over the column blocks so far of the block's sum of log-ratios over positive pairs, accumulator 1 the number of
   positive pairs; after the last column block these are the whole rows' sums. -/
import proofs.«116760_j49323404427556_1_alg».proof.Proof.R1Pieces
import proofs.«116760_j49323404427556_1_alg».proof.Proof.R1ValPay
import proofs.«116760_j49323404427556_1_alg».proof.Proof.R1ValBlk
import proofs.«116760_j49323404427556_1_alg».proof.Proof.LibSumBlocks

set_option maxRecDepth 16384

noncomputable section

namespace Cert.KernelIdeal.Hand.R1

open Cert.KernelIdeal Cert.KernelIdeal.Gen
open Idealize.ShloMosaic Idealize.ShloMosaic.TcCoe Idealize.ShloMosaic.ValueIdx
open Idealize.SL.Sem

open Idealize.ShloMosaic.Pipeline (Dat)

section Acc
variable (V : (c : Dev nD) → (b : Ref sig .tc) → Buf (Elt Ideal) ((c : Thread nD τ).loc b)) (c : Dev nD)
  (o : Fin 8192 → Fin 512 → EReal) (l : Fin 8192 → BitVec 32)
  (h7 : ∀ (i : Fin 8192) (k : Fin 512), V c main_v7 (ix2 i k) = o i k)
  (h9 : ∀ i : Fin 8192, V c main_v9 (ix2 i (0 : Fin 1)) = l i)
  (h10 : ∀ j : Fin 8192, V c main_v10 (ix2 (0 : Fin 1) j) = l j)
  (h11 : ∀ i : Fin 8192, V c main_v11 (ix2 i (0 : Fin 1)) = Cert.Spec.nes o l i)

/-- Row `i`'s summand at column `j` for the first output: the log-ratio times the indicator. -/
def fSL (i : Fin 8192) (j : Fin 8192) : EReal := Cert.Spec.logr o l i j * Cert.Spec.pos l i j
/-- Row `i`'s summand at column `j` for the second output: the indicator. -/
def fCT (i : Fin 8192) (j : Fin 8192) : EReal := Cert.Spec.pos l i j

/-- The sum of `g` over column block `jb` (512 consecutive columns); nothing past the 16 blocks. -/
def blockSum (g : Fin 8192 → EReal) (jb : ℕ) : EReal :=
  if h : jb < 16 then ∑ cc : Fin 512, g ⟨jb * 512 + cc.val, by have := cc.isLt; omega⟩ else 0

/-- The point's column block's sum is the sum over the point's 512 columns. -/
theorem blockSum_point (g : Fin 8192 → EReal) (t : Fin cfg1.N) :
    blockSum g (t.val % 16) = ∑ cc : Fin 512, g (colOf t cc) := by
  unfold blockSum
  rw [dif_pos (Nat.mod_lt _ (by decide))]
  rfl

include h7 h9 h10 h11 in
/-- The first accumulation's addend at a point: the column block's sum of the row's summands. -/
theorem addend0 (t : Fin cfg1.N) (xs0 : Vec Ideal S1024x1 .f32) (r : Fin 1024) :
    k1_pay1 (F := Ideal) (k1_pay5 (iblk1 V c 0 t) (iblk1 V c 1 t)) (k1_pay6 (grid1.coords t) (iblk1 V c 2 t) (iblk1 V c 3 t)) (k1_pay7 (iblk1 V c 4 t)) xs0 (ix2 r (0 : Fin 1))
      = xs0 (ix2 r (0 : Fin 1)) + blockSum (fSL o l (rowOf t r)) (t.val % 16) := by
  rw [pay1_apply, blockSum_point]
  refine congrArg (xs0 (ix2 r (0 : Fin 1)) + ·) (Finset.sum_congr rfl fun cc _ => ?_)
  rw [pay5_apply (A := fun r k => o (rowOf t r) k) (B := fun cc k => o (colOf t cc) k) (iblk1 V c 0 t) (iblk1 V c 1 t)
      (fun r k => (blk1_0 V c t r k).trans (h7 _ _)) (fun cc k => (blk1_1 V c t cc k).trans (h7 _ _)) r cc,
    pay6_apply (la := fun r => l (rowOf t r)) (lb := fun cc => l (colOf t cc)) (grid1.coords t) (iblk1 V c 2 t) (iblk1 V c 3 t)
      (fun r => (blk1_2 V c t r).trans (h9 _)) (fun cc => (blk1_3 V c t cc).trans (h10 _)) r cc,
    pay7_apply (iblk1 V c 4 t) r, blk1_4 V c t r, h11]
  unfold fSL Cert.Spec.logr Cert.Spec.pos
  have hc : costB (fun r k => o (rowOf t r) k) (fun cc k => o (colOf t cc) k) r cc = Cert.Spec.cost o (rowOf t r) (colOf t cc) := rfl
  rw [hc, (coords1 t).1, (coords1 t).2]
  have hne : (t.val / 16 * 1024 + r.val ≠ t.val % 16 * 512 + cc.val) ↔ (rowOf t r ≠ colOf t cc) := by
    rw [Ne, Ne, Fin.ext_iff, rowOf_val, colOf_val]
  simp only [hne]

include h9 h10 in
/-- The second accumulation's addend at a point: the column block's number of positive pairs of the row. -/
theorem addend1 (t : Fin cfg1.N) (xs1 : Vec Ideal S1024x1 .f32) (r : Fin 1024) :
    k1_pay2 (F := Ideal) (k1_pay6 (grid1.coords t) (iblk1 V c 2 t) (iblk1 V c 3 t)) xs1 (ix2 r (0 : Fin 1))
      = xs1 (ix2 r (0 : Fin 1)) + blockSum (fCT l (rowOf t r)) (t.val % 16) := by
  rw [pay2_apply, blockSum_point]
  refine congrArg (xs1 (ix2 r (0 : Fin 1)) + ·) (Finset.sum_congr rfl fun cc _ => ?_)
  rw [pay6_apply (la := fun r => l (rowOf t r)) (lb := fun cc => l (colOf t cc)) (grid1.coords t) (iblk1 V c 2 t) (iblk1 V c 3 t)
      (fun r => (blk1_2 V c t r).trans (h9 _)) (fun cc => (blk1_3 V c t cc).trans (h10 _)) r cc]
  unfold fCT Cert.Spec.pos
  rw [(coords1 t).1, (coords1 t).2]
  have hne : (t.val / 16 * 1024 + r.val ≠ t.val % 16 * 512 + cc.val) ↔ (rowOf t r ≠ colOf t cc) := by
    rw [Ne, Ne, Fin.ext_iff, rowOf_val, colOf_val]
  simp only [hne]

/-! ## One point's step -/

include h7 h9 h10 h11 in
/-- At the first point of a row block the accumulators restart: zero plus the point's addends. -/
theorem step_first (t : Fin cfg1.N) (h0 : t.val % 16 = 0) (r : Fin 1024) :
    (outsAt1 V c t.val t.isLt).2.2.1 (ix2 r (0 : Fin 1)) = 0 + blockSum (fSL o l (rowOf t r)) (t.val % 16)
    ∧ (outsAt1 V c t.val t.isLt).2.2.2 (ix2 r (0 : Fin 1)) = 0 + blockSum (fCT l (rowOf t r)) (t.val % 16) := by
  have h1 : ¬t.val % 16 = 15 := by omega
  rw [outsAt1_A V c t h0 h1]
  unfold outs1_A
  dsimp only
  rw [sout1_A_0_eq, sout1_A_1_eq, addend0 V c o l h7 h9 h10 h11 t _ r, addend1 V c l h9 h10 t _ r, pay3_apply, pay4_apply]
  exact ⟨rfl, rfl⟩

include h7 h9 h10 h11 in
/-- At a later point of a row block the accumulators go on from what the point before left. -/
theorem step_next (t : Fin cfg1.N) (h0 : ¬t.val % 16 = 0) (r : Fin 1024) :
    (outsAt1 V c t.val t.isLt).2.2.1 (ix2 r (0 : Fin 1))
        = (outsAt1 V c (t.val - 1) (Nat.lt_of_le_of_lt (Nat.sub_le _ _) t.isLt)).2.2.1 (ix2 r (0 : Fin 1)) + blockSum (fSL o l (rowOf t r)) (t.val % 16)
    ∧ (outsAt1 V c t.val t.isLt).2.2.2 (ix2 r (0 : Fin 1))
        = (outsAt1 V c (t.val - 1) (Nat.lt_of_le_of_lt (Nat.sub_le _ _) t.isLt)).2.2.2 (ix2 r (0 : Fin 1)) + blockSum (fCT l (rowOf t r)) (t.val % 16) := by
  by_cases h1 : t.val % 16 = 15
  · rw [outsAt1_C V c t h0 h1]
    unfold outs1_C
    dsimp only
    rw [sout1_C_0_eq, sout1_C_1_eq, addend0 V c o l h7 h9 h10 h11 t _ r, addend1 V c l h9 h10 t _ r]
    exact ⟨rfl, rfl⟩
  · rw [outsAt1_B V c t h0 h1]
    unfold outs1_B
    dsimp only
    rw [sout1_B_0_eq, sout1_B_1_eq, addend0 V c o l h7 h9 h10 h11 t _ r, addend1 V c l h9 h10 t _ r]
    exact ⟨rfl, rfl⟩

/-- At the last point of a row block the two output blocks are stored with the two accumulators. -/
theorem out_last (t : Fin cfg1.N) (h1 : t.val % 16 = 15) :
    (outsAt1 V c t.val t.isLt).1 = (outsAt1 V c t.val t.isLt).2.2.1
    ∧ (outsAt1 V c t.val t.isLt).2.1 = (outsAt1 V c t.val t.isLt).2.2.2 := by
  have h0 : ¬t.val % 16 = 0 := by omega
  rw [outsAt1_C V c t h0 h1]
  unfold outs1_C
  dsimp only
  rw [out1_C_5_eq, out1_C_6_eq, sout1_C_0_eq, sout1_C_1_eq]
  exact ⟨rfl, rfl⟩

/-! ## The running sums -/

include h7 h9 h10 h11 in
/-- After point `n`, row `r` of the accumulators holds the sums over the column blocks `0 … n % 16`. -/
theorem acc_eq : ∀ (n : ℕ) (hn : n < cfg1.N) (r : Fin 1024),
    (outsAt1 V c n hn).2.2.1 (ix2 r (0 : Fin 1)) = ∑ jb ∈ Finset.range (n % 16 + 1), blockSum (fSL o l (rowOf ⟨n, hn⟩ r)) jb
    ∧ (outsAt1 V c n hn).2.2.2 (ix2 r (0 : Fin 1)) = ∑ jb ∈ Finset.range (n % 16 + 1), blockSum (fCT l (rowOf ⟨n, hn⟩ r)) jb
  | 0, hn, r => by
    have hs := step_first V c o l h7 h9 h10 h11 ⟨0, hn⟩ rfl r
    refine ⟨hs.1.trans ?_, hs.2.trans ?_⟩ <;>
    · show (0 : EReal) + _ = ∑ jb ∈ Finset.range 1, _
      rw [Finset.sum_range_one, zero_add]
      rfl
  | n + 1, hn, r => by
    by_cases h0 : (n + 1) % 16 = 0
    · have hs := step_first V c o l h7 h9 h10 h11 ⟨n + 1, hn⟩ h0 r
      refine ⟨hs.1.trans ?_, hs.2.trans ?_⟩ <;>
      · show (0 : EReal) + blockSum _ ((n + 1) % 16) = ∑ jb ∈ Finset.range ((n + 1) % 16 + 1), _
        rw [h0, Finset.sum_range_one, zero_add]
    · have hs := step_next V c o l h7 h9 h10 h11 ⟨n + 1, hn⟩ h0 r
      have ih := acc_eq n (Nat.lt_of_succ_lt hn) r
      have hrow : rowOf ⟨n, Nat.lt_of_succ_lt hn⟩ r = rowOf ⟨n + 1, hn⟩ r := by
        apply Fin.ext
        rw [rowOf_val, rowOf_val]
        show n / 16 * 1024 + r.val = (n + 1) / 16 * 1024 + r.val
        have : (n + 1) / 16 = n / 16 := by omega
        rw [this]
      have hmod : (n + 1) % 16 = n % 16 + 1 := by omega
      refine ⟨hs.1.trans ?_, hs.2.trans ?_⟩
      · show (outsAt1 V c n _).2.2.1 (ix2 r (0 : Fin 1)) + blockSum _ ((n + 1) % 16) = ∑ jb ∈ Finset.range ((n + 1) % 16 + 1), _
        rw [ih.1, hrow, hmod, Finset.sum_range_succ (n := n % 16 + 1)]
      · show (outsAt1 V c n _).2.2.2 (ix2 r (0 : Fin 1)) + blockSum _ ((n + 1) % 16) = ∑ jb ∈ Finset.range ((n + 1) % 16 + 1), _
        rw [ih.2, hrow, hmod, Finset.sum_range_succ (n := n % 16 + 1)]

/-- The sum over the 16 column blocks is the sum over all 8192 columns. -/
theorem blocks_total (g : Fin 8192 → EReal) : ∑ jb ∈ Finset.range 16, blockSum g jb = ∑ j : Fin 8192, g j := by
  rw [Cert.LibSumBlocks.sum_blocks 16 512 8192 rfl g, ← Fin.sum_univ_eq_sum_range (fun jb => blockSum g jb) 16]
  refine Finset.sum_congr rfl fun jb _ => ?_
  unfold blockSum
  rw [dif_pos jb.isLt]

include h7 h9 h10 h11 in
/-- After the last point of a row block, the two output blocks hold the rows' whole sums. -/
theorem out_rows (t : Fin cfg1.N) (h1 : t.val % 16 = 15) (r : Fin 1024) :
    (outsAt1 V c t.val t.isLt).1 (ix2 r (0 : Fin 1)) = Cert.Spec.sl o l (rowOf t r)
    ∧ (outsAt1 V c t.val t.isLt).2.1 (ix2 r (0 : Fin 1)) = Cert.Spec.ct l (rowOf t r) := by
  have ho := out_last V c t h1
  have ha := acc_eq V c o l h7 h9 h10 h11 t.val t.isLt r
  rw [ho.1, ho.2]
  refine ⟨ha.1.trans ?_, ha.2.trans ?_⟩
  · rw [h1]; exact blocks_total _
  · rw [h1]; exact blocks_total _

end Acc

end Cert.KernelIdeal.Hand.R1

end
-- ==== Proof.KCover.lean ====
/-
  From the points to the arrays: the three [8192, 1] output arrays of the two kernels.

  Each output window has blocks of 1024 rows; at grid point `t` its block is the row block `⌊t / 16⌋`, and the staging
  buffer is written back exactly at the last point of each row block (`t ≡ 15 mod 16`), idle at the others. So the
  eight writing points' blocks tile the 8192 rows: row `i` is written by the point `⌊i / 1024⌋ · 16 + 15`, from the
  staging buffer's row `i mod 1024`. Whatever column `G` the writing points' staging buffers agree with, row by row,
  the array holds after the run. Nothing here looks inside a kernel body.
-/
import proofs.«116760_j49323404427556_1_alg».proof.Proof.R0
import proofs.«116760_j49323404427556_1_alg».proof.Proof.R1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat)

variable {F : FTy → Type} [FloatOps F]

/-- A column of 8192 values as an [8192, 1] array. -/
def colOf (G : Fin 8192 → Elt F .f32) : S8192x1.Idx → Elt F .f32 := fun y => G ⟨(y 0).val, idx2_lt0 y⟩

/-! ## The output windows' block indices, decided once over each grid -/

theorem out_index0_4 : ∀ t : Fin cfg0.N, win0_4.index t (0 : Fin 2) = t.val / 16 ∧ win0_4.index t (1 : Fin 2) = 0 :=
  (by decide +kernel : ∀ t : Fin grid0.N, _)
theorem out_index1_5 : ∀ t : Fin cfg1.N, win1_5.index t (0 : Fin 2) = t.val / 16 ∧ win1_5.index t (1 : Fin 2) = 0 :=
  (by decide +kernel : ∀ t : Fin grid1.N, _)
theorem out_index1_6 : ∀ t : Fin cfg1.N, win1_6.index t (0 : Fin 2) = t.val / 16 ∧ win1_6.index t (1 : Fin 2) = 0 :=
  (by decide +kernel : ∀ t : Fin grid1.N, _)

/-! ## Region 0, output window 4 -/

section Window0_4
variable (V : (c : Dev nD) → (b : Ref sig .tc) → Buf (Elt F) ((c : Thread nD τ).loc b)) (q : Fin cfg0.W → PosShare TreeShare)
  (c : Dev nD) (G : Fin 8192 → Elt F .f32)
  (hpt : ∀ t : Fin cfg0.N, t.val % 16 = 15 → ∀ (rr : Fin 1024) (i : Fin 8192), i.val = t.val / 16 * 1024 + rr.val →
    (outsAt0 V c t.val t.isLt).1 (ix2 rr (0 : Fin 1)) = G i)

include hpt in
/-- What a flushing point writes back is its block of the column `G`: the staging buffer's row `rr` goes to row
    `⌊t / 16⌋ · 1024 + rr` of the array. -/
theorem arr0_flushed (t : Fin cfg0.N) (hf : (cfg0.win 4).flush t = true) :
    (dat0 (F := F) V q c).flushed 4 t = ((cfg0.win 4).blk t).view.read (Elt F) (colOf G) := by
  have h15 : t.val % 16 = 15 := (flush0_4 t).mp hf
  have e0 := (out_index0_4 t).1
  show (cfg0.win 4).cut (grid0.coords t) ((dat0 (F := F) V q c).after 4 t) = _
  rw [after0_4]
  funext y
  obtain ⟨r, u, rfl⟩ : ∃ (r : Fin 1024) (u : Fin 1), y = ix2 r u := ⟨y 0, y 1, eq_ix2 y⟩
  obtain rfl : u = 0 := Subsingleton.elim _ _
  show (outsAt0 V c t.val t.isLt).1 (ix2 r (0 : Fin 1)) = G ⟨((((cfg0.win 4).blk t).view.emb (ix2 r (0 : Fin 1))) 0).val, _⟩
  refine hpt t h15 r _ ?_
  show win0_4.index t (0 : Fin 2) * 1024 + 1 * r.val = _
  rw [e0]; omega

/-- An index of the array is in point `t`'s block iff each coordinate is in the block's range on its axis. -/
theorem arr0_mem_blk (t : Fin cfg0.N) (i : S8192x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v11).slice (win0_4.rect t)).set ↔ _
  rw [View.set_slice_whole, Rect.mem_set_unit]
  exact Iff.rfl

/-- Row `i` is in the block of the last point of its row block, the point `⌊i / 1024⌋ · 16 + 15`, which writes back. -/
theorem arr0_cover (i : S8192x1.Idx) :
    ∃ t : Fin cfg0.N, (cfg0.win 4).flush t = true ∧ i ∈ ((cfg0.win 4).blk t).view.set := by
  have hi0 : (i 0).val < 8192 := idx2_lt0 i
  have hi1 : (i 1).val < 1 := idx2_lt1 i
  have hN : cfg0.N = 128 := N_0
  have ht : (i 0).val / 1024 * 16 + 15 < cfg0.N := by rw [hN]; omega
  obtain ⟨e0, e1⟩ := out_index0_4 ⟨(i 0).val / 1024 * 16 + 15, ht⟩
  refine ⟨⟨(i 0).val / 1024 * 16 + 15, ht⟩, (flush0_4 _).mpr (by show ((i 0).val / 1024 * 16 + 15) % 16 = 15; omega), ?_⟩
  rw [arr0_mem_blk]
  intro a
  match a with
  | ⟨0, _⟩ =>
    show win0_4.index ⟨(i 0).val / 1024 * 16 + 15, ht⟩ (0 : Fin 2) * 1024 ≤ (i 0).val
      ∧ (i 0).val < win0_4.index ⟨(i 0).val / 1024 * 16 + 15, ht⟩ (0 : Fin 2) * 1024 + 1024
    rw [e0]
    show ((i 0).val / 1024 * 16 + 15) / 16 * 1024 ≤ (i 0).val ∧ (i 0).val < ((i 0).val / 1024 * 16 + 15) / 16 * 1024 + 1024
    omega
  | ⟨1, _⟩ =>
    show win0_4.index ⟨(i 0).val / 1024 * 16 + 15, ht⟩ (1 : Fin 2) * 1 ≤ (i 1).val
      ∧ (i 1).val < win0_4.index ⟨(i 0).val / 1024 * 16 + 15, ht⟩ (1 : Fin 2) * 1 + 1
    rw [e1]; omega

include hpt in
/-- FROM THE POINTS TO THE ARRAY: if every flushing point leaves row `rr` of the staging buffer at `G` of the
    array row it is written back to, the array ends holding `G` row by row. -/
theorem arr0_of_points (i : Fin 8192) : (dat0 (F := F) V q c).arrAt 4 cfg0.N (ix2 i (0 : Fin 1)) = G i := by
  rw [(dat0 (F := F) V q c).arrAt_eq_of_cover 4 (colOf G) (arr0_flushed V q c G hpt) (arr0_cover)]
  rfl

end Window0_4

/-! ## Region 1, output window 5 -/

section Window1_5
variable (V : (c : Dev nD) → (b : Ref sig .tc) → Buf (Elt F) ((c : Thread nD τ).loc b)) (q : Fin cfg1.W → PosShare TreeShare)
  (c : Dev nD) (G : Fin 8192 → Elt F .f32)
  (hpt : ∀ t : Fin cfg1.N, t.val % 16 = 15 → ∀ (rr : Fin 1024) (i : Fin 8192), i.val = t.val / 16 * 1024 + rr.val →
    (outsAt1 V c t.val t.isLt).1 (ix2 rr (0 : Fin 1)) = G i)

include hpt in
/-- What a flushing point writes back is its block of the column `G`: the staging buffer's row `rr` goes to row
    `⌊t / 16⌋ · 1024 + rr` of the array. -/
theorem arr1_5_flushed (t : Fin cfg1.N) (hf : (cfg1.win 5).flush t = true) :
    (dat1 (F := F) V q c).flushed 5 t = ((cfg1.win 5).blk t).view.read (Elt F) (colOf G) := by
  have h15 : t.val % 16 = 15 := (flush1_5 t).mp hf
  have e0 := (out_index1_5 t).1
  show (cfg1.win 5).cut (grid1.coords t) ((dat1 (F := F) V q c).after 5 t) = _
  rw [after1_5]
  funext y
  obtain ⟨r, u, rfl⟩ : ∃ (r : Fin 1024) (u : Fin 1), y = ix2 r u := ⟨y 0, y 1, eq_ix2 y⟩
  obtain rfl : u = 0 := Subsingleton.elim _ _
  show (outsAt1 V c t.val t.isLt).1 (ix2 r (0 : Fin 1)) = G ⟨((((cfg1.win 5).blk t).view.emb (ix2 r (0 : Fin 1))) 0).val, _⟩
  refine hpt t h15 r _ ?_
  show win1_5.index t (0 : Fin 2) * 1024 + 1 * r.val = _
  rw [e0]; omega

/-- An index of the array is in point `t`'s block iff each coordinate is in the block's range on its axis. -/
theorem arr1_5_mem_blk (t : Fin cfg1.N) (i : S8192x1.Idx) :
    i ∈ ((cfg1.win 5).blk t).view.set ↔ ∀ a : Fin 2, win1_5.index t a * S1024x1.size a ≤ (i a).val
      ∧ (i a).val < win1_5.index t a * S1024x1.size a + S1024x1.size a := by
  show i ∈ ((View.whole main_v12_0).slice (win1_5.rect t)).set ↔ _
  rw [View.set_slice_whole, Rect.mem_set_unit]
  exact Iff.rfl

/-- Row `i` is in the block of the last point of its row block, the point `⌊i / 1024⌋ · 16 + 15`, which writes back. -/
theorem arr1_5_cover (i : S8192x1.Idx) :
    ∃ t : Fin cfg1.N, (cfg1.win 5).flush t = true ∧ i ∈ ((cfg1.win 5).blk t).view.set := by
  have hi0 : (i 0).val < 8192 := idx2_lt0 i
  have hi1 : (i 1).val < 1 := idx2_lt1 i
  have hN : cfg1.N = 128 := N_1
  have ht : (i 0).val / 1024 * 16 + 15 < cfg1.N := by rw [hN]; omega
  obtain ⟨e0, e1⟩ := out_index1_5 ⟨(i 0).val / 1024 * 16 + 15, ht⟩
  refine ⟨⟨(i 0).val / 1024 * 16 + 15, ht⟩, (flush1_5 _).mpr (by show ((i 0).val / 1024 * 16 + 15) % 16 = 15; omega), ?_⟩
  rw [arr1_5_mem_blk]
  intro a
  match a with
  | ⟨0, _⟩ =>
    show win1_5.index ⟨(i 0).val / 1024 * 16 + 15, ht⟩ (0 : Fin 2) * 1024 ≤ (i 0).val
      ∧ (i 0).val < win1_5.index ⟨(i 0).val / 1024 * 16 + 15, ht⟩ (0 : Fin 2) * 1024 + 1024
    rw [e0]
    show ((i 0).val / 1024 * 16 + 15) / 16 * 1024 ≤ (i 0).val ∧ (i 0).val < ((i 0).val / 1024 * 16 + 15) / 16 * 1024 + 1024
    omega
  | ⟨1, _⟩ =>
    show win1_5.index ⟨(i 0).val / 1024 * 16 + 15, ht⟩ (1 : Fin 2) * 1 ≤ (i 1).val
      ∧ (i 1).val < win1_5.index ⟨(i 0).val / 1024 * 16 + 15, ht⟩ (1 : Fin 2) * 1 + 1
    rw [e1]; omega

include hpt in
/-- FROM THE POINTS TO THE ARRAY: if every flushing point leaves row `rr` of the staging buffer of the first output at `G` of the
    array row it is written back to, the array ends holding `G` row by row. -/
theorem arr1_5_of_points (i : Fin 8192) : (dat1 (F := F) V q c).arrAt 5 cfg1.N (ix2 i (0 : Fin 1)) = G i := by
  rw [(dat1 (F := F) V q c).arrAt_eq_of_cover 5 (colOf G) (arr1_5_flushed V q c G hpt) (arr1_5_cover)]
  rfl

end Window1_5

/-! ## Region 1, output window 6 -/

section Window1_6
variable (V : (c : Dev nD) → (b : Ref sig .tc) → Buf (Elt F) ((c : Thread nD τ).loc b)) (q : Fin cfg1.W → PosShare TreeShare)
  (c : Dev nD) (G : Fin 8192 → Elt F .f32)
  (hpt : ∀ t : Fin cfg1.N, t.val % 16 = 15 → ∀ (rr : Fin 1024) (i : Fin 8192), i.val = t.val / 16 * 1024 + rr.val →
    (outsAt1 V c t.val t.isLt).2.1 (ix2 rr (0 : Fin 1)) = G i)

include hpt in
/-- What a flushing point writes back is its block of the column `G`: the staging buffer's row `rr` goes to row
    `⌊t / 16⌋ · 1024 + rr` of the array. -/
theorem arr1_6_flushed (t : Fin cfg1.N) (hf : (cfg1.win 6).flush t = true) :
    (dat1 (F := F) V q c).flushed 6 t = ((cfg1.win 6).blk t).view.read (Elt F) (colOf G) := by
  have h15 : t.val % 16 = 15 := (flush1_6 t).mp hf
  have e0 := (out_index1_6 t).1
  show (cfg1.win 6).cut (grid1.coords t) ((dat1 (F := F) V q c).after 6 t) = _
  rw [after1_6]
  funext y
  obtain ⟨r, u, rfl⟩ : ∃ (r : Fin 1024) (u : Fin 1), y = ix2 r u := ⟨y 0, y 1, eq_ix2 y⟩
  obtain rfl : u = 0 := Subsingleton.elim _ _
  show (outsAt1 V c t.val t.isLt).2.1 (ix2 r (0 : Fin 1)) = G ⟨((((cfg1.win 6).blk t).view.emb (ix2 r (0 : Fin 1))) 0).val, _⟩
  refine hpt t h15 r _ ?_
  show win1_6.index t (0 : Fin 2) * 1024 + 1 * r.val = _
  rw [e0]; omega

/-- An index of the array is in point `t`'s block iff each coordinate is in the block's range on its axis. -/
theorem arr1_6_mem_blk (t : Fin cfg1.N) (i : S8192x1.Idx) :
    i ∈ ((cfg1.win 6).blk t).view.set ↔ ∀ a : Fin 2, win1_6.index t a * S1024x1.size a ≤ (i a).val
      ∧ (i a).val < win1_6.index t a * S1024x1.size a + S1024x1.size a := by
  show i ∈ ((View.whole main_v12_1).slice (win1_6.rect t)).set ↔ _
  rw [View.set_slice_whole, Rect.mem_set_unit]
  exact Iff.rfl

/-- Row `i` is in the block of the last point of its row block, the point `⌊i / 1024⌋ · 16 + 15`, which writes back. -/
theorem arr1_6_cover (i : S8192x1.Idx) :
    ∃ t : Fin cfg1.N, (cfg1.win 6).flush t = true ∧ i ∈ ((cfg1.win 6).blk t).view.set := by
  have hi0 : (i 0).val < 8192 := idx2_lt0 i
  have hi1 : (i 1).val < 1 := idx2_lt1 i
  have hN : cfg1.N = 128 := N_1
  have ht : (i 0).val / 1024 * 16 + 15 < cfg1.N := by rw [hN]; omega
  obtain ⟨e0, e1⟩ := out_index1_6 ⟨(i 0).val / 1024 * 16 + 15, ht⟩
  refine ⟨⟨(i 0).val / 1024 * 16 + 15, ht⟩, (flush1_6 _).mpr (by show ((i 0).val / 1024 * 16 + 15) % 16 = 15; omega), ?_⟩
  rw [arr1_6_mem_blk]
  intro a
  match a with
  | ⟨0, _⟩ =>
    show win1_6.index ⟨(i 0).val / 1024 * 16 + 15, ht⟩ (0 : Fin 2) * 1024 ≤ (i 0).val
      ∧ (i 0).val < win1_6.index ⟨(i 0).val / 1024 * 16 + 15, ht⟩ (0 : Fin 2) * 1024 + 1024
    rw [e0]
    show ((i 0).val / 1024 * 16 + 15) / 16 * 1024 ≤ (i 0).val ∧ (i 0).val < ((i 0).val / 1024 * 16 + 15) / 16 * 1024 + 1024
    omega
  | ⟨1, _⟩ =>
    show win1_6.index ⟨(i 0).val / 1024 * 16 + 15, ht⟩ (1 : Fin 2) * 1 ≤ (i 1).val
      ∧ (i 1).val < win1_6.index ⟨(i 0).val / 1024 * 16 + 15, ht⟩ (1 : Fin 2) * 1 + 1
    rw [e1]; omega

include hpt in
/-- FROM THE POINTS TO THE ARRAY: if every flushing point leaves row `rr` of the staging buffer of the second output at `G` of the
    array row it is written back to, the array ends holding `G` row by row. -/
theorem arr1_6_of_points (i : Fin 8192) : (dat1 (F := F) V q c).arrAt 6 cfg1.N (ix2 i (0 : Fin 1)) = G i := by
  rw [(dat1 (F := F) V q c).arrAt_eq_of_cover 6 (colOf G) (arr1_6_flushed V q c G hpt) (arr1_6_cover)]
  rfl

end Window1_6

end Cert.KernelIdeal.Hand

end
-- ==== Proof.R1Val.lean ====
/- Region 1's value on the extended reals: after the second kernel call, row `i` of its first result array holds row
   `i`'s sum of log-ratios over its positive pairs and row `i` of its second result array the number of them — for any
   contents of the core's buffers at the region's entry whose four operand arrays are the rows, the labels (as a column
   and as a row) and the normalisers. From the per-point values (the last point of each row block stores the two
   accumulators' whole-row sums) and the write-backs' cover of the arrays. -/
import proofs.«116760_j49323404427556_1_alg».proof.Proof.R1ValAcc
import proofs.«116760_j49323404427556_1_alg».proof.Proof.KCover

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem

theorem out12_value (V : (c : Dev nD) → (b : Ref sig .tc) → Buf (Elt Ideal) ((c : Thread nD τ).loc b)) (q : Fin cfg1.W → PosShare TreeShare) (c : Dev nD)
    (o : Fin 8192 → Fin 512 → EReal) (l : Fin 8192 → BitVec 32)
    (h7 : ∀ (i : Fin 8192) (k : Fin 512), V c main_v7 (ValueIdx.ix2 i k) = o i k)
    (h9 : ∀ i : Fin 8192, V c main_v9 (ValueIdx.ix2 i (0 : Fin 1)) = l i)
    (h10 : ∀ j : Fin 8192, V c main_v10 (ValueIdx.ix2 (0 : Fin 1) j) = l j)
    (h11 : ∀ i : Fin 8192, V c main_v11 (ValueIdx.ix2 i (0 : Fin 1)) = Cert.Spec.nes o l i) :
    (∀ i : Fin 8192, (dat1 (F := Ideal) V q c).arrAt 5 cfg1.N (ValueIdx.ix2 i (0 : Fin 1)) = Cert.Spec.sl o l i)
    ∧ (∀ i : Fin 8192, (dat1 (F := Ideal) V q c).arrAt 6 cfg1.N (ValueIdx.ix2 i (0 : Fin 1)) = Cert.Spec.ct l i) :=
  ⟨fun i => arr1_5_of_points V q c (fun i => Cert.Spec.sl o l i) (fun t h15 rr i hi => by
      obtain rfl : i = R1.rowOf t rr := Fin.ext (hi.trans (R1.rowOf_val t rr).symm)
      exact (R1.out_rows V c o l h7 h9 h10 h11 t h15 rr).1) i,
   fun i => arr1_6_of_points V q c (fun i => Cert.Spec.ct l i) (fun t h15 rr i hi => by
      obtain rfl : i = R1.rowOf t rr := Fin.ext (hi.trans (R1.rowOf_val t rr).symm)
      exact (R1.out_rows V c o l h7 h9 h10 h11 t h15 rr).2) i⟩

end Cert.KernelIdeal.Hand

end
-- ==== Proof.RefRows.lean ====
/-
  The two pieces of data the loss is a function of, as the reference computes them from its arguments.

  The rows: each of the two 4096 × 512 inputs is l2-normalised row by row — every entry divided by the square root of
  its row's sum of squares, that root broadcast back along the row — and the two normalised halves are laid end to
  end along the row axis into one 8192 × 512 array. The labels: the 4096 index words laid end to end with themselves.
  Both are kept as whole-array terms (the chain of array operations, never opened): whoever computes the same chain on
  the same inputs has the same rows, whatever the chain means entry by entry. The shape conditions the operations
  take are arguments of the array terms, so the terms can be met under any proofs of them; `rows` and `labels` read
  the arrays entry by entry under the conditions proved here by evaluation.
-/
import Idealize.ShloMosaic.PureOps.Ideal
import Idealize.ShloMosaic.Lib.ValueIdx

noncomputable section

namespace Cert.RefValue

open Idealize.ShloMosaic

/-- The 8192 × 512 array of l2-normalised rows: `x / sqrt (Σ_k x·x)` for each half, the two halves joined along
    axis 0. -/
def rowsArr
    (hred : Shape.ReducesTo (⟨2, ![4096, 512]⟩ : Shape) [1] (⟨1, ![4096]⟩ : Shape))
    (h0 : 0 < (⟨0, ![]⟩ : Shape).numel)
    (hb1 : Shape.BroadcastsInDim (⟨1, ![4096]⟩ : Shape) (⟨2, ![4096, 1]⟩ : Shape) (![0] : Fin 1 → Fin 2))
    (hb2 : Shape.BroadcastsInDim (⟨2, ![4096, 1]⟩ : Shape) (⟨2, ![4096, 512]⟩ : Shape) (![0, 1] : Fin 2 → Fin 2))
    (hc : Shape.Concatenates [(⟨2, ![4096, 512]⟩ : Shape), (⟨2, ![4096, 512]⟩ : Shape)] (⟨2, ![8192, 512]⟩ : Shape) 0)
    (a1 a2 : FVec Ideal ⟨2, ![4096, 512]⟩ .f32) : FVec Ideal ⟨2, ![8192, 512]⟩ .f32 :=
  concatenate (⟨2, ![8192, 512]⟩ : Shape) 0
    [⟨(⟨2, ![4096, 512]⟩ : Shape), (Host.divf a1 (broadcastInDim (⟨2, ![4096, 512]⟩ : Shape) ![0, 1] hb2 (Host.sqrt (broadcastInDim (⟨2, ![4096, 1]⟩ : Shape) ![0] hb1 (Host.reduceAdd (mulf a1 a1) (constant (F := Ideal) (⟨0, ![]⟩ : Shape) .f32 0x00000000#32) hred h0)))))⟩,
     ⟨(⟨2, ![4096, 512]⟩ : Shape), (Host.divf a2 (broadcastInDim (⟨2, ![4096, 512]⟩ : Shape) ![0, 1] hb2 (Host.sqrt (broadcastInDim (⟨2, ![4096, 1]⟩ : Shape) ![0] hb1 (Host.reduceAdd (mulf a2 a2) (constant (F := Ideal) (⟨0, ![]⟩ : Shape) .f32 0x00000000#32) hred h0)))))⟩]
    hc

/-- The 8192 labels: the 4096 index words twice, joined along axis 0. -/
def labelsArr
    (hc : Shape.Concatenates [(⟨1, ![4096]⟩ : Shape), (⟨1, ![4096]⟩ : Shape)] (⟨1, ![8192]⟩ : Shape) 0)
    (a3 : IVec ⟨1, ![4096]⟩ 32) : IVec ⟨1, ![8192]⟩ 32 :=
  concatenate (⟨1, ![8192]⟩ : Shape) 0 [⟨(⟨1, ![4096]⟩ : Shape), a3⟩, ⟨(⟨1, ![4096]⟩ : Shape), a3⟩] hc

/-! The shape conditions, by evaluation on the literal shapes. -/

theorem rows_reduces : Shape.ReducesTo (⟨2, ![4096, 512]⟩ : Shape) [1] (⟨1, ![4096]⟩ : Shape) := by decide
theorem scalar_nonempty : 0 < (⟨0, ![]⟩ : Shape).numel := by decide
theorem rows_bcast_col : Shape.BroadcastsInDim (⟨1, ![4096]⟩ : Shape) (⟨2, ![4096, 1]⟩ : Shape) (![0] : Fin 1 → Fin 2) := by
  decide
theorem rows_bcast_row :
    Shape.BroadcastsInDim (⟨2, ![4096, 1]⟩ : Shape) (⟨2, ![4096, 512]⟩ : Shape) (![0, 1] : Fin 2 → Fin 2) := by decide
theorem rows_concat :
    Shape.Concatenates [(⟨2, ![4096, 512]⟩ : Shape), (⟨2, ![4096, 512]⟩ : Shape)] (⟨2, ![8192, 512]⟩ : Shape) 0 := by decide
theorem labels_concat :
    Shape.Concatenates [(⟨1, ![4096]⟩ : Shape), (⟨1, ![4096]⟩ : Shape)] (⟨1, ![8192]⟩ : Shape) 0 := by decide

/-- Row `i`'s entry `k`. -/
def rows (a1 a2 : FVec Ideal ⟨2, ![4096, 512]⟩ .f32) : Fin 8192 → Fin 512 → EReal :=
  fun i k => rowsArr rows_reduces scalar_nonempty rows_bcast_col rows_bcast_row rows_concat a1 a2 (ValueIdx.ix2 i k)

/-- Row `i`'s label. -/
def labels (a3 : IVec ⟨1, ![4096]⟩ 32) : Fin 8192 → BitVec 32 :=
  fun i => labelsArr labels_concat a3 (ValueIdx.ix1 i)

end Cert.RefValue

end
-- ==== Proof.KHost.lean ====
/-
  The kernel program's operations around its two kernels, at the extended reals.

  Before the kernels the program computes, with the same whole-array operations as the reference, the 8192 × 512 array
  of l2-normalised rows (then a change of float format, the identity on extended reals) and the 8192 labels, which it
  lays out once as a column [8192, 1] and once as a row [1, 8192]: a reshape keeps the row-major order, so entry
  `(i, 0)` of the column and entry `(0, j)` of the row are labels `i` and `j`. After the kernels it sums each of the
  two [8192, 1] outputs over all of its entries (from the literal 0), negates the first sum and divides by the second.
  The contents of every buffer between two items are the fold of the operations so far over the launch memory; reading
  one buffer off that fold is a computation.
-/
import proofs.«116760_j49323404427556_1_alg».proof.Proof.Gen.KernelIdeal.Regions
import proofs.«116760_j49323404427556_1_alg».proof.Proof.RefRows
import proofs.«116760_j49323404427556_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem
  Idealize.ShloMosaic.StableHlo Idealize.ShloMosaic.ValueIdx Cert.RefValue

variable (m : (ℓ : Loc nD τ sig) → Buf (Elt Ideal) ℓ) (c : Dev nD) (outs : Gen.Outs (F := Ideal))

/-! ## Before the kernels: the rows and the labels -/

/-- The array of rows the kernels read is the chain of Proof/RefRows.lean on the launch contents of the two inputs
    (the change of format at its end is the identity). -/
theorem V4_rowsArr :
    Gen.V4 (F := Ideal) m c main_v7
      = rowsArr rows_reduces scalar_nonempty rows_bcast_col rows_bcast_row rows_concat
          (m ((c.tc : Thread nD τ).loc main_arg1)) (m ((c.tc : Thread nD τ).loc main_arg2)) := by
  show StableHlo.after Gen.hostOps0_3 (Gen.V3 m c) (Proc.devRef .tc main_v7) = _
  dsimp only [Gen.hostOps0_3]
  after_results <;> rfl

/-- Entry `(i, k)` of it is row `i`'s entry `k`. -/
theorem V4_rows (i : Fin 8192) (k : Fin 512) :
    Gen.V4 (F := Ideal) m c main_v7 (ix2 i k)
      = rows (m ((c.tc : Thread nD τ).loc main_arg1)) (m ((c.tc : Thread nD τ).loc main_arg2)) i k :=
  congrFun (V4_rowsArr m c) (ix2 i k)

/-- The array of labels is the one of Proof/RefRows.lean on the launch contents of the index input. -/
theorem V4_labelsArr :
    Gen.V4 (F := Ideal) m c main_v8 = labelsArr labels_concat (m ((c.tc : Thread nD τ).loc main_arg3)) := by
  show StableHlo.after Gen.hostOps0_3 (Gen.V3 m c) (Proc.devRef .tc main_v8) = _
  dsimp only [Gen.hostOps0_3]
  after_results <;> rfl

/-- The labels as a column: the array of labels reshaped to [8192, 1]. -/
theorem V4_col :
    Gen.V4 (F := Ideal) m c main_v9
      = shapeCast S8192x1 (labelsArr labels_concat (m ((c.tc : Thread nD τ).loc main_arg3)))
          (by decide : S8192.ShapeCasts S8192x1) := by
  show StableHlo.after Gen.hostOps0_3 (Gen.V3 m c) (Proc.devRef .tc main_v9) = _
  dsimp only [Gen.hostOps0_3]
  after_results <;> rfl

/-- The labels as a row: the array of labels reshaped to [1, 8192]. -/
theorem V4_row :
    Gen.V4 (F := Ideal) m c main_v10
      = shapeCast S1x8192 (labelsArr labels_concat (m ((c.tc : Thread nD τ).loc main_arg3)))
          (by decide : S8192.ShapeCasts S1x8192) := by
  show StableHlo.after Gen.hostOps0_3 (Gen.V3 m c) (Proc.devRef .tc main_v10) = _
  dsimp only [Gen.hostOps0_3]
  after_results <;> rfl

/-- Entry `(i, 0)` of the column is label `i`. -/
theorem V4_labels_col (i : Fin 8192) :
    Gen.V4 (F := Ideal) m c main_v9 (ix2 i (0 : Fin 1)) = labels (m ((c.tc : Thread nD τ).loc main_arg3)) i := by
  rw [V4_col]
  refine shapeCast_apply _ _ _ (ix1 i) ?_
  rw [Shape.rowMajor_val_one, Shape.rowMajor_val_two]
  show i.val = i.val * 1 + 0
  omega

/-- Entry `(0, j)` of the row is label `j`. -/
theorem V4_labels_row (j : Fin 8192) :
    Gen.V4 (F := Ideal) m c main_v10 (ix2 (0 : Fin 1) j) = labels (m ((c.tc : Thread nD τ).loc main_arg3)) j := by
  rw [V4_row]
  refine shapeCast_apply _ _ _ (ix1 j) ?_
  rw [Shape.rowMajor_val_one, Shape.rowMajor_val_two]
  show j.val = 0 * 8192 + j.val
  omega

/-! ## After the kernels: the two totals and their quotient -/

/-- The sum of an [8192, 1] array over all of its entries, from the literal 0, is the sum of its column. -/
theorem col_total (x : FVec Ideal S8192x1 .f32) (h : S8192x1.ReducesTo [0, 1] S_) (h0 : 0 < S_.numel) (j : S_.Idx) :
    Host.reduceAdd x (constant (F := Ideal) S_ .f32 0x00000000#32) h h0 j = ∑ i : Fin 8192, x (ix2 i (0 : Fin 1)) := by
  simp only [Host.reduceAdd, Ideal.hostReduceAdd_def]
  rw [Ideal.hostReduceAdd_total h (fun b => b.elim0) x _ j]
  show Ideal.ofBits .f32 0x00000000#32 + _ = _
  rw [Ideal.ofBits_zero_f32, zero_add]
  refine (sum_idx2 _).trans (Finset.sum_congr rfl fun a _ => ?_)
  exact Fin.sum_univ_one _

/-- What the second kernel left in its first output is still there when the last operations start … -/
theorem V6_first : Gen.V6 (F := Ideal) m outs c main_v12_0 = outs 6 main_v12_0 c :=
  (Function.update_of_ne (StableHlo.devRef_ne_of_ne (by decide : main_v12_0 ≠ main_v12_1) :
      (Proc.devRef .tc main_v12_0 : DevRef τ sig) ≠ Proc.devRef .tc main_v12_1) _ _).trans (Function.update_self _ _ _)

/-- … and so is what it left in its second. -/
theorem V6_second : Gen.V6 (F := Ideal) m outs c main_v12_1 = outs 6 main_v12_1 c :=
  Function.update_self _ _ _

/-- The program's result: minus the total of the second kernel's first output over the total of its second. -/
theorem V7_result :
    Gen.V7 (F := Ideal) m outs c main_v16
      = fun _ => Ideal.div (Neg.neg (∑ i : Fin 8192, outs 6 main_v12_0 c (ix2 i (0 : Fin 1))))
          (∑ i : Fin 8192, outs 6 main_v12_1 c (ix2 i (0 : Fin 1))) := by
  have e : Gen.V7 (F := Ideal) m outs c main_v16
      = Host.divf (Host.negf (Host.reduceAdd (Gen.V6 (F := Ideal) m outs c main_v12_0)
            (constant (F := Ideal) S_ .f32 0x00000000#32) (by decide : S8192x1.ReducesTo [0, 1] S_) (by decide : 0 < S_.numel)))
          (Host.reduceAdd (Gen.V6 (F := Ideal) m outs c main_v12_1)
            (constant (F := Ideal) S_ .f32 0x00000000#32) (by decide : S8192x1.ReducesTo [0, 1] S_) (by decide : 0 < S_.numel)) := by
    show StableHlo.after Gen.hostOps2 (Gen.V6 m outs c) (Proc.devRef .tc main_v16) = _
    dsimp only [Gen.hostOps2]
    after_results <;> rfl
  funext j
  rw [e]
  show Ideal.div (-(Host.reduceAdd (F := Ideal) (Gen.V6 (F := Ideal) m outs c main_v12_0)
        (constant (F := Ideal) S_ .f32 0x00000000#32) (by decide : S8192x1.ReducesTo [0, 1] S_) (by decide : 0 < S_.numel) j))
      (Host.reduceAdd (F := Ideal) (Gen.V6 (F := Ideal) m outs c main_v12_1)
        (constant (F := Ideal) S_ .f32 0x00000000#32) (by decide : S8192x1.ReducesTo [0, 1] S_) (by decide : 0 < S_.numel) j) = _
  rw [col_total, col_total, V6_first, V6_second]

end Cert.KernelIdeal.Hand

end
-- ==== Proof.KValue.lean ====
/-
  The kernel program's result, at the ideal instance, is the loss of the specification at the rows and labels the
  reference normalises: the host prefix leaves the rows array and the two label layouts (the same host operations the
  reference applies), region 0 leaves each row's hard-negative normaliser, region 1 each row's sum of log-ratios over
  its positives and their number, and the host tail divides minus the total of the first by the total of the second.
-/
import proofs.«116760_j49323404427556_1_alg».proof.Proof.Run
import proofs.«116760_j49323404427556_1_alg».proof.Proof.R0Val
import proofs.«116760_j49323404427556_1_alg».proof.Proof.R1Val
import proofs.«116760_j49323404427556_1_alg».proof.Proof.KHost
import proofs.«116760_j49323404427556_1_alg».proof.Proof.RefRows
import proofs.«116760_j49323404427556_1_alg».proof.Proof.Spec

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The total of a column array's 8192 entries. -/
def colSum (x : FVec Ideal S8192x1 .f32) : EReal := ∑ i : Fin 8192, x (ValueIdx.ix2 i (0 : Fin 1))

theorem colSum_eq (x : FVec Ideal S8192x1 .f32) (g : Fin 8192 → EReal) (h : ∀ i : Fin 8192, x (ValueIdx.ix2 i (0 : Fin 1)) = g i) :
    colSum x = ∑ i : Fin 8192, g i := Finset.sum_congr rfl fun i _ => h i

/-- The tail's value over the two column totals. -/
theorem V7_cols (outs' : Gen.Outs (F := Ideal)) :
    Gen.V7 (F := Ideal) m outs' c main_v16 = fun _ => Ideal.div (Neg.neg (colSum (outs' 6 main_v12_0 c))) (colSum (outs' 6 main_v12_1 c)) :=
  V7_result m c outs'

/-- What the tail computes from the two regions' outputs is the specification's loss of the normalised rows and the labels. -/
theorem kernel_value :
    Gen.V7 (F := Ideal) m (outs m) c main_v16
      = fun _ => Cert.Spec.loss (Cert.RefValue.rows (m ((c.tc : Thread nD τ).loc main_arg1)) (m ((c.tc : Thread nD τ).loc main_arg2)))
          (Cert.RefValue.labels (m ((c.tc : Thread nD τ).loc main_arg3))) := by
  generalize ho : Cert.RefValue.rows (m ((c.tc : Thread nD τ).loc main_arg1)) (m ((c.tc : Thread nD τ).loc main_arg2)) = o
  generalize hl : Cert.RefValue.labels (m ((c.tc : Thread nD τ).loc main_arg3)) = l
  -- region 0's entry contents
  have h7 : ∀ (i : Fin 8192) (k : Fin 512), EV0 m c main_v7 (ValueIdx.ix2 i k) = o i k := fun i k => by rw [← ho]; exact V4_rows m c i k
  have h9 : ∀ i : Fin 8192, EV0 m c main_v9 (ValueIdx.ix2 i (0 : Fin 1)) = l i := fun i => by rw [← hl]; exact V4_labels_col m c i
  have h10 : ∀ j : Fin 8192, EV0 m c main_v10 (ValueIdx.ix2 (0 : Fin 1) j) = l j := fun j => by rw [← hl]; exact V4_labels_row m c j
  have hn : ∀ i : Fin 8192, out11 m c (ValueIdx.ix2 i (0 : Fin 1)) = Cert.Spec.nes o l i := out11_value (EV0 m) q0 c o l h7 h9 h10
  -- region 1's entry contents: region 0 changed its output array only
  have e7 : ∀ (i : Fin 8192) (k : Fin 512), EV1 m c main_v7 (ValueIdx.ix2 i k) = o i k := fun i k => by
    rw [show EV1 m c main_v7 = EV0 m c main_v7 from Gen.V5_of m (outsA m) c main_v7 (by decide)]; exact h7 i k
  have e9 : ∀ i : Fin 8192, EV1 m c main_v9 (ValueIdx.ix2 i (0 : Fin 1)) = l i := fun i => by
    rw [show EV1 m c main_v9 = EV0 m c main_v9 from Gen.V5_of m (outsA m) c main_v9 (by decide)]; exact h9 i
  have e10 : ∀ j : Fin 8192, EV1 m c main_v10 (ValueIdx.ix2 (0 : Fin 1) j) = l j := fun j => by
    rw [show EV1 m c main_v10 = EV0 m c main_v10 from Gen.V5_of m (outsA m) c main_v10 (by decide)]; exact h10 j
  have e11 : ∀ i : Fin 8192, EV1 m c main_v11 (ValueIdx.ix2 i (0 : Fin 1)) = Cert.Spec.nes o l i := fun i => by
    rw [show EV1 m c main_v11 = out11 m c from by
      show Gen.V5 m (outsA m) c main_v11 = _; unfold Gen.V5; rw [Function.update_self, outsA_v11]]
    exact hn i
  obtain ⟨hsl, hct⟩ := out12_value (EV1 m) q1 c o l e7 e9 e10 e11
  refine (V7_cols m c (outs m)).trans ?_
  funext _
  rw [outs_v12_0, outs_v12_1, colSum_eq (out120 m c) (Cert.Spec.sl o l) hsl, colSum_eq (out121 m c) (Cert.Spec.ct l) hct]
  rfl

end Cert.KernelIdeal.Hand

end
-- ==== Proof.RefCost.lean ====
/-
  The reference's similarity matrix, entry by entry: `exp (2 · ⟨row a, row b⟩)`.

  The reference contracts the second axis of the array of rows with itself: entry `(a, b)` of the product is the sum
  over `k` of row `a`'s entry `k` times row `b`'s entry `k`; the literal 2 is broadcast and multiplied in, and the
  exponential is taken entry by entry. The array of rows is the chain of whole-array operations of Proof/RefRows.lean,
  met here as one term and never opened.
-/
import proofs.«116760_j49323404427556_1_alg».proof.Proof.RefReadP
import proofs.«116760_j49323404427556_1_alg».proof.Proof.Spec
import proofs.«116760_j49323404427556_1_alg».proof.Proof.RefRows

noncomputable section

namespace Cert.RefValue

open Idealize.ShloMosaic Idealize.ShloMosaic.ValueIdx Cert.ReferenceIdeal Cert.ReferenceIdeal.ReadP

variable (a1 a2 : FVec Ideal S4096x512 .f32)

/-- The reference's array of rows is the chain of Proof/RefRows.lean (the same operations on the same inputs). -/
theorem rows_stage : val_main_v9 (F := Ideal) a1 a2
    = rowsArr rows_reduces scalar_nonempty rows_bcast_col rows_bcast_row rows_concat a1 a2 := rfl

/-- The left factor of entry `(a, b)`'s term `k` is row `a`'s entry `k` … -/
theorem dot_left (a b : Fin 8192) (k : Fin 512) : lidx_main_v11 (ix2 a b) k = ix2 a k := by
  funext d; match d with | ⟨0, _⟩ => rfl | ⟨1, _⟩ => rfl

/-- … and the right factor row `b`'s entry `k`. -/
theorem dot_right (a b : Fin 8192) (k : Fin 512) : ridx_main_v11 (ix2 a b) k = ix2 b k := by
  funext d; match d with | ⟨0, _⟩ => rfl | ⟨1, _⟩ => rfl

/-- Entry `(a, b)` of the reference's similarity matrix is the specification's `cost` of rows `a` and `b`. -/
theorem cost_at (a b : Fin 8192) :
    val_main_v14 (F := Ideal) a1 a2 (ix2 a b) = Cert.Spec.cost (rows a1 a2) a b := by
  rw [val_main_v14_apply, val_main_v13_apply, val_main_v12_apply, val_main_cst_apply, val_main_v11_apply]
  simp only [dot_left, dot_right, rows_stage]
  rfl

end Cert.RefValue

end
-- ==== Proof.RefAlg.lean ====
/-
  The arithmetic of the loss's indicators on the extended reals, one pair of rows at a time.

  A comparison of two words, read as a number, is 1 or 0; so "same label" `e`, "same index" `d`, "different label"
  `1 − e` and "positive pair" `e − d` are each 1 or 0, and a product with one of them keeps a value or replaces it by 0
  — for EVERY extended real, the infinities included (`0 · x = 0`, `1 · x = x`). The power `x ^ (1/2)` is the square
  root on `[0, ⊤]`, where every similarity `exp y` lies. Under the mask "positive pair", the logarithm's argument is
  the ratio on the positives and 1 elsewhere, and `log 1 = 0`.
-/
import Idealize.ShloMosaic.PureOps.Ideal
import Idealize.ShloMosaic.PureOps.Ideal.Laws
import Idealize.ShloMosaic.Lib.ValueIdx

noncomputable section

namespace Cert.RefValue

open Idealize.ShloMosaic

/-! ## The three literals -/

/-- The word `0x3F800000` denotes 1. -/
theorem ofBits_one : Ideal.ofBits .f32 0x3F800000#32 = 1 := by
  simp [Ideal.ofBits, Ideal.ieee, -EReal.coe_mul]; norm_num

/-- The word `0x3F000000` denotes 1/2. -/
theorem ofBits_half : Ideal.ofBits .f32 0x3F000000#32 = ((1 / 2 : ℝ) : EReal) := by
  simp [Ideal.ofBits, Ideal.ieee, -EReal.coe_mul]; norm_num

/-! ## Comparisons of words as numbers -/

/-- The equality of two words, converted to a number, is 1 when they are equal and 0 when not. -/
theorem eq_as_number {w : Nat} (x y : BitVec w) :
    FloatOps.uitofp (F := Ideal) .f32 (IntOp.cmpi .eq x y) = if x = y then (1 : EReal) else 0 := by
  by_cases h : x = y
  · subst h
    rw [if_pos rfl]
    show (((BitVec.ofBool (x == x)).toNat : ℝ) : EReal) = 1
    simp
  · rw [if_neg h]
    show (((BitVec.ofBool (x == y)).toNat : ℝ) : EReal) = 0
    simp [h]

/-- Two indices below 8192, written as 32-bit words (the first with the zero word added), are equal words exactly
    when they are equal indices. -/
theorem index_words_eq_iff (a b : Fin 8192) :
    IntOp.addi (BitVec.ofNat 32 a.val) 0#32 = BitVec.ofNat 32 b.val ↔ a = b := by
  have ha := a.isLt
  have hb := b.isLt
  constructor
  · intro h
    have h' : (IntOp.addi (BitVec.ofNat 32 a.val) 0#32).toNat = (BitVec.ofNat 32 b.val).toNat := congrArg BitVec.toNat h
    simp only [IntOp.addi, BitVec.add_zero, BitVec.toNat_ofNat] at h'
    exact Fin.ext (by omega)
  · rintro rfl
    simp [IntOp.addi]

/-! ## The indicators -/

section Indicators
variable (p q : Prop) [Decidable p] [Decidable q]

/-- "Different label" is one minus "same label". -/
theorem one_sub_ind : (1 : EReal) - (if p then (1 : EReal) else 0) = if p then 0 else 1 := by
  by_cases h : p
  · rw [if_pos h, if_pos h, ← EReal.coe_one, ← EReal.coe_sub, sub_self, EReal.coe_zero]
  · rw [if_neg h, if_neg h, sub_zero]

/-- "Positive pair" is "same label" minus "same index", an index having one label. -/
theorem ind_sub_ind (hqp : q → p) :
    (if p then (1 : EReal) else 0) - (if q then (1 : EReal) else 0) = if p ∧ ¬q then 1 else 0 := by
  by_cases hq : q
  · have hp := hqp hq
    rw [if_pos hp, if_pos hq, if_neg (fun h => h.2 hq), ← EReal.coe_one, ← EReal.coe_sub, sub_self, EReal.coe_zero]
  · by_cases hp : p
    · rw [if_pos hp, if_neg hq, if_pos ⟨hp, hq⟩, sub_zero]
    · rw [if_neg hp, if_neg hq, if_neg (fun h => hp h.1), sub_zero]

/-- A product with "different label" keeps the value on different labels and is 0 on equal ones. -/
theorem notind_mul (c : EReal) : (if p then (0 : EReal) else 1) * c = if p then 0 else c := by
  by_cases h : p
  · rw [if_pos h, if_pos h, zero_mul]
  · rw [if_neg h, if_neg h, one_mul]

end Indicators

/-! ## The half power is the square root on `[0, ⊤]` -/

/-- A similarity `exp y` is in `[0, ⊤]`. -/
theorem exp_nonneg (y : EReal) : 0 ≤ Ideal.exp y := by
  induction y using EReal.rec with
  | bot => exact le_refl _
  | top => exact le_top
  | coe r => rw [Ideal.exp_coe]; exact_mod_cast (Real.exp_pos r).le

/-- On `[0, ⊤]` the power with exponent 1/2 is the square root (`⊤` to `⊤`). -/
theorem pow_half_eq_sqrt (x : EReal) (hx : 0 ≤ x) : Ideal.pow x ((1 / 2 : ℝ) : EReal) = Ideal.sqrt x := by
  induction x using EReal.rec with
  | bot => exact absurd hx (by simp)
  | top =>
    rw [Ideal.pow_top, Ideal.sqrt_top, if_pos (by exact_mod_cast (by norm_num : (0 : ℝ) < 1 / 2))]
  | coe r =>
    have hr : 0 ≤ r := by exact_mod_cast hx
    rw [Ideal.pow_coe_coe, Ideal.sqrt_coe, if_neg (not_lt.mpr hr)]
    exact congrArg _ (Real.sqrt_eq_rpow r).symm

/-- The square root of 0 is 0. -/
theorem sqrt_zero : Ideal.sqrt 0 = 0 := by
  rw [← EReal.coe_zero, Ideal.sqrt_coe, if_neg (lt_irrefl _), Real.sqrt_zero]

/-- The importance weight of a pair: "different label" times the half power of the masked similarity is the square
    root of the masked similarity. -/
theorem weight_eq_sqrt (p : Prop) [Decidable p] (c : EReal) (hc : 0 ≤ c) :
    (if p then (0 : EReal) else 1) * Ideal.pow (if p then 0 else c) ((1 / 2 : ℝ) : EReal)
      = Ideal.sqrt (if p then 0 else c) := by
  by_cases h : p
  · rw [if_pos h, if_pos h, zero_mul, sqrt_zero]
  · rw [if_neg h, if_neg h, one_mul, pow_half_eq_sqrt c hc]

/-! ## The masked logarithm -/

/-- The logarithm of 1 is 0. -/
theorem log_one : Ideal.log 1 = 0 := by
  rw [← EReal.coe_one, Ideal.log_coe, if_neg (by norm_num), Real.log_one, EReal.coe_zero]

/-- A pair's summand: where the pair is positive the logarithm of its ratio, elsewhere `log 1 · 0 = 0`. The mask is
    the comparison "positive indicator above 0". -/
theorem masked_log (r : Prop) [Decidable r] (c t : EReal) :
    Ideal.log (Scalar.select (Ideal.cmp .ogt (if r then (1 : EReal) else 0) 0)
        (Ideal.div ((if r then (1 : EReal) else 0) * c) ((if r then (1 : EReal) else 0) * c + t)) 1)
      * (if r then (1 : EReal) else 0)
      = Ideal.log (Ideal.div c (c + t)) * (if r then (1 : EReal) else 0) := by
  by_cases h : r
  · simp only [if_pos h, one_mul]
    have : Ideal.cmp .ogt (1 : EReal) 0 = 1#1 := by simp [Ideal.cmp]
    rw [this, ValueIdx.select_one]
  · simp only [if_neg h, mul_zero]

end Cert.RefValue

end
-- ==== Proof.RefInd.lean ====
/-
  The reference's three indicator matrices, entry by entry.

  "Same label": the labels broadcast along the rows and along the columns, compared as words, the bit read as a
  number — 1 where row `a` and row `b` carry the same label, else 0. "Different label": 1 minus it. "Same index": the
  row index and the column index, as 32-bit words, compared likewise — indices below 8192 are equal words exactly when
  they are equal. "Positive pair": same label minus same index, which is the specification's `pos`: 1 when the labels
  agree and the indices differ, else 0 (on the diagonal the labels agree, so the difference is never negative).
-/
import proofs.«116760_j49323404427556_1_alg».proof.Proof.RefReadP
import proofs.«116760_j49323404427556_1_alg».proof.Proof.Spec
import proofs.«116760_j49323404427556_1_alg».proof.Proof.RefRows
import proofs.«116760_j49323404427556_1_alg».proof.Proof.RefAlg

noncomputable section

namespace Cert.RefValue

open Idealize.ShloMosaic Idealize.ShloMosaic.ValueIdx Cert.ReferenceIdeal Cert.ReferenceIdeal.ReadP

variable (a3 : IVec S4096 32)

/-- The reference's array of labels is the one of Proof/RefRows.lean. -/
theorem labels_stage : val_main_v10 (F := Ideal) a3 = labelsArr labels_concat a3 := rfl

/-- The label broadcast along the rows is row `a`'s at entry `(a, b)` … -/
theorem label_of_row (a b : Fin 8192) : idx_main_v15 (idx_main_v17 (ix2 a b)) = ix1 a := by
  funext d; match d with | ⟨0, _⟩ => rfl

/-- … and the one broadcast along the columns is row `b`'s. -/
theorem label_of_col (a b : Fin 8192) : idx_main_v16 (idx_main_v18 (ix2 a b)) = ix1 b := by
  funext d; match d with | ⟨0, _⟩ => rfl

/-- "Same label" at `(a, b)`. -/
theorem same_label_at (a b : Fin 8192) :
    val_main_v20 (F := Ideal) a3 (ix2 a b) = if labels a3 a = labels a3 b then (1 : EReal) else 0 := by
  rw [val_main_v20_apply, val_main_v19_apply, val_main_v17_apply, val_main_v15_apply, val_main_v18_apply,
    val_main_v16_apply, label_of_row, label_of_col, labels_stage, eq_as_number]
  rfl

/-- "Different label" at `(a, b)`: one minus "same label". -/
theorem diff_label_at (a b : Fin 8192) :
    val_main_v22 (F := Ideal) a3 (ix2 a b) = if labels a3 a = labels a3 b then (0 : EReal) else 1 := by
  rw [val_main_v22_apply, val_main_v21_apply, val_main_cst_0_apply, same_label_at]
  show Ideal.ofBits .f32 0x3F800000#32 - _ = _
  rw [ofBits_one, one_sub_ind]

/-- "Same index" at `(a, b)`: the identity matrix. -/
theorem same_index_at (a b : Fin 8192) :
    val_main_v28 (F := Ideal) (ix2 a b) = if a = b then (1 : EReal) else 0 := by
  rw [val_main_v28_apply, val_main_v27_apply, val_main_v26_apply, val_main_v23_apply, val_main_v25_apply,
    val_main_c_apply, val_main_v24_apply, eq_as_number]
  exact if_congr (index_words_eq_iff a b) rfl rfl

/-- "Positive pair" at `(a, b)` is the specification's `pos`. -/
theorem pos_at (a b : Fin 8192) :
    val_main_v29 (F := Ideal) a3 (ix2 a b) = Cert.Spec.pos (labels a3) a b := by
  rw [val_main_v29_apply, same_label_at, same_index_at]
  show (if labels a3 a = labels a3 b then (1 : EReal) else 0) - (if a = b then (1 : EReal) else 0) = _
  rw [ind_sub_ind _ _ (fun h : a = b => by rw [h])]
  exact if_congr Iff.rfl rfl rfl

end Cert.RefValue

end
-- ==== Proof.RefSums.lean ====
/-
  The reference's hard-negative normaliser, row by row.

  The masked similarity ("different label" times the similarity) is the specification's `neg`; the importance weight
  ("different label" times the half power of the masked similarity) is its square root, the similarity being in
  `[0, ⊤]`; the two row sums — of the weights times the masked similarities, and of the weights — are the
  specification's `s2` and `s1` (the host's sum starts from the literal 0), and their quotient, scaled by the literal
  8190 and broadcast back along the row, is `scale · nes`.
-/
import proofs.«116760_j49323404427556_1_alg».proof.Proof.RefCost
import proofs.«116760_j49323404427556_1_alg».proof.Proof.RefInd

noncomputable section

namespace Cert.RefValue

open Idealize.ShloMosaic Idealize.ShloMosaic.ValueIdx Cert.ReferenceIdeal Cert.ReferenceIdeal.ReadP

variable (a1 a2 : FVec Ideal S4096x512 .f32) (a3 : IVec S4096 32)

/-- The masked similarity at `(a, b)` is the specification's `neg`. -/
theorem neg_at (a b : Fin 8192) :
    val_main_v31 (F := Ideal) a1 a2 a3 (ix2 a b) = Cert.Spec.neg (rows a1 a2) (labels a3) a b := by
  rw [val_main_v31_apply, diff_label_at, cost_at]
  show (if labels a3 a = labels a3 b then (0 : EReal) else 1) * _ = _
  rw [notind_mul]
  rfl

/-- The importance weight at `(a, b)` is the square root of the masked similarity. -/
theorem weight_at (a b : Fin 8192) :
    val_main_v34 (F := Ideal) a1 a2 a3 (ix2 a b) = Ideal.sqrt (Cert.Spec.neg (rows a1 a2) (labels a3) a b) := by
  rw [val_main_v34_apply, val_main_v33_apply, val_main_v32_apply, val_main_cst_1_apply, diff_label_at, neg_at]
  show (if labels a3 a = labels a3 b then (0 : EReal) else 1)
      * Ideal.pow (Cert.Spec.neg (rows a1 a2) (labels a3) a b) (Ideal.ofBits .f32 0x3F000000#32) = _
  rw [ofBits_half]
  unfold Cert.Spec.neg Cert.Spec.cost
  exact weight_eq_sqrt _ _ (exp_nonneg _)

/-- Row `a`'s term `b` of either row sum sits at entry `(a, b)`. -/
theorem row_sum_index (a : Fin 8192) (k : Fin 8192) : idx_main_v36 (ix1 a) k = ix2 a k := by
  funext d; match d with | ⟨0, _⟩ => rfl | ⟨1, _⟩ => rfl
theorem row_sum_index' (a : Fin 8192) (k : Fin 8192) : idx_main_v37 (ix1 a) k = ix2 a k := by
  funext d; match d with | ⟨0, _⟩ => rfl | ⟨1, _⟩ => rfl

/-- The sum of the weights times the masked similarities along row `a` is the specification's `s2`. -/
theorem s2_at (a : Fin 8192) :
    val_main_v36 (F := Ideal) a1 a2 a3 (ix1 a) = Cert.Spec.s2 (rows a1 a2) (labels a3) a := by
  rw [val_main_v36_apply, val_main_cst_2_apply]
  show Ideal.ofBits .f32 0x00000000#32 + _ = _
  rw [Ideal.ofBits_zero_f32, zero_add]
  unfold Cert.Spec.s2
  refine Finset.sum_congr rfl fun b _ => ?_
  rw [row_sum_index, val_main_v35_apply, weight_at, neg_at]
  rfl

/-- The sum of the weights along row `a` is the specification's `s1`. -/
theorem s1_at (a : Fin 8192) :
    val_main_v37 (F := Ideal) a1 a2 a3 (ix1 a) = Cert.Spec.s1 (rows a1 a2) (labels a3) a := by
  rw [val_main_v37_apply, val_main_cst_3_apply]
  show Ideal.ofBits .f32 0x00000000#32 + _ = _
  rw [Ideal.ofBits_zero_f32, zero_add]
  unfold Cert.Spec.s1
  refine Finset.sum_congr rfl fun b _ => ?_
  rw [row_sum_index', weight_at]

/-- Their quotient is the specification's `nes`. -/
theorem nes_at (a : Fin 8192) :
    val_main_v38 (F := Ideal) a1 a2 a3 (ix1 a) = Cert.Spec.nes (rows a1 a2) (labels a3) a := by
  rw [val_main_v38_apply, s2_at, s1_at]
  rfl

/-- The column broadcast back along row `a` reads row `a`'s quotient at every `(a, b)`. -/
theorem row_of_entry (a b : Fin 8192) : idx_main_v39 (idx_main_v42 (ix2 a b)) = ix1 a := by
  funext d; match d with | ⟨0, _⟩ => rfl

/-- The scaled normaliser at `(a, b)`: the literal 8190 times row `a`'s `nes`. -/
theorem scaled_nes_at (a b : Fin 8192) :
    val_main_v42 (F := Ideal) a1 a2 a3 (ix2 a b) = Cert.Spec.scale * Cert.Spec.nes (rows a1 a2) (labels a3) a := by
  rw [val_main_v42_apply, val_main_v41_apply, val_main_v40_apply, val_main_cst_4_apply, val_main_v39_apply,
    row_of_entry, nes_at]
  rfl

end Cert.RefValue

end
-- ==== Proof.RefValue.lean ====
/-
  The reference's result is the loss of the specification: the reference's own operations read one at a time.

  Under the mask "positive pair" the reference takes the logarithm of the pair's ratio
  `pos · cost / (pos · cost + scale · nes)` where the pair is positive and of 1 elsewhere, and multiplies by the
  indicator: on a positive pair that is the specification's log-ratio times 1, elsewhere `log 1 · 0 = 0`, the
  log-ratio times 0. The sum over the whole 8192 × 8192 matrix (from the literal 0) is the sum over the rows of the
  row sums `sl`; the sum of the indicator likewise the sum of the row counts `ct`; the result is minus the first over
  the second. Nothing is assumed of any entry: every step holds on all extended reals.
-/
import proofs.«116760_j49323404427556_1_alg».proof.Defs
import proofs.«116760_j49323404427556_1_alg».proof.Proof.RefRunP
import proofs.«116760_j49323404427556_1_alg».proof.Proof.RefReadP
import proofs.«116760_j49323404427556_1_alg».proof.Proof.Spec
import proofs.«116760_j49323404427556_1_alg».proof.Proof.RefSums

noncomputable section

namespace Cert.RefValue

open Idealize.ShloMosaic Idealize.ShloMosaic.ValueIdx Idealize.ShloMosaic.TcCoe Idealize.SL.Sem Cert.ReferenceIdeal
  Cert.ReferenceIdeal.ReadP

section Stages
variable (a1 a2 : FVec Ideal S4096x512 .f32) (a3 : IVec S4096 32)

/-- The summand of the pair `(a, b)`: the specification's log-ratio times its positive indicator. -/
theorem summand_at (a b : Fin 8192) :
    val_main_v49 (F := Ideal) a1 a2 a3 (ix2 a b)
      = Cert.Spec.logr (rows a1 a2) (labels a3) a b * Cert.Spec.pos (labels a3) a b := by
  rw [val_main_v49_apply, val_main_v48_apply, val_main_v47_apply, val_main_v46_apply, val_main_v45_apply,
    val_main_cst_5_apply, val_main_v44_apply, val_main_v43_apply, val_main_v30_apply, val_main_call3_v1_apply,
    val_main_call3_v0_apply, val_main_cst_6_apply, pos_at, cost_at, scaled_nes_at]
  show Ideal.log (Scalar.select (Ideal.cmp .ogt (Cert.Spec.pos (labels a3) a b) (Ideal.ofBits .f32 0x00000000#32))
      (Ideal.div (Cert.Spec.pos (labels a3) a b * Cert.Spec.cost (rows a1 a2) a b)
        (Cert.Spec.pos (labels a3) a b * Cert.Spec.cost (rows a1 a2) a b
          + Cert.Spec.scale * Cert.Spec.nes (rows a1 a2) (labels a3) a))
      (Ideal.ofBits .f32 0x3F800000#32)) * Cert.Spec.pos (labels a3) a b = _
  rw [Ideal.ofBits_zero_f32, ofBits_one]
  unfold Cert.Spec.pos Cert.Spec.logr
  exact masked_log _ _ _

/-- The sum of the summands over the whole matrix is the sum over the rows of the specification's `sl`. -/
theorem total_at (i : S_.Idx) :
    val_main_v50 (F := Ideal) a1 a2 a3 i = ∑ a : Fin 8192, Cert.Spec.sl (rows a1 a2) (labels a3) a := by
  rw [val_main_v50_apply, val_main_cst_7_apply]
  show Ideal.ofBits .f32 0x00000000#32 + _ = _
  rw [Ideal.ofBits_zero_f32, zero_add]
  refine (sum_idx2 _).trans (Finset.sum_congr rfl fun a _ => ?_)
  unfold Cert.Spec.sl
  exact Finset.sum_congr rfl fun b _ => summand_at a1 a2 a3 a b

/-- The sum of the positive indicator over the whole matrix is the sum over the rows of the specification's `ct`. -/
theorem count_at (i : S_.Idx) :
    val_main_v52 (F := Ideal) a3 i = ∑ a : Fin 8192, Cert.Spec.ct (labels a3) a := by
  rw [val_main_v52_apply, val_main_cst_8_apply]
  show Ideal.ofBits .f32 0x00000000#32 + _ = _
  rw [Ideal.ofBits_zero_f32, zero_add]
  refine (sum_idx2 _).trans (Finset.sum_congr rfl fun a _ => ?_)
  unfold Cert.Spec.ct
  exact Finset.sum_congr rfl fun b _ => pos_at a3 a b

/-- The reference's last stage, as a function of its three live arguments, is the loss of the rows and labels. -/
theorem stage_eq :
    val_main_v53 (F := Ideal) a1 a2 a3 = fun _ => Cert.Spec.loss (rows a1 a2) (labels a3) := by
  funext i
  rw [val_main_v53_apply, val_main_v51_apply, total_at, count_at]
  rfl

end Stages

/-- The reference's result: the loss of the rows and labels. The first argument (the features) is normalised by the
    reference and discarded; the result does not depend on it. -/
theorem result_eq (a0 : FVec Ideal S4096x2x512 .f32) (a1 a2 : FVec Ideal S4096x512 .f32) (a3 : IVec S4096 32) :
    val_main_v53 (F := Ideal) a1 a2 a3 = fun _ => Cert.Spec.loss (rows a1 a2) (labels a3) :=
  stage_eq a1 a2 a3

/-- The same of the term the reference's run states for its result buffer, from any launch memory. -/
theorem result_mem (m : (ℓ : Loc nD τ sig) → Buf (Elt Ideal) ℓ) (c : Dev nD) :
    Cert.ReferenceIdeal.ValueP.res_main_v53 (F := Ideal) m c
      = fun _ => Cert.Spec.loss (rows (m ((c.tc : Thread nD τ).loc main_arg1)) (m ((c.tc : Thread nD τ).loc main_arg2)))
          (labels (m ((c.tc : Thread nD τ).loc main_arg3))) :=
  (val_main_v53_eq (F := Ideal) m c).trans (stage_eq _ _ _)

end Cert.RefValue

end
-- ==== Proof.lean ====
/-
  The five claims. Both printed programs of the kernel — the word-level one and its reading at the ideal instance — run
  through the same two regions (the same text at two float instances): each region's body is run once per control case
  (first column block: the two row accumulators zeroed, then added to; middle blocks: added to; last block: added to
  and the row results stored), the accumulators carried between grid points, the rows array shared by the two windows
  that read it; that gives both frames. The reference's frame is its run with the result dropped. The idealization
  rewrote nothing. At the ideal instance both results are the loss of the specification (Proof/Spec.lean) of the
  normalised rows and the doubled labels: the reference by reading its operations one at a time, the kernel by adding
  its per-block row sums over the sixteen column blocks and reading the host tail; no entry is assumed finite.
-/
import proofs.«116760_j49323404427556_1_alg».proof.Defs
import proofs.«116760_j49323404427556_1_alg».proof.Proof.Gen.Kernel
import proofs.«116760_j49323404427556_1_alg».proof.Proof.Gen.KernelIdeal
import proofs.«116760_j49323404427556_1_alg».proof.Proof.Gen.ReferenceIdeal
import proofs.«116760_j49323404427556_1_alg».proof.Proof.Gen.Pre_finite_inputs
import proofs.«116760_j49323404427556_1_alg».proof.Proof.WRun
import proofs.«116760_j49323404427556_1_alg».proof.Proof.Run
import proofs.«116760_j49323404427556_1_alg».proof.Proof.KValue
import proofs.«116760_j49323404427556_1_alg».proof.Proof.RefValue

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- At the ideal instance the kernel's result buffer ends at the specification's loss of the normalised rows and the
    labels (the run with the result named, then the value of what the tail computes), and so does the reference's,
    from arguments that agree. -/
theorem algebraic : Cert.algebraic_KernelIdeal_ReferenceIdeal := by
  intro m ρ m' ρ' _ hagree
  refine ⟨fun c => fun _ => Cert.Spec.loss
      (Cert.RefValue.rows (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (Cert.RefValue.labels (m ((c.tc : Thread Cert.KernelIdeal.nD Cert.KernelIdeal.τ).loc Cert.KernelIdeal.main_arg3))), ?_, ?_⟩
  · exact (θ_run Cert.KernelIdeal.defs _ _).mono
      (fun _ h c => ⟨(h c).1.trans (Cert.KernelIdeal.Hand.kernel_value m c), (h c).2⟩)
      (Cert.KernelIdeal.Hand.run_val (F := Ideal) m ρ)
  · refine (θ_run Cert.ReferenceIdeal.defs _ _).mono (fun _ h c => ⟨(h c).1.trans ?_, (h c).2⟩)
      (Cert.ReferenceIdeal.ValueP.run (F := Ideal) m' ρ')
    rw [Cert.RefValue.result_mem, (hagree c).2.1, (hagree c).2.2.1, (hagree c).2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
